-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v131)) (v1 : (c : Dev Cert.KernelIdeal.nD) → Buf (Elt Ideal) ((c.tc : Thread Cert.KernelIdeal.nD Cert.KernelIdeal.τ).loc Cert.KernelIdeal.main_v135)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v131) = v0 c
          ∧ r.2.mem ((c.tc : Thread Cert.KernelIdeal.nD Cert.KernelIdeal.τ).loc Cert.KernelIdeal.main_v135) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v179) = v0 c
          ∧ r.2.mem ((c.tc : Thread Cert.ReferenceIdeal.nD Cert.ReferenceIdeal.τ).loc Cert.ReferenceIdeal.main_v183) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S100000 : Shape := ⟨1, ![100000]⟩
abbrev S3x128x128 : Shape := ⟨3, ![3, 128, 128]⟩
abbrev S3x128 : Shape := ⟨2, ![3, 128]⟩
abbrev S384x128 : Shape := ⟨2, ![384, 128]⟩
abbrev S128 : Shape := ⟨1, ![128]⟩
abbrev S128x10 : Shape := ⟨2, ![128, 10]⟩
abbrev S10 : Shape := ⟨1, ![10]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S3x128x128 : S_.BroadcastsInDim S3x128x128 (![] : Fin 0 → Fin S3x128x128.rank)
  reducesTo_S3x128x128_S_d0_1_2 : S3x128x128.ReducesTo [0, 1, 2] S_
  bcast_S_S3x128 : S_.BroadcastsInDim S3x128 (![] : Fin 0 → Fin S3x128.rank)
  reducesTo_S3x128_S_d0_1 : S3x128.ReducesTo [0, 1] S_
  bcast_S_S384x128 : S_.BroadcastsInDim S384x128 (![] : Fin 0 → Fin S384x128.rank)
  reducesTo_S384x128_S_d0_1 : S384x128.ReducesTo [0, 1] S_
  bcast_S_S128 : S_.BroadcastsInDim S128 (![] : Fin 0 → Fin S128.rank)
  reducesTo_S128_S_d0 : S128.ReducesTo [0] S_
  bcast_S_S128x10 : S_.BroadcastsInDim S128x10 (![] : Fin 0 → Fin S128x10.rank)
  reducesTo_S128x10_S_d0_1 : S128x10.ReducesTo [0, 1] S_
  bcast_S_S10 : S_.BroadcastsInDim S10 (![] : Fin 0 → Fin S10.rank)
  reducesTo_S10_S_d0 : S10.ReducesTo [0] S_

variable [Facts]

def fn_part4 {F : FTy → Type} [FloatOps F] (main_v63 : IVec S_ 1) (main_v67 : IVec S3x128 1) : IVec S_ 1 :=
  let main_c_26 : IVec S_ 1 := constantI S_ 1 1#1
  let main_v68 : IVec S_ 1 := (fun x v => Host.reduce IntOp.andi x v reducesTo_S3x128_S_d0_1 h_S_) main_v67 main_c_26
  let main_v69 : IVec S_ 1 := andi main_v63 main_v68
  main_v69

def fn_part3 {F : FTy → Type} [FloatOps F] (main_arg8 : FVec F S3x128 .f32) (main_arg13 : FVec F S128x10 .f32) (main_arg14 : FVec F S10 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128x10 .f32 := Host.absf main_arg13
  let main_cst_20 : FVec F S_ .f32 := constant S_ .f32 0x7F800000#32
  let main_v55 : FVec F S128x10 .f32 := broadcastInDim S128x10 ![] bcast_S_S128x10 main_cst_20
  let main_v56 : IVec S128x10 1 := cmpf .olt main_v54 main_v55
  let main_c_21 : IVec S_ 1 := constantI S_ 1 1#1
  let main_v57 : IVec S_ 1 := (fun x v => Host.reduce IntOp.andi x v reducesTo_S128x10_S_d0_1 h_S_) main_v56 main_c_21
  let main_v58 : IVec S_ 1 := andi main_v53 main_v57
  let main_v59 : FVec F S10 .f32 := Host.absf main_arg14
  let main_cst_22 : FVec F S_ .f32 := constant S_ .f32 0x7F800000#32
  let main_v60 : FVec F S10 .f32 := broadcastInDim S10 ![] bcast_S_S10 main_cst_22
  let main_v61 : IVec S10 1 := cmpf .olt main_v59 main_v60
  let main_c_23 : IVec S_ 1 := constantI S_ 1 1#1
  let main_v62 : IVec S_ 1 := (fun x v => Host.reduce IntOp.andi x v reducesTo_S10_S_d0 h_S_) main_v61 main_c_23
  let main_v63 : IVec S_ 1 := andi main_v58 main_v62
  let main_cst_24 : FVec F S_ .f32 := constant S_ .f32 0x3727C5AC#32
  let main_v64 : FVec F S3x128 .f32 := broadcastInDim S3x128 ![] bcast_S_S3x128 main_cst_24
  let main_v65 : FVec F S3x128 .f32 := addf main_arg8 main_v64
  let main_cst_25 : FVec F S_ .f32 := constant S_ .f32 0x00000000#32
  let main_v66 : FVec F S3x128 .f32 := broadcastInDim S3x128 ![] bcast_S_S3x128 main_cst_25
  let main_v67 : IVec S3x128 1 := cmpf .ogt main_v65 main_v66
  fn_part4 (F := F) main_v63 main_v67

def fn_part2 {F : FTy → Type} [FloatOps F] (main_arg8 : FVec F S3x128 .f32) (main_arg9 : FVec F S3x128x128 .f32) (main_arg10 : FVec F S3x128 .f32) (main_arg11 : FVec F S384x128 .f32) (main_arg12 : FVec F S128 .f32) (main_arg13 : FVec F S128x10 .f32) (main_arg14 : FVec F S10 .f32) (main_v33 : IVec S_ 1) : IVec S_ 1 :=
  let main_v34 : FVec F S3x128x128 .f32 := Host.absf main_arg9
  let main_cst_12 : FVec F S_ .f32 := constant S_ .f32 0x7F800000#32
  let main_v35 : FVec F S3x128x128 .f32 := broadcastInDim S3x128x128 ![] bcast_S_S3x128x128 main_cst_12
  let main_v36 : IVec S3x128x128 1 := cmpf .olt main_v34 main_v35
  let main_c_13 : IVec S_ 1 := constantI S_ 1 1#1
  let main_v37 : IVec S_ 1 := (fun x v => Host.reduce IntOp.andi x v reducesTo_S3x128x128_S_d0_1_2 h_S_) main_v36 main_c_13
  let main_v38 : IVec S_ 1 := andi main_v33 main_v37
  let main_v39 : FVec F S3x128 .f32 := Host.absf main_arg10
  let main_cst_14 : FVec F S_ .f32 := constant S_ .f32 0x7F800000#32
  let main_v40 : FVec F S3x128 .f32 := broadcastInDim S3x128 ![] bcast_S_S3x128 main_cst_14
  let main_v41 : IVec S3x128 1 := cmpf .olt main_v39 main_v40
  let main_c_15 : IVec S_ 1 := constantI S_ 1 1#1
  let main_v42 : IVec S_ 1 := (fun x v => Host.reduce IntOp.andi x v reducesTo_S3x128_S_d0_1 h_S_) main_v41 main_c_15
  let main_v43 : IVec S_ 1 := andi main_v38 main_v42
  let main_v44 : FVec F S384x128 .f32 := Host.absf main_arg11
  let main_cst_16 : FVec F S_ .f32 := constant S_ .f32 0x7F800000#32
  let main_v45 : FVec F S384x128 .f32 := broadcastInDim S384x128 ![] bcast_S_S384x128 main_cst_16
  let main_v46 : IVec S384x128 1 := cmpf .olt main_v44 main_v45
  let main_c_17 : IVec S_ 1 := constantI S_ 1 1#1
  let main_v47 : IVec S_ 1 := (fun x v => Host.reduce IntOp.andi x v reducesTo_S384x128_S_d0_1 h_S_) main_v46 main_c_17
  let main_v48 : IVec S_ 1 := andi main_v43 main_v47
  let main_v49 : FVec F S128 .f32 := Host.absf main_arg12
  let main_cst_18 : FVec F S_ .f32 := constant S_ .f32 0x7F800000#32
  let main_v50 : FVec F S128 .f32 := broadcastInDim S128 ![] bcast_S_S128 main_cst_18
  fn_part3 (F := F) main_arg8 main_arg13 main_arg14 main_v48 main_v49 main_v50

def fn_part1 {F : FTy → Type} [FloatOps F] (main_arg6 : FVec F S3x128 .f32) (main_arg7 : FVec F S3x128 .f32) (main_arg8 : FVec F S3x128 .f32) (main_arg9 : FVec F S3x128x128 .f32) (main_arg10 : FVec F S3x128 .f32) (main_arg11 : FVec F S384x128 .f32) (main_arg12 : FVec F S128 .f32) (main_arg13 : FVec F S128x10 .f32) (main_arg14 : FVec F S10 .f32) (main_v13 : IVec S_ 1) (main_v16 : IVec S3x128 1) : IVec S_ 1 :=
  let main_c_5 : IVec S_ 1 := constantI S_ 1 1#1
  let main_v17 : IVec S_ 1 := (fun x v => Host.reduce IntOp.andi x v reducesTo_S3x128_S_d0_1 h_S_) main_v16 main_c_5
  let main_v18 : IVec S_ 1 := andi main_v13 main_v17
  let main_v19 : FVec F S3x128 .f32 := Host.absf main_arg6
  let main_cst_6 : FVec F S_ .f32 := constant S_ .f32 0x7F800000#32
  let main_v20 : FVec F S3x128 .f32 := broadcastInDim S3x128 ![] bcast_S_S3x128 main_cst_6
  let main_v21 : IVec S3x128 1 := cmpf .olt main_v19 main_v20
  let main_c_7 : IVec S_ 1 := constantI S_ 1 1#1
  let main_v22 : IVec S_ 1 := (fun x v => Host.reduce IntOp.andi x v reducesTo_S3x128_S_d0_1 h_S_) main_v21 main_c_7
  let main_v23 : IVec S_ 1 := andi main_v18 main_v22
  let main_v24 : FVec F S3x128 .f32 := Host.absf main_arg7
  let main_cst_8 : FVec F S_ .f32 := constant S_ .f32 0x7F800000#32
  let main_v25 : FVec F S3x128 .f32 := broadcastInDim S3x128 ![] bcast_S_S3x128 main_cst_8
  let main_v26 : IVec S3x128 1 := cmpf .olt main_v24 main_v25
  let main_c_9 : IVec S_ 1 := constantI S_ 1 1#1
  let main_v27 : IVec S_ 1 := (fun x v => Host.reduce IntOp.andi x v reducesTo_S3x128_S_d0_1 h_S_) main_v26 main_c_9
  let main_v28 : IVec S_ 1 := andi main_v23 main_v27
  let main_v29 : FVec F S3x128 .f32 := Host.absf main_arg8
  let main_cst_10 : FVec F S_ .f32 := constant S_ .f32 0x7F800000#32
  let main_v30 : FVec F S3x128 .f32 := broadcastInDim S3x128 ![] bcast_S_S3x128 main_cst_10
  let main_v31 : IVec S3x128 1 := cmpf .olt main_v29 main_v30
  let main_c_11 : IVec S_ 1 := constantI S_ 1 1#1
  let main_v32 : IVec S_ 1 := (fun x v => Host.reduce IntOp.andi x v reducesTo_S3x128_S_d0_1 h_S_) main_v31 main_c_11
  let main_v33 : IVec S_ 1 := andi main_v28 main_v32
  fn_part2 (F := F) main_arg8 main_arg9 main_arg10 main_arg11 main_arg12 main_arg13 main_arg14 main_v33

def fn {F : FTy → Type} [FloatOps F] (main_arg0 : FVec F S100000x128 .f32) (main_arg1 : IVec S2x1600000 32) (main_arg2 : IVec S100000 32) (main_arg3 : FVec F S3x128x128 .f32) (main_arg4 : FVec F S3x128 .f32) (main_arg5 : FVec F S3x128 .f32) (main_arg6 : FVec F S3x128 .f32) (main_arg7 : FVec F S3x128 .f32) (main_arg8 : FVec F S3x128 .f32) (main_arg9 : FVec F S3x128x128 .f32) (main_arg10 : FVec F S3x128 .f32) (main_arg11 : FVec F S384x128 .f32) (main_arg12 : FVec F S128 .f32) (main_arg13 : FVec F S128x10 .f32) (main_arg14 : FVec F S10 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S3x128x128 .f32 := Host.absf main_arg3
  let main_cst_0 : FVec F S_ .f32 := constant S_ .f32 0x7F800000#32
  let main_v5 : FVec F S3x128x128 .f32 := broadcastInDim S3x128x128 ![] bcast_S_S3x128x128 main_cst_0
  let main_v6 : IVec S3x128x128 1 := cmpf .olt main_v4 main_v5
  let main_c_1 : IVec S_ 1 := constantI S_ 1 1#1
  let main_v7 : IVec S_ 1 := (fun x v => Host.reduce IntOp.andi x v reducesTo_S3x128x128_S_d0_1_2 h_S_) main_v6 main_c_1
  let main_v8 : IVec S_ 1 := andi main_v3 main_v7
  let main_v9 : FVec F S3x128 .f32 := Host.absf main_arg4
  let main_cst_2 : FVec F S_ .f32 := constant S_ .f32 0x7F800000#32
  let main_v10 : FVec F S3x128 .f32 := broadcastInDim S3x128 ![] bcast_S_S3x128 main_cst_2
  let main_v11 : IVec S3x128 1 := cmpf .olt main_v9 main_v10
  let main_c_3 : IVec S_ 1 := constantI S_ 1 1#1
  let main_v12 : IVec S_ 1 := (fun x v => Host.reduce IntOp.andi x v reducesTo_S3x128_S_d0_1 h_S_) main_v11 main_c_3
  let main_v13 : IVec S_ 1 := andi main_v8 main_v12
  let main_v14 : FVec F S3x128 .f32 := Host.absf main_arg5
  let main_cst_4 : FVec F S_ .f32 := constant S_ .f32 0x7F800000#32
  let main_v15 : FVec F S3x128 .f32 := broadcastInDim S3x128 ![] bcast_S_S3x128 main_cst_4
  let main_v16 : IVec S3x128 1 := cmpf .olt main_v14 main_v15
  fn_part1 (F := F) main_arg6 main_arg7 main_arg8 main_arg9 main_arg10 main_arg11 main_arg12 main_arg13 main_arg14 main_v13 main_v16
-- ==== Kernel.lean ====
abbrev S100000x128 : Shape := ⟨2, ![100000, 128]⟩
abbrev S2x1600000 : Shape := ⟨2, ![2, 1600000]⟩
abbrev S100000 : Shape := ⟨1, ![100000]⟩
abbrev S3x128x128 : Shape := ⟨3, ![3, 128, 128]⟩
abbrev S3x128 : Shape := ⟨2, ![3, 128]⟩
abbrev S384x128 : Shape := ⟨2, ![384, 128]⟩
abbrev S128 : Shape := ⟨1, ![128]⟩
abbrev S128x10 : Shape := ⟨2, ![128, 10]⟩
abbrev S10 : Shape := ⟨1, ![10]⟩
abbrev S1x1600000 : Shape := ⟨2, ![1, 1600000]⟩
abbrev S1600000 : Shape := ⟨1, ![1600000]⟩
abbrev S_ : Shape := ⟨0, ![]⟩
abbrev S100000x1 : Shape := ⟨2, ![100000, 1]⟩
abbrev S256x1 : Shape := ⟨2, ![256, 1]⟩
abbrev S1600000x1 : Shape := ⟨2, ![1600000, 1]⟩
abbrev S1600000x128 : Shape := ⟨2, ![1600000, 128]⟩
abbrev S1x128x128 : Shape := ⟨3, ![1, 128, 128]⟩
abbrev S128x128 : Shape := ⟨2, ![128, 128]⟩
abbrev S1x128 : Shape := ⟨2, ![1, 128]⟩
abbrev S5000x128 : Shape := ⟨2, ![5000, 128]⟩
abbrev S256x128 : Shape := ⟨2, ![256, 128]⟩
abbrev S256x384 : Shape := ⟨2, ![256, 384]⟩
abbrev S256x10 : Shape := ⟨2, ![256, 10]⟩
abbrev S1x10 : Shape := ⟨2, ![1, 10]⟩

abbrev nBuf : Space → Nat
  | .hbm => 166
  | .vmem => 36
  | .smem => 0
  | _ => 0

abbrev hbmTy0_0 (i : Nat) : BufTy := match i % 128 with
  | 0 => ⟨S100000x128, .f32⟩
  | 1 => ⟨S2x1600000, .i32⟩
  | 2 => ⟨S100000, .i32⟩
  | 3 => ⟨S3x128x128, .f32⟩
  | 4 => ⟨S3x128, .f32⟩
  | 5 => ⟨S3x128, .f32⟩
  | 6 => ⟨S3x128, .f32⟩
  | 7 => ⟨S3x128, .f32⟩
  | 8 => ⟨S3x128, .f32⟩
  | 9 => ⟨S3x128x128, .f32⟩
  | 10 => ⟨S3x128, .f32⟩
  | 11 => ⟨S384x128, .f32⟩
  | 12 => ⟨S128, .f32⟩
  | 13 => ⟨S128x10, .f32⟩
  | 14 => ⟨S10, .f32⟩
  | 15 => ⟨S1x1600000, .i32⟩
  | 16 => ⟨S1600000, .i32⟩
  | 17 => ⟨S1x1600000, .i32⟩
  | 18 => ⟨S1600000, .i32⟩
  | 19 => ⟨S_, .f32⟩
  | 20 => ⟨S100000x1, .f32⟩
  | 21 => ⟨S_, .f32⟩
  | 22 => ⟨S256x1, .f32⟩
  | 23 => ⟨S100000x1, .i32⟩
  | 24 => ⟨S256x1, .f32⟩
  | 25 => ⟨S_, .f32⟩
  | 26 => ⟨S256x1, .f32⟩
  | 27 => ⟨S256x1, .f32⟩
  | 28 => ⟨S_, .i32⟩
  | 29 => ⟨S1600000, .i32⟩
  | 30 => ⟨S1600000, .i1⟩
  | 31 => ⟨S_, .i32⟩
  | 32 => ⟨S1600000, .i32⟩
  | 33 => ⟨S1600000, .i32⟩
  | 34 => ⟨S1600000, .i32⟩
  | 35 => ⟨S1600000x1, .i32⟩
  | 36 => ⟨S1600000x128, .f32⟩
  | 37 => ⟨S_, .f32⟩
  | 38 => ⟨S100000x128, .f32⟩
  | 39 => ⟨S1600000x1, .i32⟩
  | 40 => ⟨S100000x128, .f32⟩
  | 41 => ⟨S100000x128, .f32⟩
  | 42 => ⟨S1x128x128, .f32⟩
  | 43 => ⟨S128x128, .f32⟩
  | 44 => ⟨S1x128, .f32⟩
  | 45 => ⟨S128, .f32⟩
  | 46 => ⟨S1x128, .f32⟩
  | 47 => ⟨S128, .f32⟩
  | 48 => ⟨S1x128, .f32⟩
  | 49 => ⟨S128, .f32⟩
  | 50 => ⟨S1x128, .f32⟩
  | 51 => ⟨S128, .f32⟩
  | 52 => ⟨S1x128, .f32⟩
  | 53 => ⟨S128, .f32⟩
  | 54 => ⟨S1x128x128, .f32⟩
  | 55 => ⟨S128x128, .f32⟩
  | 56 => ⟨S1x128, .f32⟩
  | 57 => ⟨S128, .f32⟩
  | 58 => ⟨S1x128, .f32⟩
  | 59 => ⟨S1x128, .f32⟩
  | 60 => ⟨S1x128, .f32⟩
  | 61 => ⟨S1x128, .f32⟩
  | 62 => ⟨S1x128, .f32⟩
  | 63 => ⟨S1x128, .f32⟩
  | 64 => ⟨S100000x128, .f32⟩
  | 65 => ⟨S_, .f32⟩
  | 66 => ⟨S256x128, .f32⟩
  | 67 => ⟨S100000x1, .i32⟩
  | 68 => ⟨S256x128, .f32⟩
  | 69 => ⟨S256x128, .f32⟩
  | 70 => ⟨S256x128, .f32⟩
  | 71 => ⟨S_, .i32⟩
  | 72 => ⟨S1600000, .i32⟩
  | 73 => ⟨S1600000, .i1⟩
  | 74 => ⟨S_, .i32⟩
  | 75 => ⟨S1600000, .i32⟩
  | 76 => ⟨S1600000, .i32⟩
  | 77 => ⟨S1600000, .i32⟩
  | 78 => ⟨S1600000x1, .i32⟩
  | 79 => ⟨S1600000x128, .f32⟩
  | 80 => ⟨S_, .f32⟩
  | 81 => ⟨S100000x128, .f32⟩
  | 82 => ⟨S1600000x1, .i32⟩
  | 83 => ⟨S100000x128, .f32⟩
  | 84 => ⟨S100000x128, .f32⟩
  | 85 => ⟨S1x128x128, .f32⟩
  | 86 => ⟨S128x128, .f32⟩
  | 87 => ⟨S1x128, .f32⟩
  | 88 => ⟨S128, .f32⟩
  | 89 => ⟨S1x128, .f32⟩
  | 90 => ⟨S128, .f32⟩
  | 91 => ⟨S1x128, .f32⟩
  | 92 => ⟨S128, .f32⟩
  | 93 => ⟨S1x128, .f32⟩
  | 94 => ⟨S128, .f32⟩
  | 95 => ⟨S1x128, .f32⟩
  | 96 => ⟨S128, .f32⟩
  | 97 => ⟨S1x128x128, .f32⟩
  | 98 => ⟨S128x128, .f32⟩
  | 99 => ⟨S1x128, .f32⟩
  | 100 => ⟨S128, .f32⟩
  | 101 => ⟨S1x128, .f32⟩
  | 102 => ⟨S1x128, .f32⟩
  | 103 => ⟨S1x128, .f32⟩
  | 104 => ⟨S1x128, .f32⟩
  | 105 => ⟨S1x128, .f32⟩
  | 106 => ⟨S1x128, .f32⟩
  | 107 => ⟨S100000x128, .f32⟩
  | 108 => ⟨S_, .f32⟩
  | 109 => ⟨S256x128, .f32⟩
  | 110 => ⟨S100000x1, .i32⟩
  | 111 => ⟨S256x128, .f32⟩
  | 112 => ⟨S256x128, .f32⟩
  | 113 => ⟨S256x128, .f32⟩
  | 114 => ⟨S_, .i32⟩
  | 115 => ⟨S1600000, .i32⟩
  | 116 => ⟨S1600000, .i1⟩
  | 117 => ⟨S_, .i32⟩
  | 118 => ⟨S1600000, .i32⟩
  | 119 => ⟨S1600000, .i32⟩
  | 120 => ⟨S1600000, .i32⟩
  | 121 => ⟨S1600000x1, .i32⟩
  | 122 => ⟨S1600000x128, .f32⟩
  | 123 => ⟨S_, .f32⟩
  | 124 => ⟨S100000x128, .f32⟩
  | 125 => ⟨S1600000x1, .i32⟩
  | 126 => ⟨S100000x128, .f32⟩
  | 127 => ⟨S100000x128, .f32⟩
  | _ => ⟨S100000x128, .f32⟩

abbrev hbmTy0_1 (i : Nat) : BufTy := match i % 128 with
  | 0 => ⟨S1x128x128, .f32⟩
  | 1 => ⟨S128x128, .f32⟩
  | 2 => ⟨S1x128, .f32⟩
  | 3 => ⟨S128, .f32⟩
  | 4 => ⟨S1x128, .f32⟩
  | 5 => ⟨S128, .f32⟩
  | 6 => ⟨S1x128, .f32⟩
  | 7 => ⟨S128, .f32⟩
  | 8 => ⟨S1x128, .f32⟩
  | 9 => ⟨S128, .f32⟩
  | 10 => ⟨S1x128, .f32⟩
  | 11 => ⟨S128, .f32⟩
  | 12 => ⟨S1x128x128, .f32⟩
  | 13 => ⟨S128x128, .f32⟩
  | 14 => ⟨S1x128, .f32⟩
  | 15 => ⟨S128, .f32⟩
  | 16 => ⟨S1x128, .f32⟩
  | 17 => ⟨S1x128, .f32⟩
  | 18 => ⟨S1x128, .f32⟩
  | 19 => ⟨S1x128, .f32⟩
  | 20 => ⟨S1x128, .f32⟩
  | 21 => ⟨S1x128, .f32⟩
  | 22 => ⟨S100000x128, .f32⟩
  | 23 => ⟨S_, .f32⟩
  | 24 => ⟨S256x128, .f32⟩
  | 25 => ⟨S100000x1, .i32⟩
  | 26 => ⟨S256x128, .f32⟩
  | 27 => ⟨S256x128, .f32⟩
  | 28 => ⟨S256x128, .f32⟩
  | 29 => ⟨S256x384, .f32⟩
  | 30 => ⟨S256x128, .f32⟩
  | 31 => ⟨S1x128, .f32⟩
  | 32 => ⟨S256x128, .f32⟩
  | 33 => ⟨S256x128, .f32⟩
  | 34 => ⟨S256x10, .f32⟩
  | 35 => ⟨S1x10, .f32⟩
  | 36 => ⟨S256x10, .f32⟩
  | 37 => ⟨S256x10, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S1x128, .f32⟩
  | .local _ .vmem, ⟨4, _⟩ => ⟨S1x128, .f32⟩
  | .local _ .vmem, ⟨5, _⟩ => ⟨S1x128, .f32⟩
  | .local _ .vmem, ⟨6, _⟩ => ⟨S1x128, .f32⟩
  | .local _ .vmem, ⟨7, _⟩ => ⟨S1x128, .f32⟩
  | .local _ .vmem, ⟨8, _⟩ => ⟨S128x128, .f32⟩
  | .local _ .vmem, ⟨9, _⟩ => ⟨S1x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S5000x128, .f32⟩
  | .local _ .vmem, ⟨14, _⟩ => ⟨S128x128, .f32⟩
  | .local _ .vmem, ⟨15, _⟩ => ⟨S1x128, .f32⟩
  | .local _ .vmem, ⟨16, _⟩ => ⟨S1x128, .f32⟩
  | .local _ .vmem, ⟨17, _⟩ => ⟨S1x128, .f32⟩
  | .local _ .vmem, ⟨18, _⟩ => ⟨S1x128, .f32⟩
  | .local _ .vmem, ⟨19, _⟩ => ⟨S1x128, .f32⟩
  | .local _ .vmem, ⟨20, _⟩ => ⟨S128x128, .f32⟩
  | .local _ .vmem, ⟨21, _⟩ => ⟨S1x128, .f32⟩
  | .local _ .vmem, ⟨22, _⟩ => ⟨S5000x128, .f32⟩
  | .local _ .vmem, ⟨23, _⟩ => ⟨S5000x128, .f32⟩
  | .local _ .vmem, ⟨24, _⟩ => ⟨S5000x128, .f32⟩
  | .local _ .vmem, ⟨25, _⟩ => ⟨S5000x128, .f32⟩
  | .local _ .vmem, ⟨26, _⟩ => ⟨S128x128, .f32⟩
  | .local _ .vmem, ⟨27, _⟩ => ⟨S1x128, .f32⟩
  | .local _ .vmem, ⟨28, _⟩ => ⟨S1x128, .f32⟩
  | .local _ .vmem, ⟨29, _⟩ => ⟨S1x128, .f32⟩
  | .local _ .vmem, ⟨30, _⟩ => ⟨S1x128, .f32⟩
  | .local _ .vmem, ⟨31, _⟩ => ⟨S1x128, .f32⟩
  | .local _ .vmem, ⟨32, _⟩ => ⟨S128x128, .f32⟩
  | .local _ .vmem, ⟨33, _⟩ => ⟨S1x128, .f32⟩
  | .local _ .vmem, ⟨34, _⟩ => ⟨S5000x128, .f32⟩
  | .local _ .vmem, ⟨35, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_cst : Ref sig .tc := ⟨.hbm, 19, rfl⟩
abbrev main_v4 : Ref sig .tc := ⟨.hbm, 20, rfl⟩
abbrev main_cst_0 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_cst_1 : Ref sig .tc := ⟨.hbm, 25, rfl⟩
abbrev main_v8 : Ref sig .tc := ⟨.hbm, 26, rfl⟩
abbrev main_v9 : Ref sig .tc := ⟨.hbm, 27, rfl⟩
abbrev main_c : Ref sig .tc := ⟨.hbm, 28, rfl⟩
abbrev main_v10 : Ref sig .tc := ⟨.hbm, 29, rfl⟩
abbrev main_v11 : Ref sig .tc := ⟨.hbm, 30, rfl⟩
abbrev main_c_2 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_cst_3 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_cst_4 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_c_5 : Ref sig .tc := ⟨.hbm, 71, rfl⟩
abbrev main_v49 : Ref sig .tc := ⟨.hbm, 72, rfl⟩
abbrev main_v50 : Ref sig .tc := ⟨.hbm, 73, rfl⟩
abbrev main_c_6 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_cst_7 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_cst_8 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩
abbrev main_v87 : Ref sig .tc := ⟨.hbm, 113, rfl⟩
abbrev main_c_9 : Ref sig .tc := ⟨.hbm, 114, rfl⟩
abbrev main_v88 : Ref sig .tc := ⟨.hbm, 115, rfl⟩
abbrev main_v89 : Ref sig .tc := ⟨.hbm, 116, rfl⟩
abbrev main_c_10 : Ref sig .tc := ⟨.hbm, 117, rfl⟩
abbrev main_v90 : Ref sig .tc := ⟨.hbm, 118, rfl⟩
abbrev main_v91 : Ref sig .tc := ⟨.hbm, 119, rfl⟩
abbrev main_v92 : Ref sig .tc := ⟨.hbm, 120, rfl⟩
abbrev main_v93 : Ref sig .tc := ⟨.hbm, 121, rfl⟩
abbrev main_v94 : Ref sig .tc := ⟨.hbm, 122, rfl⟩
abbrev main_cst_11 : Ref sig .tc := ⟨.hbm, 123, rfl⟩
abbrev main_v95 : Ref sig .tc := ⟨.hbm, 124, rfl⟩
abbrev main_v96 : Ref sig .tc := ⟨.hbm, 125, rfl⟩
abbrev main_v97 : Ref sig .tc := ⟨.hbm, 126, rfl⟩
abbrev main_v98 : Ref sig .tc := ⟨.hbm, 127, rfl⟩
abbrev main_v99 : Ref sig .tc := ⟨.hbm, 128, rfl⟩
abbrev main_v100 : Ref sig .tc := ⟨.hbm, 129, rfl⟩
abbrev main_v101 : Ref sig .tc := ⟨.hbm, 130, rfl⟩
abbrev main_v102 : Ref sig .tc := ⟨.hbm, 131, rfl⟩
abbrev main_v103 : Ref sig .tc := ⟨.hbm, 132, rfl⟩
abbrev main_v104 : Ref sig .tc := ⟨.hbm, 133, rfl⟩
abbrev main_v105 : Ref sig .tc := ⟨.hbm, 134, rfl⟩
abbrev main_v106 : Ref sig .tc := ⟨.hbm, 135, rfl⟩
abbrev main_v107 : Ref sig .tc := ⟨.hbm, 136, rfl⟩
abbrev main_v108 : Ref sig .tc := ⟨.hbm, 137, rfl⟩
abbrev main_v109 : Ref sig .tc := ⟨.hbm, 138, rfl⟩
abbrev main_v110 : Ref sig .tc := ⟨.hbm, 139, rfl⟩
abbrev main_v111 : Ref sig .tc := ⟨.hbm, 140, rfl⟩
abbrev main_v112 : Ref sig .tc := ⟨.hbm, 141, rfl⟩
abbrev main_v113 : Ref sig .tc := ⟨.hbm, 142, rfl⟩
abbrev main_v114 : Ref sig .tc := ⟨.hbm, 143, rfl⟩
abbrev main_v115 : Ref sig .tc := ⟨.hbm, 144, rfl⟩
abbrev main_v116 : Ref sig .tc := ⟨.hbm, 145, rfl⟩
abbrev main_v117 : Ref sig .tc := ⟨.hbm, 146, rfl⟩
abbrev main_v118 : Ref sig .tc := ⟨.hbm, 147, rfl⟩
abbrev main_v119 : Ref sig .tc := ⟨.hbm, 148, rfl⟩
abbrev main_v120 : Ref sig .tc := ⟨.hbm, 149, rfl⟩
abbrev main_v121 : Ref sig .tc := ⟨.hbm, 150, rfl⟩
abbrev main_cst_12 : Ref sig .tc := ⟨.hbm, 151, rfl⟩
abbrev main_v122 : Ref sig .tc := ⟨.hbm, 152, rfl⟩
abbrev main_v123 : Ref sig .tc := ⟨.hbm, 153, rfl⟩
abbrev main_v124 : Ref sig .tc := ⟨.hbm, 154, rfl⟩
abbrev main_v125 : Ref sig .tc := ⟨.hbm, 155, rfl⟩
abbrev main_v126 : Ref sig .tc := ⟨.hbm, 156, rfl⟩
abbrev main_v127 : Ref sig .tc := ⟨.hbm, 157, rfl⟩
abbrev main_v128 : Ref sig .tc := ⟨.hbm, 158, rfl⟩
abbrev main_v129 : Ref sig .tc := ⟨.hbm, 159, rfl⟩
abbrev main_v130 : Ref sig .tc := ⟨.hbm, 160, rfl⟩
abbrev main_v131 : Ref sig .tc := ⟨.hbm, 161, rfl⟩
abbrev main_v132 : Ref sig .tc := ⟨.hbm, 162, rfl⟩
abbrev main_v133 : Ref sig .tc := ⟨.hbm, 163, rfl⟩
abbrev main_v134 : Ref sig .tc := ⟨.hbm, 164, rfl⟩
abbrev main_v135 : Ref sig .tc := ⟨.hbm, 165, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg2_0 : Ref sig .tc := ⟨.vmem, 15, rfl⟩
abbrev cc1_stg3_0 : Ref sig .tc := ⟨.vmem, 16, rfl⟩
abbrev cc1_stg4_0 : Ref sig .tc := ⟨.vmem, 17, rfl⟩
abbrev cc1_stg5_0 : Ref sig .tc := ⟨.vmem, 18, rfl⟩
abbrev cc1_stg6_0 : Ref sig .tc := ⟨.vmem, 19, rfl⟩
abbrev cc1_stg7_0 : Ref sig .tc := ⟨.vmem, 20, rfl⟩
abbrev cc1_stg8_0 : Ref sig .tc := ⟨.vmem, 21, rfl⟩
abbrev cc1_stg9_0 : Ref sig .tc := ⟨.vmem, 22, rfl⟩
abbrev cc1_stg9_1 : Ref sig .tc := ⟨.vmem, 23, rfl⟩
abbrev cc2_stg0_0 : Ref sig .tc := ⟨.vmem, 24, rfl⟩
abbrev cc2_stg0_1 : Ref sig .tc := ⟨.vmem, 25, rfl⟩
abbrev cc2_stg1_0 : Ref sig .tc := ⟨.vmem, 26, rfl⟩
abbrev cc2_stg2_0 : Ref sig .tc := ⟨.vmem, 27, rfl⟩
abbrev cc2_stg3_0 : Ref sig .tc := ⟨.vmem, 28, rfl⟩
abbrev cc2_stg4_0 : Ref sig .tc := ⟨.vmem, 29, rfl⟩
abbrev cc2_stg5_0 : Ref sig .tc := ⟨.vmem, 30, rfl⟩
abbrev cc2_stg6_0 : Ref sig .tc := ⟨.vmem, 31, rfl⟩
abbrev cc2_stg7_0 : Ref sig .tc := ⟨.vmem, 32, rfl⟩
abbrev cc2_stg8_0 : Ref sig .tc := ⟨.vmem, 33, rfl⟩
abbrev cc2_stg9_0 : Ref sig .tc := ⟨.vmem, 34, rfl⟩
abbrev cc2_stg9_1 : Ref sig .tc := ⟨.vmem, 35, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11
abbrev cc1_sem0_0 : DmaSem sig := 12
abbrev cc1_sem0_1 : DmaSem sig := 13
abbrev cc1_sem1_0 : DmaSem sig := 14
abbrev cc1_sem2_0 : DmaSem sig := 15
abbrev cc1_sem3_0 : DmaSem sig := 16
abbrev cc1_sem4_0 : DmaSem sig := 17
abbrev cc1_sem5_0 : DmaSem sig := 18
abbrev cc1_sem6_0 : DmaSem sig := 19
abbrev cc1_sem7_0 : DmaSem sig := 20
abbrev cc1_sem8_0 : DmaSem sig := 21
abbrev cc1_sem9_0 : DmaSem sig := 22
abbrev cc1_sem9_1 : DmaSem sig := 23
abbrev cc2_sem0_0 : DmaSem sig := 24
abbrev cc2_sem0_1 : DmaSem sig := 25
abbrev cc2_sem1_0 : DmaSem sig := 26
abbrev cc2_sem2_0 : DmaSem sig := 27
abbrev cc2_sem3_0 : DmaSem sig := 28
abbrev cc2_sem4_0 : DmaSem sig := 29
abbrev cc2_sem5_0 : DmaSem sig := 30
abbrev cc2_sem6_0 : DmaSem sig := 31
abbrev cc2_sem7_0 : DmaSem sig := 32
abbrev cc2_sem8_0 : DmaSem sig := 33
abbrev cc2_sem9_0 : DmaSem sig := 34
abbrev cc2_sem9_1 : DmaSem sig := 35

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S5000x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S128x128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x128 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 2 → Memref sig .tc .vmem S5000x128 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x128 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S128x128 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S1x128 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 2 → Memref sig .tc .vmem S5000x128 .f32 := fun | 0 => Memref.whole cc2_stg9_0 | 1 => Memref.whole cc2_stg9_1 | ⟨_ + 2, h⟩ => absurd h (Nat.not_lt.2 (Nat.le_add_left _ _))
abbrev sem2_9 : Fin 2 → DmaSem sig := fun | 0 => cc2_sem9_0 | 1 => cc2_sem9_1 | ⟨_ + 2, h⟩ => absurd h (Nat.not_lt.2 (Nat.le_add_left _ _))
abbrev reads2_9 : Fin grid2.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S100000x1 : S_.BroadcastsInDim S100000x1 (![] : Fin 0 → Fin S100000x1.rank)
  bcast_S_S256x1 : S_.BroadcastsInDim S256x1 (![] : Fin 0 → Fin S256x1.rank)
  bcast_S100000_S100000x1_0 : S100000.BroadcastsInDim S100000x1 (![0] : Fin 1 → Fin S100000x1.rank)
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  slices_S3x128x128_S1x128x128_0_0_0 : S3x128x128.Slices ![0, 0, 0] S1x128x128
  shapeCasts_S1x128x128_S128x128 : S1x128x128.ShapeCasts S128x128
  slices_S3x128_S1x128_0_0 : S3x128.Slices ![0, 0] S1x128
  shapeCasts_S1x128_S128 : S1x128.ShapeCasts S128
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  bitsLt_bf16_f32 : FTy.bits .bf16 < FTy.bits .f32
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  bcast_S_S256x128 : S_.BroadcastsInDim S256x128 (![] : Fin 0 → Fin S256x128.rank)
  bcast_S256x1_S256x128_0_1 : S256x1.BroadcastsInDim S256x128 (![0, 1] : Fin 2 → Fin S256x128.rank)
  slices_S3x128x128_S1x128x128_1_0_0 : S3x128x128.Slices ![1, 0, 0] S1x128x128
  slices_S3x128_S1x128_1_0 : S3x128.Slices ![1, 0] S1x128
  slices_S3x128x128_S1x128x128_2_0_0 : S3x128x128.Slices ![2, 0, 0] S1x128x128
  slices_S3x128_S1x128_2_0 : S3x128.Slices ![2, 0] S1x128
  concatenates_S256x128_S256x128_S256x128_S256x384_d1 : Shape.Concatenates [S256x128, S256x128, S256x128] S256x384 1
  bcast_S128_S1x128_1 : S128.BroadcastsInDim S1x128 (![1] : Fin 1 → Fin S1x128.rank)
  bcast_S1x128_S256x128_0_1 : S1x128.BroadcastsInDim S256x128 (![0, 1] : Fin 2 → Fin S256x128.rank)
  bcast_S10_S1x10_1 : S10.BroadcastsInDim S1x10 (![1] : Fin 1 → Fin S1x10.rank)
  bcast_S1x10_S256x10_0_1 : S1x10.BroadcastsInDim S256x10 (![0, 1] : Fin 2 → Fin S256x10.rank)
  scatter_S256x1_S100000x1_S100000x1_1_0_0_1_wf : ScatterDims.WF S256x1 S100000x1 S100000x1 [1] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x128_S5000x128_1_0_0_1_n_n_wf : DotDims.WF S5000x128 S128x128 S5000x128 [1] [0] [0] [1] [] []
  scatter_S256x128_S100000x1_S100000x128_1_0_0_1_wf : ScatterDims.WF S256x128 S100000x1 S100000x128 [1] [0] [0] 1
  dot_S256x384_S384x128_S256x128_1_0_0_1_n_n_wf : DotDims.WF S256x384 S384x128 S256x128 [1] [0] [0] [1] [] []
  dot_S256x128_S128x10_S256x10_1_0_0_1_n_n_wf : DotDims.WF S256x128 S128x10 S256x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128x128.size a ≤ S128x128.size a
  hwx0_7 : ∀ i : grid0.Coords, EltTy.bits .f32 = 32 ∨ (Rect.block (s := S128x128) S128x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x128.size a ≤ S1x128.size a
  hwx0_8 : ∀ i : grid0.Coords, EltTy.bits .f32 = 32 ∨ (Rect.block (s := S1x128) S1x128.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S5000x128.size a ≤ S100000x128.size a
  hwx0_9 : ∀ i : grid0.Coords, EltTy.bits .f32 = 32 ∨ (Rect.block (s := S100000x128) S5000x128.size (cc0_transform_9 i) (hinb0_9 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x128.size a ≤ S1x128.size a
  hwx1_6 : ∀ i : grid1.Coords, EltTy.bits .f32 = 32 ∨ (Rect.block (s := S1x128) S1x128.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S128x128.size a ≤ S128x128.size a
  hwx1_7 : ∀ i : grid1.Coords, EltTy.bits .f32 = 32 ∨ (Rect.block (s := S128x128) S128x128.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S1x128.size a ≤ S1x128.size a
  hwx1_8 : ∀ i : grid1.Coords, EltTy.bits .f32 = 32 ∨ (Rect.block (s := S1x128) S1x128.size (cc1_transform_8 i) (hinb1_8 i)).WholeWords (EltTy.packing .f32)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hinb1_9 : ∀ (i : grid1.Coords) a, (cc1_transform_9 i a + 1) * S5000x128.size a ≤ S100000x128.size a
  hwx1_9 : ∀ i : grid1.Coords, EltTy.bits .f32 = 32 ∨ (Rect.block (s := S100000x128) S5000x128.size (cc1_transform_9 i) (hinb1_9 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x128.size a ≤ S1x128.size a
  hwx2_5 : ∀ i : grid2.Coords, EltTy.bits .f32 = 32 ∨ (Rect.block (s := S1x128) S1x128.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x128.size a ≤ S1x128.size a
  hwx2_6 : ∀ i : grid2.Coords, EltTy.bits .f32 = 32 ∨ (Rect.block (s := S1x128) S1x128.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S128x128.size a ≤ S128x128.size a
  hwx2_7 : ∀ i : grid2.Coords, EltTy.bits .f32 = 32 ∨ (Rect.block (s := S128x128) S128x128.size (cc2_transform_7 i) (hinb2_7 i)).WholeWords (EltTy.packing .f32)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S1x128.size a ≤ S1x128.size a
  hwx2_8 : ∀ i : grid2.Coords, EltTy.bits .f32 = 32 ∨ (Rect.block (s := S1x128) S1x128.size (cc2_transform_8 i) (hinb2_8 i)).WholeWords (EltTy.packing .f32)
  hstage2_9 : ∀ j, (stage2_9 j).IsWhole
  nbuf2_9 : grid2.bufCount reads2_9 false = 2
  hreads2_9 : ∀ i i' : grid2.Coords, (∀ a, reads2_9 a = true → i a = i' a) → cc2_transform_9 i = cc2_transform_9 i'
  hinb2_9 : ∀ (i : grid2.Coords) a, (cc2_transform_9 i a + 1) * S5000x128.size a ≤ S100000x128.size a
  hwx2_9 : ∀ i : grid2.Coords, EltTy.bits .f32 = 32 ∨ (Rect.block (s := S100000x128) S5000x128.size (cc2_transform_9 i) (hinb2_9 i)).WholeWords (EltTy.packing .f32)

variable [Facts₀]

def scatter_S256x1_S100000x1_S100000x1_1_0_0_1 : ScatterDims S256x1 S100000x1 S100000x1 where
  updateWindowDims := [1]
  insertedWindowDims := [0]
  scatterDimsToOperandDims := [0]
  indexVectorDim := 1
  wf := scatter_S256x1_S100000x1_S100000x1_1_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def scatter_S256x128_S100000x1_S100000x128_1_0_0_1 : ScatterDims S256x128 S100000x1 S100000x128 where
  updateWindowDims := [1]
  insertedWindowDims := [0]
  scatterDimsToOperandDims := [0]
  indexVectorDim := 1
  wf := scatter_S256x128_S100000x1_S100000x128_1_0_0_1_wf
def dot_S256x384_S384x128_S256x128_1_0_0_1_n_n : DotDims S256x384 S384x128 S256x128 where
  lhsContracting := [1]
  rhsContracting := [0]
  lhsNonContracting := [0]
  rhsNonContracting := [1]
  lhsBatch := []
  rhsBatch := []
  wf := dot_S256x384_S384x128_S256x128_1_0_0_1_n_n_wf
def dot_S256x128_S128x10_S256x10_1_0_0_1_n_n : DotDims S256x128 S128x10 S256x10 where
  lhsContracting := [1]
  rhsContracting := [0]
  lhsNonContracting := [0]
  rhsNonContracting := [1]
  lhsBatch := []
  rhsBatch := []
  wf := dot_S256x128_S128x10_S256x10_1_0_0_1_n_n_wf

abbrev win0_0 : Pipeline.Window sig grid0 :=
  Pipeline.Window.ofSpec (Memref.whole main_v20) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v22) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v37) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v38) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v39) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v40) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v41) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v34) S128x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v42) S1x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v43) S5000x128.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

abbrev win1_0 : Pipeline.Window sig grid1 :=
  Pipeline.Window.ofSpec (Memref.whole main_v59) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v61) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v76) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v77) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v78) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v79) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v80) S1x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v73) S128x128.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v81) S1x128.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v82) S5000x128.size cc1_transform_9 reads1_9 true false 2 stage1_9 sem1_9
    hrank1 hreads1_9 hinb1_9 nbuf1_9 (Memref.isWhole_whole _) hwx1_9 hstage1_9

abbrev win1 : Fin 10 → Pipeline.Window sig grid1 := fun | 0 => win1_0 | 1 => win1_1 | 2 => win1_2 | 3 => win1_3 | 4 => win1_4 | 5 => win1_5 | 6 => win1_6 | 7 => win1_7 | 8 => win1_8 | 9 => win1_9 | ⟨_ + 10, h⟩ => absurd h (Nat.not_lt.2 (Nat.le_add_left _ _))
abbrev spec1 : Fin 10 → Pipeline.WinSpec sig grid1.rank := fun w => (win1 w).toWinSpec

abbrev win2_0 : Pipeline.Window sig grid2 :=
  Pipeline.Window.ofSpec (Memref.whole main_v98) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v100) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v115) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v116) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v117) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v118) S1x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v119) S1x128.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v112) S128x128.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_v120) S1x128.size cc2_transform_8 reads2_8 false true 1 stage2_8 sem2_8
    hrank2 hreads2_8 hinb2_8 nbuf2_8 (Memref.isWhole_whole _) hwx2_8 hstage2_8

abbrev win2_9 : Pipeline.Window sig grid2 :=
  Pipeline.Window.ofSpec (Memref.whole main_v121) S5000x128.size cc2_transform_9 reads2_9 true false 2 stage2_9 sem2_9
    hrank2 hreads2_9 hinb2_9 nbuf2_9 (Memref.isWhole_whole _) hwx2_9 hstage2_9

abbrev win2 : Fin 10 → Pipeline.Window sig grid2 := fun | 0 => win2_0 | 1 => win2_1 | 2 => win2_2 | 3 => win2_3 | 4 => win2_4 | 5 => win2_5 | 6 => win2_6 | 7 => win2_7 | 8 => win2_8 | 9 => win2_9 | ⟨_ + 10, h⟩ => absurd h (Nat.not_lt.2 (Nat.le_add_left _ _))
abbrev spec2 : Fin 10 → Pipeline.WinSpec sig grid2.rank := fun w => (win2 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S100000 : Shape := ⟨1, ![100000]⟩
abbrev S3x128x128 : Shape := ⟨3, ![3, 128, 128]⟩
abbrev S3x128 : Shape := ⟨2, ![3, 128]⟩
abbrev S384x128 : Shape := ⟨2, ![384, 128]⟩
abbrev S128 : Shape := ⟨1, ![128]⟩
abbrev S128x10 : Shape := ⟨2, ![128, 10]⟩
abbrev S10 : Shape := ⟨1, ![10]⟩
abbrev S1x1600000 : Shape := ⟨2, ![1, 1600000]⟩
abbrev S1600000 : Shape := ⟨1, ![1600000]⟩
abbrev S_ : Shape := ⟨0, ![]⟩
abbrev S100000x1 : Shape := ⟨2, ![100000, 1]⟩
abbrev S256x1 : Shape := ⟨2, ![256, 1]⟩
abbrev S1600000x1 : Shape := ⟨2, ![1600000, 1]⟩
abbrev S1600000x128 : Shape := ⟨2, ![1600000, 128]⟩
abbrev S1x128x128 : Shape := ⟨3, ![1, 128, 128]⟩
abbrev S128x128 : Shape := ⟨2, ![128, 128]⟩
abbrev S1x128 : Shape := ⟨2, ![1, 128]⟩
abbrev S256x128 : Shape := ⟨2, ![256, 128]⟩
abbrev S256x384 : Shape := ⟨2, ![256, 384]⟩
abbrev S256x10 : Shape := ⟨2, ![256, 10]⟩
abbrev S1x10 : Shape := ⟨2, ![1, 10]⟩

abbrev nBuf : Space → Nat
  | .hbm => 229
  | .vmem => 0
  | .smem => 0
  | _ => 0

abbrev hbmTy0_0 (i : Nat) : BufTy := match i % 128 with
  | 0 => ⟨S100000x128, .f32⟩
  | 1 => ⟨S2x1600000, .i32⟩
  | 2 => ⟨S100000, .i32⟩
  | 3 => ⟨S3x128x128, .f32⟩
  | 4 => ⟨S3x128, .f32⟩
  | 5 => ⟨S3x128, .f32⟩
  | 6 => ⟨S3x128, .f32⟩
  | 7 => ⟨S3x128, .f32⟩
  | 8 => ⟨S3x128, .f32⟩
  | 9 => ⟨S3x128x128, .f32⟩
  | 10 => ⟨S3x128, .f32⟩
  | 11 => ⟨S384x128, .f32⟩
  | 12 => ⟨S128, .f32⟩
  | 13 => ⟨S128x10, .f32⟩
  | 14 => ⟨S10, .f32⟩
  | 15 => ⟨S1x1600000, .i32⟩
  | 16 => ⟨S1600000, .i32⟩
  | 17 => ⟨S1x1600000, .i32⟩
  | 18 => ⟨S1600000, .i32⟩
  | 19 => ⟨S_, .f32⟩
  | 20 => ⟨S100000x1, .f32⟩
  | 21 => ⟨S_, .f32⟩
  | 22 => ⟨S256x1, .f32⟩
  | 23 => ⟨S100000x1, .i32⟩
  | 24 => ⟨S256x1, .f32⟩
  | 25 => ⟨S_, .f32⟩
  | 26 => ⟨S256x1, .f32⟩
  | 27 => ⟨S256x1, .f32⟩
  | 28 => ⟨S_, .i32⟩
  | 29 => ⟨S1600000, .i32⟩
  | 30 => ⟨S1600000, .i1⟩
  | 31 => ⟨S_, .i32⟩
  | 32 => ⟨S1600000, .i32⟩
  | 33 => ⟨S1600000, .i32⟩
  | 34 => ⟨S1600000, .i32⟩
  | 35 => ⟨S1600000x1, .i32⟩
  | 36 => ⟨S1600000x128, .f32⟩
  | 37 => ⟨S_, .f32⟩
  | 38 => ⟨S100000x128, .f32⟩
  | 39 => ⟨S1600000x1, .i32⟩
  | 40 => ⟨S100000x128, .f32⟩
  | 41 => ⟨S100000x128, .f32⟩
  | 42 => ⟨S1x128x128, .f32⟩
  | 43 => ⟨S128x128, .f32⟩
  | 44 => ⟨S100000x128, .f32⟩
  | 45 => ⟨S1x128, .f32⟩
  | 46 => ⟨S128, .f32⟩
  | 47 => ⟨S1x128, .f32⟩
  | 48 => ⟨S100000x128, .f32⟩
  | 49 => ⟨S100000x128, .f32⟩
  | 50 => ⟨S1x128, .f32⟩
  | 51 => ⟨S128, .f32⟩
  | 52 => ⟨S1x128, .f32⟩
  | 53 => ⟨S100000x128, .f32⟩
  | 54 => ⟨S100000x128, .f32⟩
  | 55 => ⟨S1x128, .f32⟩
  | 56 => ⟨S128, .f32⟩
  | 57 => ⟨S1x128, .f32⟩
  | 58 => ⟨S128, .f32⟩
  | 59 => ⟨S_, .f32⟩
  | 60 => ⟨S128, .f32⟩
  | 61 => ⟨S128, .f32⟩
  | 62 => ⟨S128, .f32⟩
  | 63 => ⟨S128, .f32⟩
  | 64 => ⟨S1x128, .f32⟩
  | 65 => ⟨S100000x128, .f32⟩
  | 66 => ⟨S100000x128, .f32⟩
  | 67 => ⟨S1x128, .f32⟩
  | 68 => ⟨S128, .f32⟩
  | 69 => ⟨S1x128, .f32⟩
  | 70 => ⟨S100000x128, .f32⟩
  | 71 => ⟨S100000x128, .f32⟩
  | 72 => ⟨S_, .f32⟩
  | 73 => ⟨S100000x128, .f32⟩
  | 74 => ⟨S100000x128, .f32⟩
  | 75 => ⟨S1x128x128, .f32⟩
  | 76 => ⟨S128x128, .f32⟩
  | 77 => ⟨S100000x128, .f32⟩
  | 78 => ⟨S1x128, .f32⟩
  | 79 => ⟨S128, .f32⟩
  | 80 => ⟨S1x128, .f32⟩
  | 81 => ⟨S100000x128, .f32⟩
  | 82 => ⟨S100000x128, .f32⟩
  | 83 => ⟨S_, .f32⟩
  | 84 => ⟨S100000x128, .f32⟩
  | 85 => ⟨S100000x128, .f32⟩
  | 86 => ⟨S_, .f32⟩
  | 87 => ⟨S256x128, .f32⟩
  | 88 => ⟨S100000x1, .i32⟩
  | 89 => ⟨S256x128, .f32⟩
  | 90 => ⟨S256x128, .f32⟩
  | 91 => ⟨S256x128, .f32⟩
  | 92 => ⟨S_, .i32⟩
  | 93 => ⟨S1600000, .i32⟩
  | 94 => ⟨S1600000, .i1⟩
  | 95 => ⟨S_, .i32⟩
  | 96 => ⟨S1600000, .i32⟩
  | 97 => ⟨S1600000, .i32⟩
  | 98 => ⟨S1600000, .i32⟩
  | 99 => ⟨S1600000x1, .i32⟩
  | 100 => ⟨S1600000x128, .f32⟩
  | 101 => ⟨S_, .f32⟩
  | 102 => ⟨S100000x128, .f32⟩
  | 103 => ⟨S1600000x1, .i32⟩
  | 104 => ⟨S100000x128, .f32⟩
  | 105 => ⟨S100000x128, .f32⟩
  | 106 => ⟨S1x128x128, .f32⟩
  | 107 => ⟨S128x128, .f32⟩
  | 108 => ⟨S100000x128, .f32⟩
  | 109 => ⟨S1x128, .f32⟩
  | 110 => ⟨S128, .f32⟩
  | 111 => ⟨S1x128, .f32⟩
  | 112 => ⟨S100000x128, .f32⟩
  | 113 => ⟨S100000x128, .f32⟩
  | 114 => ⟨S1x128, .f32⟩
  | 115 => ⟨S128, .f32⟩
  | 116 => ⟨S1x128, .f32⟩
  | 117 => ⟨S100000x128, .f32⟩
  | 118 => ⟨S100000x128, .f32⟩
  | 119 => ⟨S1x128, .f32⟩
  | 120 => ⟨S128, .f32⟩
  | 121 => ⟨S1x128, .f32⟩
  | 122 => ⟨S128, .f32⟩
  | 123 => ⟨S_, .f32⟩
  | 124 => ⟨S128, .f32⟩
  | 125 => ⟨S128, .f32⟩
  | 126 => ⟨S128, .f32⟩
  | 127 => ⟨S128, .f32⟩
  | _ => ⟨S100000x128, .f32⟩

abbrev hbmTy0_1 (i : Nat) : BufTy := match i % 128 with
  | 0 => ⟨S1x128, .f32⟩
  | 1 => ⟨S100000x128, .f32⟩
  | 2 => ⟨S100000x128, .f32⟩
  | 3 => ⟨S1x128, .f32⟩
  | 4 => ⟨S128, .f32⟩
  | 5 => ⟨S1x128, .f32⟩
  | 6 => ⟨S100000x128, .f32⟩
  | 7 => ⟨S100000x128, .f32⟩
  | 8 => ⟨S_, .f32⟩
  | 9 => ⟨S100000x128, .f32⟩
  | 10 => ⟨S100000x128, .f32⟩
  | 11 => ⟨S1x128x128, .f32⟩
  | 12 => ⟨S128x128, .f32⟩
  | 13 => ⟨S100000x128, .f32⟩
  | 14 => ⟨S1x128, .f32⟩
  | 15 => ⟨S128, .f32⟩
  | 16 => ⟨S1x128, .f32⟩
  | 17 => ⟨S100000x128, .f32⟩
  | 18 => ⟨S100000x128, .f32⟩
  | 19 => ⟨S_, .f32⟩
  | 20 => ⟨S100000x128, .f32⟩
  | 21 => ⟨S100000x128, .f32⟩
  | 22 => ⟨S_, .f32⟩
  | 23 => ⟨S256x128, .f32⟩
  | 24 => ⟨S100000x1, .i32⟩
  | 25 => ⟨S256x128, .f32⟩
  | 26 => ⟨S256x128, .f32⟩
  | 27 => ⟨S256x128, .f32⟩
  | 28 => ⟨S_, .i32⟩
  | 29 => ⟨S1600000, .i32⟩
  | 30 => ⟨S1600000, .i1⟩
  | 31 => ⟨S_, .i32⟩
  | 32 => ⟨S1600000, .i32⟩
  | 33 => ⟨S1600000, .i32⟩
  | 34 => ⟨S1600000, .i32⟩
  | 35 => ⟨S1600000x1, .i32⟩
  | 36 => ⟨S1600000x128, .f32⟩
  | 37 => ⟨S_, .f32⟩
  | 38 => ⟨S100000x128, .f32⟩
  | 39 => ⟨S1600000x1, .i32⟩
  | 40 => ⟨S100000x128, .f32⟩
  | 41 => ⟨S100000x128, .f32⟩
  | 42 => ⟨S1x128x128, .f32⟩
  | 43 => ⟨S128x128, .f32⟩
  | 44 => ⟨S100000x128, .f32⟩
  | 45 => ⟨S1x128, .f32⟩
  | 46 => ⟨S128, .f32⟩
  | 47 => ⟨S1x128, .f32⟩
  | 48 => ⟨S100000x128, .f32⟩
  | 49 => ⟨S100000x128, .f32⟩
  | 50 => ⟨S1x128, .f32⟩
  | 51 => ⟨S128, .f32⟩
  | 52 => ⟨S1x128, .f32⟩
  | 53 => ⟨S100000x128, .f32⟩
  | 54 => ⟨S100000x128, .f32⟩
  | 55 => ⟨S1x128, .f32⟩
  | 56 => ⟨S128, .f32⟩
  | 57 => ⟨S1x128, .f32⟩
  | 58 => ⟨S128, .f32⟩
  | 59 => ⟨S_, .f32⟩
  | 60 => ⟨S128, .f32⟩
  | 61 => ⟨S128, .f32⟩
  | 62 => ⟨S128, .f32⟩
  | 63 => ⟨S128, .f32⟩
  | 64 => ⟨S1x128, .f32⟩
  | 65 => ⟨S100000x128, .f32⟩
  | 66 => ⟨S100000x128, .f32⟩
  | 67 => ⟨S1x128, .f32⟩
  | 68 => ⟨S128, .f32⟩
  | 69 => ⟨S1x128, .f32⟩
  | 70 => ⟨S100000x128, .f32⟩
  | 71 => ⟨S100000x128, .f32⟩
  | 72 => ⟨S_, .f32⟩
  | 73 => ⟨S100000x128, .f32⟩
  | 74 => ⟨S100000x128, .f32⟩
  | 75 => ⟨S1x128x128, .f32⟩
  | 76 => ⟨S128x128, .f32⟩
  | 77 => ⟨S100000x128, .f32⟩
  | 78 => ⟨S1x128, .f32⟩
  | 79 => ⟨S128, .f32⟩
  | 80 => ⟨S1x128, .f32⟩
  | 81 => ⟨S100000x128, .f32⟩
  | 82 => ⟨S100000x128, .f32⟩
  | 83 => ⟨S_, .f32⟩
  | 84 => ⟨S100000x128, .f32⟩
  | 85 => ⟨S100000x128, .f32⟩
  | 86 => ⟨S_, .f32⟩
  | 87 => ⟨S256x128, .f32⟩
  | 88 => ⟨S100000x1, .i32⟩
  | 89 => ⟨S256x128, .f32⟩
  | 90 => ⟨S256x128, .f32⟩
  | 91 => ⟨S256x128, .f32⟩
  | 92 => ⟨S256x384, .f32⟩
  | 93 => ⟨S256x128, .f32⟩
  | 94 => ⟨S1x128, .f32⟩
  | 95 => ⟨S256x128, .f32⟩
  | 96 => ⟨S256x128, .f32⟩
  | 97 => ⟨S256x10, .f32⟩
  | 98 => ⟨S1x10, .f32⟩
  | 99 => ⟨S256x10, .f32⟩
  | 100 => ⟨S256x10, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_cst : Ref sig .tc := ⟨.hbm, 19, rfl⟩
abbrev main_v4 : Ref sig .tc := ⟨.hbm, 20, rfl⟩
abbrev main_cst_0 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_cst_1 : Ref sig .tc := ⟨.hbm, 25, rfl⟩
abbrev main_v8 : Ref sig .tc := ⟨.hbm, 26, rfl⟩
abbrev main_v9 : Ref sig .tc := ⟨.hbm, 27, rfl⟩
abbrev main_c : Ref sig .tc := ⟨.hbm, 28, rfl⟩
abbrev main_v10 : Ref sig .tc := ⟨.hbm, 29, rfl⟩
abbrev main_v11 : Ref sig .tc := ⟨.hbm, 30, rfl⟩
abbrev main_c_2 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_cst_3 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_cst_4 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_call0_cst : Ref sig .tc := ⟨.hbm, 72, rfl⟩
abbrev main_call0_v0 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_call1_cst : Ref sig .tc := ⟨.hbm, 83, rfl⟩
abbrev main_call1_v0 : Ref sig .tc := ⟨.hbm, 84, rfl⟩
abbrev main_v59 : Ref sig .tc := ⟨.hbm, 85, rfl⟩
abbrev main_cst_5 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_c_6 : Ref sig .tc := ⟨.hbm, 92, rfl⟩
abbrev main_v65 : Ref sig .tc := ⟨.hbm, 93, rfl⟩
abbrev main_v66 : Ref sig .tc := ⟨.hbm, 94, rfl⟩
abbrev main_c_7 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_cst_8 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev main_v92 : Ref sig .tc := ⟨.hbm, 122, rfl⟩
abbrev main_cst_9 : Ref sig .tc := ⟨.hbm, 123, rfl⟩
abbrev main_v93 : Ref sig .tc := ⟨.hbm, 124, rfl⟩
abbrev main_v94 : Ref sig .tc := ⟨.hbm, 125, rfl⟩
abbrev main_v95 : Ref sig .tc := ⟨.hbm, 126, rfl⟩
abbrev main_v96 : Ref sig .tc := ⟨.hbm, 127, rfl⟩
abbrev main_v97 : Ref sig .tc := ⟨.hbm, 128, rfl⟩
abbrev main_v98 : Ref sig .tc := ⟨.hbm, 129, rfl⟩
abbrev main_v99 : Ref sig .tc := ⟨.hbm, 130, rfl⟩
abbrev main_v100 : Ref sig .tc := ⟨.hbm, 131, rfl⟩
abbrev main_v101 : Ref sig .tc := ⟨.hbm, 132, rfl⟩
abbrev main_v102 : Ref sig .tc := ⟨.hbm, 133, rfl⟩
abbrev main_v103 : Ref sig .tc := ⟨.hbm, 134, rfl⟩
abbrev main_v104 : Ref sig .tc := ⟨.hbm, 135, rfl⟩
abbrev main_call2_cst : Ref sig .tc := ⟨.hbm, 136, rfl⟩
abbrev main_call2_v0 : Ref sig .tc := ⟨.hbm, 137, rfl⟩
abbrev main_v105 : Ref sig .tc := ⟨.hbm, 138, rfl⟩
abbrev main_v106 : Ref sig .tc := ⟨.hbm, 139, rfl⟩
abbrev main_v107 : Ref sig .tc := ⟨.hbm, 140, rfl⟩
abbrev main_v108 : Ref sig .tc := ⟨.hbm, 141, rfl⟩
abbrev main_v109 : Ref sig .tc := ⟨.hbm, 142, rfl⟩
abbrev main_v110 : Ref sig .tc := ⟨.hbm, 143, rfl⟩
abbrev main_v111 : Ref sig .tc := ⟨.hbm, 144, rfl⟩
abbrev main_v112 : Ref sig .tc := ⟨.hbm, 145, rfl⟩
abbrev main_v113 : Ref sig .tc := ⟨.hbm, 146, rfl⟩
abbrev main_call3_cst : Ref sig .tc := ⟨.hbm, 147, rfl⟩
abbrev main_call3_v0 : Ref sig .tc := ⟨.hbm, 148, rfl⟩
abbrev main_v114 : Ref sig .tc := ⟨.hbm, 149, rfl⟩
abbrev main_cst_10 : Ref sig .tc := ⟨.hbm, 150, rfl⟩
abbrev main_v115 : Ref sig .tc := ⟨.hbm, 151, rfl⟩
abbrev main_v116 : Ref sig .tc := ⟨.hbm, 152, rfl⟩
abbrev main_v117 : Ref sig .tc := ⟨.hbm, 153, rfl⟩
abbrev main_v118 : Ref sig .tc := ⟨.hbm, 154, rfl⟩
abbrev main_v119 : Ref sig .tc := ⟨.hbm, 155, rfl⟩
abbrev main_c_11 : Ref sig .tc := ⟨.hbm, 156, rfl⟩
abbrev main_v120 : Ref sig .tc := ⟨.hbm, 157, rfl⟩
abbrev main_v121 : Ref sig .tc := ⟨.hbm, 158, rfl⟩
abbrev main_c_12 : Ref sig .tc := ⟨.hbm, 159, rfl⟩
abbrev main_v122 : Ref sig .tc := ⟨.hbm, 160, rfl⟩
abbrev main_v123 : Ref sig .tc := ⟨.hbm, 161, rfl⟩
abbrev main_v124 : Ref sig .tc := ⟨.hbm, 162, rfl⟩
abbrev main_v125 : Ref sig .tc := ⟨.hbm, 163, rfl⟩
abbrev main_v126 : Ref sig .tc := ⟨.hbm, 164, rfl⟩
abbrev main_cst_13 : Ref sig .tc := ⟨.hbm, 165, rfl⟩
abbrev main_v127 : Ref sig .tc := ⟨.hbm, 166, rfl⟩
abbrev main_v128 : Ref sig .tc := ⟨.hbm, 167, rfl⟩
abbrev main_v129 : Ref sig .tc := ⟨.hbm, 168, rfl⟩
abbrev main_v130 : Ref sig .tc := ⟨.hbm, 169, rfl⟩
abbrev main_v131 : Ref sig .tc := ⟨.hbm, 170, rfl⟩
abbrev main_v132 : Ref sig .tc := ⟨.hbm, 171, rfl⟩
abbrev main_v133 : Ref sig .tc := ⟨.hbm, 172, rfl⟩
abbrev main_v134 : Ref sig .tc := ⟨.hbm, 173, rfl⟩
abbrev main_v135 : Ref sig .tc := ⟨.hbm, 174, rfl⟩
abbrev main_v136 : Ref sig .tc := ⟨.hbm, 175, rfl⟩
abbrev main_v137 : Ref sig .tc := ⟨.hbm, 176, rfl⟩
abbrev main_v138 : Ref sig .tc := ⟨.hbm, 177, rfl⟩
abbrev main_v139 : Ref sig .tc := ⟨.hbm, 178, rfl⟩
abbrev main_v140 : Ref sig .tc := ⟨.hbm, 179, rfl⟩
abbrev main_v141 : Ref sig .tc := ⟨.hbm, 180, rfl⟩
abbrev main_v142 : Ref sig .tc := ⟨.hbm, 181, rfl⟩
abbrev main_v143 : Ref sig .tc := ⟨.hbm, 182, rfl⟩
abbrev main_v144 : Ref sig .tc := ⟨.hbm, 183, rfl⟩
abbrev main_v145 : Ref sig .tc := ⟨.hbm, 184, rfl⟩
abbrev main_v146 : Ref sig .tc := ⟨.hbm, 185, rfl⟩
abbrev main_v147 : Ref sig .tc := ⟨.hbm, 186, rfl⟩
abbrev main_cst_14 : Ref sig .tc := ⟨.hbm, 187, rfl⟩
abbrev main_v148 : Ref sig .tc := ⟨.hbm, 188, rfl⟩
abbrev main_v149 : Ref sig .tc := ⟨.hbm, 189, rfl⟩
abbrev main_v150 : Ref sig .tc := ⟨.hbm, 190, rfl⟩
abbrev main_v151 : Ref sig .tc := ⟨.hbm, 191, rfl⟩
abbrev main_v152 : Ref sig .tc := ⟨.hbm, 192, rfl⟩
abbrev main_v153 : Ref sig .tc := ⟨.hbm, 193, rfl⟩
abbrev main_v154 : Ref sig .tc := ⟨.hbm, 194, rfl⟩
abbrev main_v155 : Ref sig .tc := ⟨.hbm, 195, rfl⟩
abbrev main_v156 : Ref sig .tc := ⟨.hbm, 196, rfl⟩
abbrev main_v157 : Ref sig .tc := ⟨.hbm, 197, rfl⟩
abbrev main_v158 : Ref sig .tc := ⟨.hbm, 198, rfl⟩
abbrev main_v159 : Ref sig .tc := ⟨.hbm, 199, rfl⟩
abbrev main_call4_cst : Ref sig .tc := ⟨.hbm, 200, rfl⟩
abbrev main_call4_v0 : Ref sig .tc := ⟨.hbm, 201, rfl⟩
abbrev main_v160 : Ref sig .tc := ⟨.hbm, 202, rfl⟩
abbrev main_v161 : Ref sig .tc := ⟨.hbm, 203, rfl⟩
abbrev main_v162 : Ref sig .tc := ⟨.hbm, 204, rfl⟩
abbrev main_v163 : Ref sig .tc := ⟨.hbm, 205, rfl⟩
abbrev main_v164 : Ref sig .tc := ⟨.hbm, 206, rfl⟩
abbrev main_v165 : Ref sig .tc := ⟨.hbm, 207, rfl⟩
abbrev main_v166 : Ref sig .tc := ⟨.hbm, 208, rfl⟩
abbrev main_v167 : Ref sig .tc := ⟨.hbm, 209, rfl⟩
abbrev main_v168 : Ref sig .tc := ⟨.hbm, 210, rfl⟩
abbrev main_call5_cst : Ref sig .tc := ⟨.hbm, 211, rfl⟩
abbrev main_call5_v0 : Ref sig .tc := ⟨.hbm, 212, rfl⟩
abbrev main_v169 : Ref sig .tc := ⟨.hbm, 213, rfl⟩
abbrev main_cst_15 : Ref sig .tc := ⟨.hbm, 214, rfl⟩
abbrev main_v170 : Ref sig .tc := ⟨.hbm, 215, rfl⟩
abbrev main_v171 : Ref sig .tc := ⟨.hbm, 216, rfl⟩
abbrev main_v172 : Ref sig .tc := ⟨.hbm, 217, rfl⟩
abbrev main_v173 : Ref sig .tc := ⟨.hbm, 218, rfl⟩
abbrev main_v174 : Ref sig .tc := ⟨.hbm, 219, rfl⟩
abbrev main_v175 : Ref sig .tc := ⟨.hbm, 220, rfl⟩
abbrev main_v176 : Ref sig .tc := ⟨.hbm, 221, rfl⟩
abbrev main_v177 : Ref sig .tc := ⟨.hbm, 222, rfl⟩
abbrev main_v178 : Ref sig .tc := ⟨.hbm, 223, rfl⟩
abbrev main_v179 : Ref sig .tc := ⟨.hbm, 224, rfl⟩
abbrev main_v180 : Ref sig .tc := ⟨.hbm, 225, rfl⟩
abbrev main_v181 : Ref sig .tc := ⟨.hbm, 226, rfl⟩
abbrev main_v182 : Ref sig .tc := ⟨.hbm, 227, rfl⟩
abbrev main_v183 : Ref sig .tc := ⟨.hbm, 228, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S100000x1 : S_.BroadcastsInDim S100000x1 (![] : Fin 0 → Fin S100000x1.rank)
  bcast_S_S256x1 : S_.BroadcastsInDim S256x1 (![] : Fin 0 → Fin S256x1.rank)
  bcast_S100000_S100000x1_0 : S100000.BroadcastsInDim S100000x1 (![0] : Fin 1 → Fin S100000x1.rank)
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  slices_S3x128x128_S1x128x128_0_0_0 : S3x128x128.Slices ![0, 0, 0] S1x128x128
  shapeCasts_S1x128x128_S128x128 : S1x128x128.ShapeCasts S128x128
  slices_S3x128_S1x128_0_0 : S3x128.Slices ![0, 0] S1x128
  shapeCasts_S1x128_S128 : S1x128.ShapeCasts S128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S128 : S_.BroadcastsInDim S128 (![] : Fin 0 → Fin S128.rank)
  bcast_S_S256x128 : S_.BroadcastsInDim S256x128 (![] : Fin 0 → Fin S256x128.rank)
  bcast_S256x1_S256x128_0_1 : S256x1.BroadcastsInDim S256x128 (![0, 1] : Fin 2 → Fin S256x128.rank)
  slices_S3x128x128_S1x128x128_1_0_0 : S3x128x128.Slices ![1, 0, 0] S1x128x128
  slices_S3x128_S1x128_1_0 : S3x128.Slices ![1, 0] S1x128
  slices_S3x128x128_S1x128x128_2_0_0 : S3x128x128.Slices ![2, 0, 0] S1x128x128
  slices_S3x128_S1x128_2_0 : S3x128.Slices ![2, 0] S1x128
  concatenates_S256x128_S256x128_S256x128_S256x384_d1 : Shape.Concatenates [S256x128, S256x128, S256x128] S256x384 1
  bcast_S1x128_S256x128_0_1 : S1x128.BroadcastsInDim S256x128 (![0, 1] : Fin 2 → Fin S256x128.rank)
  bcast_S10_S1x10_1 : S10.BroadcastsInDim S1x10 (![1] : Fin 1 → Fin S1x10.rank)
  bcast_S1x10_S256x10_0_1 : S1x10.BroadcastsInDim S256x10 (![0, 1] : Fin 2 → Fin S256x10.rank)
  scatter_S256x1_S100000x1_S100000x1_1_0_0_1_wf : ScatterDims.WF S256x1 S100000x1 S100000x1 [1] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x128_S100000x128_1_0_0_1_n_n_wf : DotDims.WF S100000x128 S128x128 S100000x128 [1] [0] [0] [1] [] []
  scatter_S256x128_S100000x1_S100000x128_1_0_0_1_wf : ScatterDims.WF S256x128 S100000x1 S100000x128 [1] [0] [0] 1
  dot_S256x384_S384x128_S256x128_1_0_0_1_n_n_wf : DotDims.WF S256x384 S384x128 S256x128 [1] [0] [0] [1] [] []
  dot_S256x128_S128x10_S256x10_1_0_0_1_n_n_wf : DotDims.WF S256x128 S128x10 S256x10 [1] [0] [0] [1] [] []

variable [Facts₀]

def scatter_S256x1_S100000x1_S100000x1_1_0_0_1 : ScatterDims S256x1 S100000x1 S100000x1 where
  updateWindowDims := [1]
  insertedWindowDims := [0]
  scatterDimsToOperandDims := [0]
  indexVectorDim := 1
  wf := scatter_S256x1_S100000x1_S100000x1_1_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def scatter_S256x128_S100000x1_S100000x128_1_0_0_1 : ScatterDims S256x128 S100000x1 S100000x128 where
  updateWindowDims := [1]
  insertedWindowDims := [0]
  scatterDimsToOperandDims := [0]
  indexVectorDim := 1
  wf := scatter_S256x128_S100000x1_S100000x128_1_0_0_1_wf
def dot_S256x384_S384x128_S256x128_1_0_0_1_n_n : DotDims S256x384 S384x128 S256x128 where
  lhsContracting := [1]
  rhsContracting := [0]
  lhsNonContracting := [0]
  rhsNonContracting := [1]
  lhsBatch := []
  rhsBatch := []
  wf := dot_S256x384_S384x128_S256x128_1_0_0_1_n_n_wf
def dot_S256x128_S128x10_S256x10_1_0_0_1_n_n : DotDims S256x128 S128x10 S256x10 where
  lhsContracting := [1]
  rhsContracting := [0]
  lhsNonContracting := [0]
  rhsNonContracting := [1]
  lhsBatch := []
  rhsBatch := []
  wf := dot_S256x128_S128x10_S256x10_1_0_0_1_n_n_wf

class Facts : Prop extends Facts₀ where

variable [Facts]
-- ==== Proof.K.Data.lean ====
/-
  Proof data for the three node-MLP kernel regions of `Kernel`, at any float instance.
  Region K (K = 0, 1, 2) applies the same body to a 5000-row block of its first operand:
  two matrix products with per-column affine steps and clamps at zero in between.  Per region, at
  entry contents `V`: each window's block at a grid point (`iblkK`), the staging buffer of the output window
  after the body as one store of the body's payload (`outK_9`), and the pipeline's proof data (`datK`: inputs left in
  place, the output at `outK_9` of the input blocks).  Then the contents of the unscoped buffers at the seven
  boundaries between the host stretches and the regions (`W0` … `W7`): a host stretch applies its operations,
  a region replaces its arrays by what its write-backs leave.
-/
import proofs.«143124_j79869211837073_2_alg».proof.Proof.Gen.Kernel.Launch
import proofs.«143124_j79869211837073_2_alg».proof.Proof.Gen.Kernel.Skeleton
import proofs.«143124_j79869211837073_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

/-- The whole-buffer rectangles the body loads and stores through. -/
abbrev rA : Rect S5000x128 := Rect.unit (s := S5000x128) ![0, 0] S5000x128.size inb_S5000x128_S5000x128_0_0
abbrev rB : Rect S128x128 := Rect.unit (s := S128x128) ![0, 0] S128x128.size inb_S128x128_S128x128_0_0
abbrev rC : Rect S1x128 := Rect.unit (s := S1x128) ![0, 0] S1x128.size inb_S1x128_S1x128_0_0

section Regions
variable (V : (c : Dev nD) → (b : Ref sig .tc) → Buf (Elt F) ((c : Thread nD τ).loc b))

/-! ## Region 0 -/

/-- Window `w`'s block at point `t`, read off its array as region 0 finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The output window's staging buffer after the body: one whole-buffer store of the second product plus its bias,
    clamped at zero, of the first product's normalised and clamped rows. -/
def out0_9 (x0 : Vec F S5000x128 .f32) (x1 : Vec F S128x128 .f32) (x2 x3 x4 x5 x6 : Vec F S1x128 .f32)
    (x7 : Vec F S128x128 .f32) (x8 : Vec F S1x128 .f32) : Vec F S5000x128 .f32 :=
  View.canon [⟨rA, k0_pay1 (k0_pay2 (View.ld x0 rA) (View.ld x1 rB) (View.ld x2 rC) (View.ld x3 rC) (View.ld x6 rC) (View.ld x5 rC) (View.ld x4 rC) (View.ld x7 rB)) (View.ld x8 rC)⟩]

/-- The proof data of pipeline 0 on core `c`: the arrays as the region finds them; after the body each input's buffer
    still at its block and the output's at `out0_9` of the input blocks; nothing owed, full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => iblk0 V c 8 t
    | ⟨9, _⟩ => out0_9 (iblk0 V c 0 t) (iblk0 V c 1 t) (iblk0 V c 2 t) (iblk0 V c 3 t) (iblk0 V c 4 t) (iblk0 V c 5 t) (iblk0 V c 6 t) (iblk0 V c 7 t) (iblk0 V c 8 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = iblk0 V c 7 t := by dsimp only [dat0]
theorem after0_8 (c : Dev nD) (t : Fin cfg0.N) : (dat0 V c).after 8 t = iblk0 V c 8 t := by dsimp only [dat0]
theorem after0_9 (c : Dev nD) (t : Fin cfg0.N) : (dat0 V c).after 9 t =
    out0_9 (iblk0 V c 0 t) (iblk0 V c 1 t) (iblk0 V c 2 t) (iblk0 V c 3 t) (iblk0 V c 4 t) (iblk0 V c 5 t) (iblk0 V c 6 t) (iblk0 V c 7 t) (iblk0 V c 8 t) := by dsimp only [dat0]

/-! ## Region 1 -/

/-- Window `w`'s block at point `t`, read off its array as region 1 finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The output window's staging buffer after the body: one whole-buffer store of the second product plus its bias,
    clamped at zero, of the first product's normalised and clamped rows. -/
def out1_9 (x0 : Vec F S5000x128 .f32) (x1 : Vec F S128x128 .f32) (x2 x3 x4 x5 x6 : Vec F S1x128 .f32)
    (x7 : Vec F S128x128 .f32) (x8 : Vec F S1x128 .f32) : Vec F S5000x128 .f32 :=
  View.canon [⟨rA, k1_pay1 (k1_pay2 (View.ld x0 rA) (View.ld x1 rB) (View.ld x2 rC) (View.ld x3 rC) (View.ld x6 rC) (View.ld x5 rC) (View.ld x4 rC) (View.ld x7 rB)) (View.ld x8 rC)⟩]

/-- The proof data of pipeline 1 on core `c`: the arrays as the region finds them; after the body each input's buffer
    still at its block and the output's at `out1_9` of the input blocks; nothing owed, full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => out1_9 (iblk1 V c 0 t) (iblk1 V c 1 t) (iblk1 V c 2 t) (iblk1 V c 3 t) (iblk1 V c 4 t) (iblk1 V c 5 t) (iblk1 V c 6 t) (iblk1 V c 7 t) (iblk1 V c 8 t)
  Φ _ := Pipeline.ΦA spec1 c
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = iblk1 V c 8 t := by dsimp only [dat1]
theorem after1_9 (c : Dev nD) (t : Fin cfg1.N) : (dat1 V c).after 9 t =
    out1_9 (iblk1 V c 0 t) (iblk1 V c 1 t) (iblk1 V c 2 t) (iblk1 V c 3 t) (iblk1 V c 4 t) (iblk1 V c 5 t) (iblk1 V c 6 t) (iblk1 V c 7 t) (iblk1 V c 8 t) := by dsimp only [dat1]

/-! ## Region 2 -/

/-- Window `w`'s block at point `t`, read off its array as region 2 finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The output window's staging buffer after the body: one whole-buffer store of the second product plus its bias,
    clamped at zero, of the first product's normalised and clamped rows. -/
def out2_9 (x0 : Vec F S5000x128 .f32) (x1 : Vec F S128x128 .f32) (x2 x3 x4 x5 x6 : Vec F S1x128 .f32)
    (x7 : Vec F S128x128 .f32) (x8 : Vec F S1x128 .f32) : Vec F S5000x128 .f32 :=
  View.canon [⟨rA, k2_pay1 (k2_pay2 (View.ld x0 rA) (View.ld x1 rB) (View.ld x2 rC) (View.ld x3 rC) (View.ld x6 rC) (View.ld x5 rC) (View.ld x4 rC) (View.ld x7 rB)) (View.ld x8 rC)⟩]

/-- The proof data of pipeline 2 on core `c`: the arrays as the region finds them; after the body each input's buffer
    still at its block and the output's at `out2_9` of the input blocks; nothing owed, full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => iblk2 V c 7 t
    | ⟨8, _⟩ => iblk2 V c 8 t
    | ⟨9, _⟩ => out2_9 (iblk2 V c 0 t) (iblk2 V c 1 t) (iblk2 V c 2 t) (iblk2 V c 3 t) (iblk2 V c 4 t) (iblk2 V c 5 t) (iblk2 V c 6 t) (iblk2 V c 7 t) (iblk2 V c 8 t)
  Φ _ := Pipeline.ΦA spec2 c
  q _ := fullShare
  owed _ := 0

theorem A_eq2 (c : Dev nD) (w : Fin cfg2.W) : (dat2 V c).A w = V c (Pipeline.arrRef spec2 w) := by
  dsimp only [dat2]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = iblk2 V c 6 t := by dsimp only [dat2]
theorem after2_7 (c : Dev nD) (t : Fin cfg2.N) : (dat2 V c).after 7 t = iblk2 V c 7 t := by dsimp only [dat2]
theorem after2_8 (c : Dev nD) (t : Fin cfg2.N) : (dat2 V c).after 8 t = iblk2 V c 8 t := by dsimp only [dat2]
theorem after2_9 (c : Dev nD) (t : Fin cfg2.N) : (dat2 V c).after 9 t =
    out2_9 (iblk2 V c 0 t) (iblk2 V c 1 t) (iblk2 V c 2 t) (iblk2 V c 3 t) (iblk2 V c 4 t) (iblk2 V c 5 t) (iblk2 V c 6 t) (iblk2 V c 7 t) (iblk2 V c 8 t) := by dsimp only [dat2]

end Regions

/-! ## The unscoped buffers at each boundary -/

variable (m : (ℓ : Loc nD τ sig) → Buf (Elt F) ℓ)

/-- Core `c`'s buffers at launch. -/
abbrev W0 : Dev nD → Valuation τ sig (Elt F) := fun c b => m (c, b)
abbrev W1 : Dev nD → Valuation τ sig (Elt F) := fun c => StableHlo.after hostOps0 (W0 m c)
abbrev V1 : (c : Dev nD) → (b : Ref sig .tc) → Buf (Elt F) ((c : Thread nD τ).loc b) := fun c b => W1 m c b
/-- After region 0: its arrays at what the pipeline leaves, every other buffer as entered. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)
abbrev W3 : Dev nD → Valuation τ sig (Elt F) := fun c => StableHlo.after hostOps1 (W2 m c)
abbrev V3 : (c : Dev nD) → (b : Ref sig .tc) → Buf (Elt F) ((c : Thread nD τ).loc b) := fun c b => W3 m c b

/-- After region 1: its arrays at what the pipeline leaves, every other buffer as entered. -/
def W4 (c : Dev nD) : Valuation τ sig (Elt F) :=
  Pipeline.withArrays spec1 c (W3 m c) fun w => (dat1 (V3 m) c).arrAt w cfg1.N
theorem W4_arr (c : Dev nD) (w : Fin cfg1.W) :
    W4 m c (Proc.devRef .tc (Pipeline.arrRef spec1 w)) = (dat1 (V3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
abbrev V4 : (c : Dev nD) → (b : Ref sig .tc) → Buf (Elt F) ((c : Thread nD τ).loc b) := fun c b => W4 m c b
theorem hF1 (c : Dev nD) (w : Fin cfg1.W) : (dat1 (V3 m) c).arrAt w cfg1.N = V4 m c (Pipeline.arrRef spec1 w) :=
  (W4_arr m c w).symm
theorem hrest1 (c : Dev nD) : ∀ b, b ∉ Finset.univ.image (Pipeline.arrRef spec1) → V4 m c b = V3 m c b :=
  fun b hb => W4_of_ne m c b fun w e => hb (Finset.mem_image.mpr ⟨w, Finset.mem_univ _, e⟩)
abbrev W5 : Dev nD → Valuation τ sig (Elt F) := fun c => StableHlo.after hostOps2 (W4 m c)
abbrev V5 : (c : Dev nD) → (b : Ref sig .tc) → Buf (Elt F) ((c : Thread nD τ).loc b) := fun c b => W5 m c b

/-- After region 2: its arrays at what the pipeline leaves, every other buffer as entered. -/
def W6 (c : Dev nD) : Valuation τ sig (Elt F) :=
  Pipeline.withArrays spec2 c (W5 m c) fun w => (dat2 (V5 m) c).arrAt w cfg2.N
theorem W6_arr (c : Dev nD) (w : Fin cfg2.W) :
    W6 m c (Proc.devRef .tc (Pipeline.arrRef spec2 w)) = (dat2 (V5 m) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m c (Proc.devRef .tc b) = W5 m c (Proc.devRef .tc b) := by
  unfold W6; exact Pipeline.withArrays_of_ne spec2 c _ _ b hb
abbrev V6 : (c : Dev nD) → (b : Ref sig .tc) → Buf (Elt F) ((c : Thread nD τ).loc b) := fun c b => W6 m c b
theorem hF2 (c : Dev nD) (w : Fin cfg2.W) : (dat2 (V5 m) c).arrAt w cfg2.N = V6 m c (Pipeline.arrRef spec2 w) :=
  (W6_arr m c w).symm
theorem hrest2 (c : Dev nD) : ∀ b, b ∉ Finset.univ.image (Pipeline.arrRef spec2) → V6 m c b = V5 m c b :=
  fun b hb => W6_of_ne m c b fun w e => hb (Finset.mem_image.mpr ⟨w, Finset.mem_univ _, e⟩)
abbrev W7 : Dev nD → Valuation τ sig (Elt F) := fun c => StableHlo.after hostOps3 (W6 m c)
abbrev V7 : (c : Dev nD) → (b : Ref sig .tc) → Buf (Elt F) ((c : Thread nD τ).loc b) := fun c b => W7 m c b

/-- No pipeline has a prefetched table. -/
abbrev adm : (p : Fin 3) → (pcfgs (F := F) p).Adm := fun p => (cfgs p).toPCfg_adm
/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V3 m) c
  | ⟨2, _⟩ => fun c => dat2 (V5 m) c

end Cert.Kernel.Fr

end
-- ==== Proof.K.Body0.lean ====
/-
  Region 0 of `Kernel`: what its body finds and leaves, at any entry contents `V`.  Each of the nine input
  windows' current staging buffer holds that window's block at every grid point, whether the pipeline fetched it there
  or not (the first window's block moves with the point; the other eight have a constant block index and are fetched
  once).  The body loads the nine input buffers whole, forms the two matrix products with the per-column affine steps
  and clamps at zero between them, and stores the result over the whole output buffer: one store that covers the
  buffer, so the output buffer afterwards reads the stored payload whatever it held before.  From these, the body's
  triple on whole staging memrefs, and the pipeline's body obligation at every grid point.
-/
import proofs.«143124_j79869211837073_2_alg».proof.Proof.K.Data

-- membership in a rectangle of 5000 rows: the elaborator's structural look recurses once per coordinate of the long axis
set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What the body finds in each input window's buffer -/

/-- Input window 0's current staging buffer holds its block at every point, fetched there or not, for any proof
    data whose array is the entry contents' and whose body leaves the block in place: unfetched, the block index has
    not moved, so the previous point's block is this point's; the window is uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not, for any proof
    data whose array is the entry contents' and whose body leaves the block in place: unfetched, the block index has
    not moved, so the previous point's block is this point's; the window is uncut and never idle. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or not, for any proof
    data whose array is the entry contents' and whose body leaves the block in place: unfetched, the block index has
    not moved, so the previous point's block is this point's; the window is uncut and never idle. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds its block at every point, fetched there or not, for any proof
    data whose array is the entry contents' and whose body leaves the block in place: unfetched, the block index has
    not moved, so the previous point's block is this point's; the window is uncut and never idle. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's current staging buffer holds its block at every point, fetched there or not, for any proof
    data whose array is the entry contents' and whose body leaves the block in place: unfetched, the block index has
    not moved, so the previous point's block is this point's; the window is uncut and never idle. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- Input window 5's current staging buffer holds its block at every point, fetched there or not, for any proof
    data whose array is the entry contents' and whose body leaves the block in place: unfetched, the block index has
    not moved, so the previous point's block is this point's; the window is uncut and never idle. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-- Input window 6's current staging buffer holds its block at every point, fetched there or not, for any proof
    data whose array is the entry contents' and whose body leaves the block in place: unfetched, the block index has
    not moved, so the previous point's block is this point's; the window is uncut and never idle. -/
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)

/-- Input window 7's current staging buffer holds its block at every point, fetched there or not, for any proof
    data whose array is the entry contents' and whose body leaves the block in place: unfetched, the block index has
    not moved, so the previous point's block is this point's; the window is uncut and never idle. -/
theorem before0_7_of {c : Dev nD} (dat : Dat τ (Elt F) Unit ℕ (UR sig nD τ) ℕ cfg0 c) (hA : dat.A 7 = V c (Pipeline.arrRef spec0 7))
    (hafter : ∀ t, dat.after 7 t = iblk0 V c 7 t) (t : Fin cfg0.N) (d) : dat.before 7 t d = iblk0 V c 7 t :=
  (dat.before_in_eq_fetched 7 rfl (fun _ => rfl) (fun _ _ _ => rfl) (fun t => by rw [hafter]; unfold Dat.blockOf iblk0; rw [hA]; try rfl) t d).trans
    (by unfold Dat.fetched Dat.blockOf iblk0; rw [hA]; try rfl)

/-- Input window 8's current staging buffer holds its block at every point, fetched there or not, for any proof
    data whose array is the entry contents' and whose body leaves the block in place: unfetched, the block index has
    not moved, so the previous point's block is this point's; the window is uncut and never idle. -/
theorem before0_8_of {c : Dev nD} (dat : Dat τ (Elt F) Unit ℕ (UR sig nD τ) ℕ cfg0 c) (hA : dat.A 8 = V c (Pipeline.arrRef spec0 8))
    (hafter : ∀ t, dat.after 8 t = iblk0 V c 8 t) (t : Fin cfg0.N) (d) : dat.before 8 t d = iblk0 V c 8 t :=
  (dat.before_in_eq_fetched 8 rfl (fun _ => rfl) (fun _ _ _ => rfl) (fun t => by rw [hafter]; unfold Dat.blockOf iblk0; rw [hA]; try rfl) t d).trans
    (by unfold Dat.fetched Dat.blockOf iblk0; rw [hA]; try rfl)

/-- Each input's current staging buffer holds its block at every point, for region 0's own proof data. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d
theorem before0_7 (c : Dev nD) (t : Fin cfg0.N) (d) : (dat0 V c).before 7 t d = iblk0 V c 7 t :=
  before0_7_of V (dat0 V c) (A_eq0 V c 7) (after0_7 V c) t d
theorem before0_8 (c : Dev nD) (t : Fin cfg0.N) (d) : (dat0 V c).before 8 t d = iblk0 V c 8 t :=
  before0_8_of V (dat0 V c) (A_eq0 V c 8) (after0_8 V c) t d

/-! ## The one store covers the output buffer -/

/-- The whole-buffer rectangle tiles the buffer, so any single piece laid through it covers every index. -/
theorem cover0_9 (p0 : Vec F S5000x128 .f32) (y : S5000x128.Idx) :
    ∃ pc ∈ ([⟨rA, p0⟩] : List (View.Piece (Elt F) S5000x128 .f32)), y ∈ pc.1.set :=
  View.cover_of_tiled [⟨rA, p0⟩] S5000x128.size (by rfl) y

/-! ## The body's triple -/

set_option maxHeartbeats 4000000 in
/-- The body on whole staging memrefs, the nine inputs' at read contents `x0` … `x8` and the output's at anything,
    runs to the continuation holding the inputs' as they were and the output's at `out0_9` of the inputs': the nine
    loads read the inputs through the whole-buffer rectangles, the load of the output buffer is discarded, and the one
    store, covering the buffer, leaves its payload there. -/
theorem sound_kernel0 (c : Dev nD) (E : Set ℕ) (i : grid0.Coords) (arg1 : Memref sig .tc .vmem S5000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S5000x128 .f32) (harg10 : arg10.IsWhole)
    (x0 : Vec F S5000x128 .f32) (x1 : Vec F S128x128 .f32) (x2 x3 x4 x5 x6 : Vec F S1x128 .f32) (x7 : Vec F S128x128 .f32) (x8 : Vec F S1x128 .f32)
    (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare (out0_9 x0 x1 x2 x3 x4 x5 x6 x7 x8)) -∗ K ⟨⟩))
      ⊢ wp frame (wpE (defs₀ (F := F)) Variants.none c none) E (cc0__mlp_kernel i arg1 harg1 arg2 harg2 arg3 harg3 arg4 harg4 arg5 harg5 arg6 harg6 arg7 harg7 arg8 harg8 arg9 harg9 arg10 harg10) K := by
  simp only [cc0__mlp_kernel_eq_skeleton]; unfold cc0__mlp_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, Hk⟩
  subst hf0 hf1 hf2 hf3 hf4 hf5 hf6 hf7 hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  iexists _; isplitr
  swap; · iexact H9
  ipureintro
  exact View.read_writes_eq_canon _ _ _ (cover0_9 _)

/-! ## The body obligation, at a generic point -/

/-- What the body is called with at point `t`: the invariant, the core's debts, and every window's current staging
    buffer at what the pipeline left there, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d))
    ∗ (∃ d, owns (c : Thread nD τ) (st0_9 t) fullShare ((dat0 V c).before 9 t d)))

/-- and what it returns: the same, every buffer at what the proof data say the body leaves. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t)
    ∗ owns (c : Thread nD τ) (st0_9 t) fullShare ((dat0 V c).after 9 t))

set_option maxHeartbeats 1000000 in
/-- The body at any point: the inputs' buffers hold their blocks, so the body's triple applies; the invariant and the
    core's debts pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6, before0_7, before0_8]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8, after0_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel0 c Set.univ _ _ _ _ _ _ _ _ _ _ _ _ _ _ _ _ _ _ _ _ _ (iblk0 V c 0 t) (iblk0 V c 1 t) (iblk0 V c 2 t) (iblk0 V c 3 t) (iblk0 V c 4 t) (iblk0 V c 5 t) (iblk0 V c 6 t) (iblk0 V c 7 t) (iblk0 V c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The pipeline's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Fr

end
-- ==== Proof.K.Body1.lean ====
/-
  Region 1 of `Kernel`: what its body finds and leaves, at any entry contents `V`.  Each of the nine input
  windows' current staging buffer holds that window's block at every grid point, whether the pipeline fetched it there
  or not (the first window's block moves with the point; the other eight have a constant block index and are fetched
  once).  The body loads the nine input buffers whole, forms the two matrix products with the per-column affine steps
  and clamps at zero between them, and stores the result over the whole output buffer: one store that covers the
  buffer, so the output buffer afterwards reads the stored payload whatever it held before.  From these, the body's
  triple on whole staging memrefs, and the pipeline's body obligation at every grid point.
-/
import proofs.«143124_j79869211837073_2_alg».proof.Proof.K.Data

-- membership in a rectangle of 5000 rows: the elaborator's structural look recurses once per coordinate of the long axis
set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What the body finds in each input window's buffer -/

/-- Input window 0's current staging buffer holds its block at every point, fetched there or not, for any proof
    data whose array is the entry contents' and whose body leaves the block in place: unfetched, the block index has
    not moved, so the previous point's block is this point's; the window is uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not, for any proof
    data whose array is the entry contents' and whose body leaves the block in place: unfetched, the block index has
    not moved, so the previous point's block is this point's; the window is uncut and never idle. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not, for any proof
    data whose array is the entry contents' and whose body leaves the block in place: unfetched, the block index has
    not moved, so the previous point's block is this point's; the window is uncut and never idle. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, fetched there or not, for any proof
    data whose array is the entry contents' and whose body leaves the block in place: unfetched, the block index has
    not moved, so the previous point's block is this point's; the window is uncut and never idle. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's current staging buffer holds its block at every point, fetched there or not, for any proof
    data whose array is the entry contents' and whose body leaves the block in place: unfetched, the block index has
    not moved, so the previous point's block is this point's; the window is uncut and never idle. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- Input window 5's current staging buffer holds its block at every point, fetched there or not, for any proof
    data whose array is the entry contents' and whose body leaves the block in place: unfetched, the block index has
    not moved, so the previous point's block is this point's; the window is uncut and never idle. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-- Input window 6's current staging buffer holds its block at every point, fetched there or not, for any proof
    data whose array is the entry contents' and whose body leaves the block in place: unfetched, the block index has
    not moved, so the previous point's block is this point's; the window is uncut and never idle. -/
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

/-- Input window 7's current staging buffer holds its block at every point, fetched there or not, for any proof
    data whose array is the entry contents' and whose body leaves the block in place: unfetched, the block index has
    not moved, so the previous point's block is this point's; the window is uncut and never idle. -/
theorem before1_7_of {c : Dev nD} (dat : Dat τ (Elt F) Unit ℕ (UR sig nD τ) ℕ cfg1 c) (hA : dat.A 7 = V c (Pipeline.arrRef spec1 7))
    (hafter : ∀ t, dat.after 7 t = iblk1 V c 7 t) (t : Fin cfg1.N) (d) : dat.before 7 t d = iblk1 V c 7 t :=
  (dat.before_in_eq_fetched 7 rfl (fun _ => rfl) (fun _ _ _ => rfl) (fun t => by rw [hafter]; unfold Dat.blockOf iblk1; rw [hA]; try rfl) t d).trans
    (by unfold Dat.fetched Dat.blockOf iblk1; rw [hA]; try rfl)

/-- Input window 8's current staging buffer holds its block at every point, fetched there or not, for any proof
    data whose array is the entry contents' and whose body leaves the block in place: unfetched, the block index has
    not moved, so the previous point's block is this point's; the window is uncut and never idle. -/
theorem before1_8_of {c : Dev nD} (dat : Dat τ (Elt F) Unit ℕ (UR sig nD τ) ℕ cfg1 c) (hA : dat.A 8 = V c (Pipeline.arrRef spec1 8))
    (hafter : ∀ t, dat.after 8 t = iblk1 V c 8 t) (t : Fin cfg1.N) (d) : dat.before 8 t d = iblk1 V c 8 t :=
  (dat.before_in_eq_fetched 8 rfl (fun _ => rfl) (fun _ _ _ => rfl) (fun t => by rw [hafter]; unfold Dat.blockOf iblk1; rw [hA]; try rfl) t d).trans
    (by unfold Dat.fetched Dat.blockOf iblk1; rw [hA]; try rfl)

/-- Each input's current staging buffer holds its block at every point, for region 1's own proof data. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d
theorem before1_7 (c : Dev nD) (t : Fin cfg1.N) (d) : (dat1 V c).before 7 t d = iblk1 V c 7 t :=
  before1_7_of V (dat1 V c) (A_eq1 V c 7) (after1_7 V c) t d
theorem before1_8 (c : Dev nD) (t : Fin cfg1.N) (d) : (dat1 V c).before 8 t d = iblk1 V c 8 t :=
  before1_8_of V (dat1 V c) (A_eq1 V c 8) (after1_8 V c) t d

/-! ## The one store covers the output buffer -/

/-- The whole-buffer rectangle tiles the buffer, so any single piece laid through it covers every index. -/
theorem cover1_9 (p0 : Vec F S5000x128 .f32) (y : S5000x128.Idx) :
    ∃ pc ∈ ([⟨rA, p0⟩] : List (View.Piece (Elt F) S5000x128 .f32)), y ∈ pc.1.set :=
  View.cover_of_tiled [⟨rA, p0⟩] S5000x128.size (by rfl) y

/-! ## The body's triple -/

set_option maxHeartbeats 4000000 in
/-- The body on whole staging memrefs, the nine inputs' at read contents `x0` … `x8` and the output's at anything,
    runs to the continuation holding the inputs' as they were and the output's at `out1_9` of the inputs': the nine
    loads read the inputs through the whole-buffer rectangles, the load of the output buffer is discarded, and the one
    store, covering the buffer, leaves its payload there. -/
theorem sound_kernel1 (c : Dev nD) (E : Set ℕ) (i : grid1.Coords) (arg1 : Memref sig .tc .vmem S5000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S5000x128 .f32) (harg10 : arg10.IsWhole)
    (x0 : Vec F S5000x128 .f32) (x1 : Vec F S128x128 .f32) (x2 x3 x4 x5 x6 : Vec F S1x128 .f32) (x7 : Vec F S128x128 .f32) (x8 : Vec F S1x128 .f32)
    (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare (out1_9 x0 x1 x2 x3 x4 x5 x6 x7 x8)) -∗ K ⟨⟩))
      ⊢ wp frame (wpE (defs₀ (F := F)) Variants.none c none) E (cc1__mlp_kernel i arg1 harg1 arg2 harg2 arg3 harg3 arg4 harg4 arg5 harg5 arg6 harg6 arg7 harg7 arg8 harg8 arg9 harg9 arg10 harg10) K := by
  simp only [cc1__mlp_kernel_eq_skeleton]; unfold cc1__mlp_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, Hk⟩
  subst hf0 hf1 hf2 hf3 hf4 hf5 hf6 hf7 hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  iexists _; isplitr
  swap; · iexact H9
  ipureintro
  exact View.read_writes_eq_canon _ _ _ (cover1_9 _)

/-! ## The body obligation, at a generic point -/

/-- What the body is called with at point `t`: the invariant, the core's debts, and every window's current staging
    buffer at what the pipeline left there, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d))
    ∗ (∃ d, owns (c : Thread nD τ) (st1_9 t) fullShare ((dat1 V c).before 9 t d)))

/-- and what it returns: the same, every buffer at what the proof data say the body leaves. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t)
    ∗ owns (c : Thread nD τ) (st1_9 t) fullShare ((dat1 V c).after 9 t))

set_option maxHeartbeats 1000000 in
/-- The body at any point: the inputs' buffers hold their blocks, so the body's triple applies; the invariant and the
    core's debts pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7, before1_8]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8, after1_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel1 c Set.univ _ _ _ _ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) (iblk1 V c 7 t) (iblk1 V c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The pipeline's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Fr

end
-- ==== Proof.K.Body2.lean ====
/-
  Region 2 of `Kernel`: what its body finds and leaves, at any entry contents `V`.  Each of the nine input
  windows' current staging buffer holds that window's block at every grid point, whether the pipeline fetched it there
  or not (the first window's block moves with the point; the other eight have a constant block index and are fetched
  once).  The body loads the nine input buffers whole, forms the two matrix products with the per-column affine steps
  and clamps at zero between them, and stores the result over the whole output buffer: one store that covers the
  buffer, so the output buffer afterwards reads the stored payload whatever it held before.  From these, the body's
  triple on whole staging memrefs, and the pipeline's body obligation at every grid point.
-/
import proofs.«143124_j79869211837073_2_alg».proof.Proof.K.Data

-- membership in a rectangle of 5000 rows: the elaborator's structural look recurses once per coordinate of the long axis
set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What the body finds in each input window's buffer -/

/-- Input window 0's current staging buffer holds its block at every point, fetched there or not, for any proof
    data whose array is the entry contents' and whose body leaves the block in place: unfetched, the block index has
    not moved, so the previous point's block is this point's; the window is uncut and never idle. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds its block at every point, fetched there or not, for any proof
    data whose array is the entry contents' and whose body leaves the block in place: unfetched, the block index has
    not moved, so the previous point's block is this point's; the window is uncut and never idle. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current staging buffer holds its block at every point, fetched there or not, for any proof
    data whose array is the entry contents' and whose body leaves the block in place: unfetched, the block index has
    not moved, so the previous point's block is this point's; the window is uncut and never idle. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3's current staging buffer holds its block at every point, fetched there or not, for any proof
    data whose array is the entry contents' and whose body leaves the block in place: unfetched, the block index has
    not moved, so the previous point's block is this point's; the window is uncut and never idle. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- Input window 4's current staging buffer holds its block at every point, fetched there or not, for any proof
    data whose array is the entry contents' and whose body leaves the block in place: unfetched, the block index has
    not moved, so the previous point's block is this point's; the window is uncut and never idle. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-- Input window 5's current staging buffer holds its block at every point, fetched there or not, for any proof
    data whose array is the entry contents' and whose body leaves the block in place: unfetched, the block index has
    not moved, so the previous point's block is this point's; the window is uncut and never idle. -/
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

/-- Input window 6's current staging buffer holds its block at every point, fetched there or not, for any proof
    data whose array is the entry contents' and whose body leaves the block in place: unfetched, the block index has
    not moved, so the previous point's block is this point's; the window is uncut and never idle. -/
theorem before2_6_of {c : Dev nD} (dat : Dat τ (Elt F) Unit ℕ (UR sig nD τ) ℕ cfg2 c) (hA : dat.A 6 = V c (Pipeline.arrRef spec2 6))
    (hafter : ∀ t, dat.after 6 t = iblk2 V c 6 t) (t : Fin cfg2.N) (d) : dat.before 6 t d = iblk2 V c 6 t :=
  (dat.before_in_eq_fetched 6 rfl (fun _ => rfl) (fun _ _ _ => rfl) (fun t => by rw [hafter]; unfold Dat.blockOf iblk2; rw [hA]; try rfl) t d).trans
    (by unfold Dat.fetched Dat.blockOf iblk2; rw [hA]; try rfl)

/-- Input window 7's current staging buffer holds its block at every point, fetched there or not, for any proof
    data whose array is the entry contents' and whose body leaves the block in place: unfetched, the block index has
    not moved, so the previous point's block is this point's; the window is uncut and never idle. -/
theorem before2_7_of {c : Dev nD} (dat : Dat τ (Elt F) Unit ℕ (UR sig nD τ) ℕ cfg2 c) (hA : dat.A 7 = V c (Pipeline.arrRef spec2 7))
    (hafter : ∀ t, dat.after 7 t = iblk2 V c 7 t) (t : Fin cfg2.N) (d) : dat.before 7 t d = iblk2 V c 7 t :=
  (dat.before_in_eq_fetched 7 rfl (fun _ => rfl) (fun _ _ _ => rfl) (fun t => by rw [hafter]; unfold Dat.blockOf iblk2; rw [hA]; try rfl) t d).trans
    (by unfold Dat.fetched Dat.blockOf iblk2; rw [hA]; try rfl)

/-- Input window 8's current staging buffer holds its block at every point, fetched there or not, for any proof
    data whose array is the entry contents' and whose body leaves the block in place: unfetched, the block index has
    not moved, so the previous point's block is this point's; the window is uncut and never idle. -/
theorem before2_8_of {c : Dev nD} (dat : Dat τ (Elt F) Unit ℕ (UR sig nD τ) ℕ cfg2 c) (hA : dat.A 8 = V c (Pipeline.arrRef spec2 8))
    (hafter : ∀ t, dat.after 8 t = iblk2 V c 8 t) (t : Fin cfg2.N) (d) : dat.before 8 t d = iblk2 V c 8 t :=
  (dat.before_in_eq_fetched 8 rfl (fun _ => rfl) (fun _ _ _ => rfl) (fun t => by rw [hafter]; unfold Dat.blockOf iblk2; rw [hA]; try rfl) t d).trans
    (by unfold Dat.fetched Dat.blockOf iblk2; rw [hA]; try rfl)

/-- Each input's current staging buffer holds its block at every point, for region 2's own proof data. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d
theorem before2_6 (c : Dev nD) (t : Fin cfg2.N) (d) : (dat2 V c).before 6 t d = iblk2 V c 6 t :=
  before2_6_of V (dat2 V c) (A_eq2 V c 6) (after2_6 V c) t d
theorem before2_7 (c : Dev nD) (t : Fin cfg2.N) (d) : (dat2 V c).before 7 t d = iblk2 V c 7 t :=
  before2_7_of V (dat2 V c) (A_eq2 V c 7) (after2_7 V c) t d
theorem before2_8 (c : Dev nD) (t : Fin cfg2.N) (d) : (dat2 V c).before 8 t d = iblk2 V c 8 t :=
  before2_8_of V (dat2 V c) (A_eq2 V c 8) (after2_8 V c) t d

/-! ## The one store covers the output buffer -/

/-- The whole-buffer rectangle tiles the buffer, so any single piece laid through it covers every index. -/
theorem cover2_9 (p0 : Vec F S5000x128 .f32) (y : S5000x128.Idx) :
    ∃ pc ∈ ([⟨rA, p0⟩] : List (View.Piece (Elt F) S5000x128 .f32)), y ∈ pc.1.set :=
  View.cover_of_tiled [⟨rA, p0⟩] S5000x128.size (by rfl) y

/-! ## The body's triple -/

set_option maxHeartbeats 4000000 in
/-- The body on whole staging memrefs, the nine inputs' at read contents `x0` … `x8` and the output's at anything,
    runs to the continuation holding the inputs' as they were and the output's at `out2_9` of the inputs': the nine
    loads read the inputs through the whole-buffer rectangles, the load of the output buffer is discarded, and the one
    store, covering the buffer, leaves its payload there. -/
theorem sound_kernel2 (c : Dev nD) (E : Set ℕ) (i : grid2.Coords) (arg1 : Memref sig .tc .vmem S5000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S5000x128 .f32) (harg10 : arg10.IsWhole)
    (x0 : Vec F S5000x128 .f32) (x1 : Vec F S128x128 .f32) (x2 x3 x4 x5 x6 : Vec F S1x128 .f32) (x7 : Vec F S128x128 .f32) (x8 : Vec F S1x128 .f32)
    (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare (out2_9 x0 x1 x2 x3 x4 x5 x6 x7 x8)) -∗ K ⟨⟩))
      ⊢ wp frame (wpE (defs₀ (F := F)) Variants.none c none) E (cc2__mlp_kernel i arg1 harg1 arg2 harg2 arg3 harg3 arg4 harg4 arg5 harg5 arg6 harg6 arg7 harg7 arg8 harg8 arg9 harg9 arg10 harg10) K := by
  simp only [cc2__mlp_kernel_eq_skeleton]; unfold cc2__mlp_kernel_skel
  simp only [k2_part1_eq_skeleton]; unfold k2_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, Hk⟩
  subst hf0 hf1 hf2 hf3 hf4 hf5 hf6 hf7 hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  iexists _; isplitr
  swap; · iexact H9
  ipureintro
  exact View.read_writes_eq_canon _ _ _ (cover2_9 _)

/-! ## The body obligation, at a generic point -/

/-- What the body is called with at point `t`: the invariant, the core's debts, and every window's current staging
    buffer at what the pipeline left there, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d))
    ∗ (∃ d, owns (c : Thread nD τ) (st2_7 t) fullShare ((dat2 V c).before 7 t d))
    ∗ (∃ d, owns (c : Thread nD τ) (st2_8 t) fullShare ((dat2 V c).before 8 t d))
    ∗ (∃ d, owns (c : Thread nD τ) (st2_9 t) fullShare ((dat2 V c).before 9 t d)))

/-- and what it returns: the same, every buffer at what the proof data say the body leaves. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t)
    ∗ owns (c : Thread nD τ) (st2_7 t) fullShare ((dat2 V c).after 7 t)
    ∗ owns (c : Thread nD τ) (st2_8 t) fullShare ((dat2 V c).after 8 t)
    ∗ owns (c : Thread nD τ) (st2_9 t) fullShare ((dat2 V c).after 9 t))

set_option maxHeartbeats 1000000 in
/-- The body at any point: the inputs' buffers hold their blocks, so the body's triple applies; the invariant and the
    core's debts pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5, before2_6, before2_7, before2_8]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6, after2_7, after2_8, after2_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel2 c Set.univ _ _ _ _ _ _ _ _ _ _ _ _ _ _ _ _ _ _ _ _ _ (iblk2 V c 0 t) (iblk2 V c 1 t) (iblk2 V c 2 t) (iblk2 V c 3 t) (iblk2 V c 4 t) (iblk2 V c 5 t) (iblk2 V c 6 t) (iblk2 V c 7 t) (iblk2 V c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The pipeline's body obligation, at every point. -/
theorem body_obligation2 (c : Dev nD) : BodyObligation (dat2 (F := F) V c) (defs₀ (F := F)) Variants.none () Set.univ := fun t => by
  rw [bigSep_W2, bigSep_W2]
  exact sound_body2 V c t

end Cert.Kernel.Fr

end
-- ==== Proof.K.Run.lean ====
/-
  The run of `Kernel`'s @main at any float instance: seven segments — a host stretch, a kernel region, a host stretch,
  a kernel region, a host stretch, a kernel region, a host stretch — over the thread state "every unscoped buffer at the
  boundary's contents, the generator register at some state, nothing owed".  A host stretch moves the contents by
  `StableHlo.after`; a region splits its ten arrays out of the unscoped buffers, runs its pipeline from the body obligation,
  and puts them back at what the write-backs leave.  `run_all`: every execution terminates and every final memory holds
  each unscoped buffer at the last boundary's contents `W7`.  No stretch and no region writes an argument array
  (`W7_main_argJ`), which gives the frame claim.
-/
import proofs.«143124_j79869211837073_2_alg».proof.Proof.K.Body0
import proofs.«143124_j79869211837073_2_alg».proof.Proof.K.Body1
import proofs.«143124_j79869211837073_2_alg».proof.Proof.K.Body2
import proofs.«143124_j79869211837073_2_alg».proof.Proof.Gen.Kernel.Regions

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The thread state -/

abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its dues, at nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along; it is left with
    those references at `StableHlo.after ops (W c)`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last boundary's contents `W7`, the generator
    register at some state. -/
abbrev Tₙ (c : Dev nD) : sProp 𝕄 := iprop(StableHlo.held (c : Thread nD τ) (Pipeline.ucRefs τ sig) (W7 m c) ∗ ∃ r, prngReg c r)

/-! ## The regions as segments -/

set_option backward.isDefEq.respectTransparency.types false in
/-- Region 0 over the thread state: entered from every unscoped buffer at `W1`, left at `W2`.  Its arrays are split out
    of the unscoped buffers and put back at the exit contents; the generator register goes into the pipeline's invariant and
    comes out; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `W3`, left at `W4`.  Its arrays are split out
    of the unscoped buffers and put back at the exit contents; the generator register goes into the pipeline's invariant and
    comes out; nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V3 m c) (V4 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at `W5`, left at `W6`.  Its arrays are split out
    of the unscoped buffers and put back at the exit contents; the generator register goes into the pipeline's invariant and
    comes out; nothing is owed; the kernel has no semaphore of its own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m) c).loose
  hwaits := Pipeline.hwaits_of_owed_zero _ _ _ _ L lv 2 fun _ _ => rfl
  pre c := iprop(StableHlo.held (c : Thread nD τ) (Pipeline.ucRefs τ sig) (W5 m c) ∗ R c)
  post c := iprop(StableHlo.held (c : Thread nD τ) (Pipeline.ucRefs τ sig) (W6 m c) ∗ R c)
  X c := iprop(∃ r, prngReg c r)
  Y c := iprop(∃ r, prngReg c r)
  Z c := Pipeline.unscopedRest (Ix := Unit) (Name := ℕ) (U := UR sig nD τ) (Lvl := ℕ) spec2 c (V5 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (V5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (V5 m c) (V6 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's seven segments in order: a host segment per stretch from its boundary's contents, a region per kernel call. -/
abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m),
    .host (hseg hostOps2 hostOps2_sub hostOps2_fresh (W4 m)),
    .region (reg2 m),
    .host (hseg hostOps3 hostOps3_sub hostOps3_fresh (W6 m)) ]

/-- @main is the run of the segments: both are the chain of the same seven items. -/
theorem main_run (c : Dev nD) : main (F := F) c = Pipeline.Seg.run (segs m) := by
  rw [main_chain c, Pipeline.Seg.run_eq_chain]
  rfl

set_option backward.isDefEq.respectTransparency.types false in
/-- From any memory with zero counters every weakly fair execution of @main terminates, nothing faulting, and every final
    memory holds each unscoped buffer of each core at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W7 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl,
      fun c => by
        show iprop(StableHlo.held (c : Thread nD τ) (Pipeline.ucRefs τ sig) (W7 m c) ∗ R c)
          ⊢ iprop(Tₙ m c ∗ ∃ W, owes (c : Thread nD τ) (0 : CellTallies nD τ sig Unit) W)
        iintro ⟨Hh, Hr, HO⟩
        isplitl [Hh Hr]
        · isplitl [Hh]; · iexact Hh
          iexact Hr
        iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m c b)
    (hfin := fun c s' => by
      iintro ⟨⟨Hh, -⟩, HSI⟩
      unfold StableHlo.held
      imodintro
      iapply (pointsTo_read_all (Pipeline.ucRefs τ sig) (fun b => (((c : Thread nD τ)).1, b)) (W7 m c) s')
      isplitl [Hh] <;> iassumption)
    (hQ := fun s h c => h c)

/-! ## The arguments end as launched: no host operation and no region writes one -/

theorem W7_main_arg0 (c : Dev nD) : W7 m c (Proc.devRef .tc main_arg0) = m ((c : Thread nD τ).loc main_arg0) :=
  calc W7 m c (Proc.devRef .tc main_arg0)
    _ = W6 m c (Proc.devRef .tc main_arg0) := StableHlo.after_of_writes_sub hostOps3 _ hostOps3_writes (by decide)
    _ = W5 m c (Proc.devRef .tc main_arg0) := W6_of_ne m c main_arg0 (by decide)
    _ = W4 m c (Proc.devRef .tc main_arg0) := StableHlo.after_of_writes_sub hostOps2 _ hostOps2_writes (by decide)
    _ = W3 m c (Proc.devRef .tc main_arg0) := W4_of_ne m c main_arg0 (by decide)
    _ = W2 m c (Proc.devRef .tc main_arg0) := StableHlo.after_of_writes_sub hostOps1 _ hostOps1_writes (by decide)
    _ = W1 m c (Proc.devRef .tc main_arg0) := W2_of_ne m c main_arg0 (by decide)
    _ = W0 m c (Proc.devRef .tc main_arg0) := StableHlo.after_of_writes_sub hostOps0 _ hostOps0_writes (by decide)
    _ = m ((c : Thread nD τ).loc main_arg0) := rfl

theorem W7_main_arg1 (c : Dev nD) : W7 m c (Proc.devRef .tc main_arg1) = m ((c : Thread nD τ).loc main_arg1) :=
  calc W7 m c (Proc.devRef .tc main_arg1)
    _ = W6 m c (Proc.devRef .tc main_arg1) := StableHlo.after_of_writes_sub hostOps3 _ hostOps3_writes (by decide)
    _ = W5 m c (Proc.devRef .tc main_arg1) := W6_of_ne m c main_arg1 (by decide)
    _ = W4 m c (Proc.devRef .tc main_arg1) := StableHlo.after_of_writes_sub hostOps2 _ hostOps2_writes (by decide)
    _ = W3 m c (Proc.devRef .tc main_arg1) := W4_of_ne m c main_arg1 (by decide)
    _ = W2 m c (Proc.devRef .tc main_arg1) := StableHlo.after_of_writes_sub hostOps1 _ hostOps1_writes (by decide)
    _ = W1 m c (Proc.devRef .tc main_arg1) := W2_of_ne m c main_arg1 (by decide)
    _ = W0 m c (Proc.devRef .tc main_arg1) := StableHlo.after_of_writes_sub hostOps0 _ hostOps0_writes (by decide)
    _ = m ((c : Thread nD τ).loc main_arg1) := rfl

theorem W7_main_arg2 (c : Dev nD) : W7 m c (Proc.devRef .tc main_arg2) = m ((c : Thread nD τ).loc main_arg2) :=
  calc W7 m c (Proc.devRef .tc main_arg2)
    _ = W6 m c (Proc.devRef .tc main_arg2) := StableHlo.after_of_writes_sub hostOps3 _ hostOps3_writes (by decide)
    _ = W5 m c (Proc.devRef .tc main_arg2) := W6_of_ne m c main_arg2 (by decide)
    _ = W4 m c (Proc.devRef .tc main_arg2) := StableHlo.after_of_writes_sub hostOps2 _ hostOps2_writes (by decide)
    _ = W3 m c (Proc.devRef .tc main_arg2) := W4_of_ne m c main_arg2 (by decide)
    _ = W2 m c (Proc.devRef .tc main_arg2) := StableHlo.after_of_writes_sub hostOps1 _ hostOps1_writes (by decide)
    _ = W1 m c (Proc.devRef .tc main_arg2) := W2_of_ne m c main_arg2 (by decide)
    _ = W0 m c (Proc.devRef .tc main_arg2) := StableHlo.after_of_writes_sub hostOps0 _ hostOps0_writes (by decide)
    _ = m ((c : Thread nD τ).loc main_arg2) := rfl

theorem W7_main_arg3 (c : Dev nD) : W7 m c (Proc.devRef .tc main_arg3) = m ((c : Thread nD τ).loc main_arg3) :=
  calc W7 m c (Proc.devRef .tc main_arg3)
    _ = W6 m c (Proc.devRef .tc main_arg3) := StableHlo.after_of_writes_sub hostOps3 _ hostOps3_writes (by decide)
    _ = W5 m c (Proc.devRef .tc main_arg3) := W6_of_ne m c main_arg3 (by decide)
    _ = W4 m c (Proc.devRef .tc main_arg3) := StableHlo.after_of_writes_sub hostOps2 _ hostOps2_writes (by decide)
    _ = W3 m c (Proc.devRef .tc main_arg3) := W4_of_ne m c main_arg3 (by decide)
    _ = W2 m c (Proc.devRef .tc main_arg3) := StableHlo.after_of_writes_sub hostOps1 _ hostOps1_writes (by decide)
    _ = W1 m c (Proc.devRef .tc main_arg3) := W2_of_ne m c main_arg3 (by decide)
    _ = W0 m c (Proc.devRef .tc main_arg3) := StableHlo.after_of_writes_sub hostOps0 _ hostOps0_writes (by decide)
    _ = m ((c : Thread nD τ).loc main_arg3) := rfl

theorem W7_main_arg4 (c : Dev nD) : W7 m c (Proc.devRef .tc main_arg4) = m ((c : Thread nD τ).loc main_arg4) :=
  calc W7 m c (Proc.devRef .tc main_arg4)
    _ = W6 m c (Proc.devRef .tc main_arg4) := StableHlo.after_of_writes_sub hostOps3 _ hostOps3_writes (by decide)
    _ = W5 m c (Proc.devRef .tc main_arg4) := W6_of_ne m c main_arg4 (by decide)
    _ = W4 m c (Proc.devRef .tc main_arg4) := StableHlo.after_of_writes_sub hostOps2 _ hostOps2_writes (by decide)
    _ = W3 m c (Proc.devRef .tc main_arg4) := W4_of_ne m c main_arg4 (by decide)
    _ = W2 m c (Proc.devRef .tc main_arg4) := StableHlo.after_of_writes_sub hostOps1 _ hostOps1_writes (by decide)
    _ = W1 m c (Proc.devRef .tc main_arg4) := W2_of_ne m c main_arg4 (by decide)
    _ = W0 m c (Proc.devRef .tc main_arg4) := StableHlo.after_of_writes_sub hostOps0 _ hostOps0_writes (by decide)
    _ = m ((c : Thread nD τ).loc main_arg4) := rfl

theorem W7_main_arg5 (c : Dev nD) : W7 m c (Proc.devRef .tc main_arg5) = m ((c : Thread nD τ).loc main_arg5) :=
  calc W7 m c (Proc.devRef .tc main_arg5)
    _ = W6 m c (Proc.devRef .tc main_arg5) := StableHlo.after_of_writes_sub hostOps3 _ hostOps3_writes (by decide)
    _ = W5 m c (Proc.devRef .tc main_arg5) := W6_of_ne m c main_arg5 (by decide)
    _ = W4 m c (Proc.devRef .tc main_arg5) := StableHlo.after_of_writes_sub hostOps2 _ hostOps2_writes (by decide)
    _ = W3 m c (Proc.devRef .tc main_arg5) := W4_of_ne m c main_arg5 (by decide)
    _ = W2 m c (Proc.devRef .tc main_arg5) := StableHlo.after_of_writes_sub hostOps1 _ hostOps1_writes (by decide)
    _ = W1 m c (Proc.devRef .tc main_arg5) := W2_of_ne m c main_arg5 (by decide)
    _ = W0 m c (Proc.devRef .tc main_arg5) := StableHlo.after_of_writes_sub hostOps0 _ hostOps0_writes (by decide)
    _ = m ((c : Thread nD τ).loc main_arg5) := rfl

theorem W7_main_arg6 (c : Dev nD) : W7 m c (Proc.devRef .tc main_arg6) = m ((c : Thread nD τ).loc main_arg6) :=
  calc W7 m c (Proc.devRef .tc main_arg6)
    _ = W6 m c (Proc.devRef .tc main_arg6) := StableHlo.after_of_writes_sub hostOps3 _ hostOps3_writes (by decide)
    _ = W5 m c (Proc.devRef .tc main_arg6) := W6_of_ne m c main_arg6 (by decide)
    _ = W4 m c (Proc.devRef .tc main_arg6) := StableHlo.after_of_writes_sub hostOps2 _ hostOps2_writes (by decide)
    _ = W3 m c (Proc.devRef .tc main_arg6) := W4_of_ne m c main_arg6 (by decide)
    _ = W2 m c (Proc.devRef .tc main_arg6) := StableHlo.after_of_writes_sub hostOps1 _ hostOps1_writes (by decide)
    _ = W1 m c (Proc.devRef .tc main_arg6) := W2_of_ne m c main_arg6 (by decide)
    _ = W0 m c (Proc.devRef .tc main_arg6) := StableHlo.after_of_writes_sub hostOps0 _ hostOps0_writes (by decide)
    _ = m ((c : Thread nD τ).loc main_arg6) := rfl

theorem W7_main_arg7 (c : Dev nD) : W7 m c (Proc.devRef .tc main_arg7) = m ((c : Thread nD τ).loc main_arg7) :=
  calc W7 m c (Proc.devRef .tc main_arg7)
    _ = W6 m c (Proc.devRef .tc main_arg7) := StableHlo.after_of_writes_sub hostOps3 _ hostOps3_writes (by decide)
    _ = W5 m c (Proc.devRef .tc main_arg7) := W6_of_ne m c main_arg7 (by decide)
    _ = W4 m c (Proc.devRef .tc main_arg7) := StableHlo.after_of_writes_sub hostOps2 _ hostOps2_writes (by decide)
    _ = W3 m c (Proc.devRef .tc main_arg7) := W4_of_ne m c main_arg7 (by decide)
    _ = W2 m c (Proc.devRef .tc main_arg7) := StableHlo.after_of_writes_sub hostOps1 _ hostOps1_writes (by decide)
    _ = W1 m c (Proc.devRef .tc main_arg7) := W2_of_ne m c main_arg7 (by decide)
    _ = W0 m c (Proc.devRef .tc main_arg7) := StableHlo.after_of_writes_sub hostOps0 _ hostOps0_writes (by decide)
    _ = m ((c : Thread nD τ).loc main_arg7) := rfl

theorem W7_main_arg8 (c : Dev nD) : W7 m c (Proc.devRef .tc main_arg8) = m ((c : Thread nD τ).loc main_arg8) :=
  calc W7 m c (Proc.devRef .tc main_arg8)
    _ = W6 m c (Proc.devRef .tc main_arg8) := StableHlo.after_of_writes_sub hostOps3 _ hostOps3_writes (by decide)
    _ = W5 m c (Proc.devRef .tc main_arg8) := W6_of_ne m c main_arg8 (by decide)
    _ = W4 m c (Proc.devRef .tc main_arg8) := StableHlo.after_of_writes_sub hostOps2 _ hostOps2_writes (by decide)
    _ = W3 m c (Proc.devRef .tc main_arg8) := W4_of_ne m c main_arg8 (by decide)
    _ = W2 m c (Proc.devRef .tc main_arg8) := StableHlo.after_of_writes_sub hostOps1 _ hostOps1_writes (by decide)
    _ = W1 m c (Proc.devRef .tc main_arg8) := W2_of_ne m c main_arg8 (by decide)
    _ = W0 m c (Proc.devRef .tc main_arg8) := StableHlo.after_of_writes_sub hostOps0 _ hostOps0_writes (by decide)
    _ = m ((c : Thread nD τ).loc main_arg8) := rfl

theorem W7_main_arg9 (c : Dev nD) : W7 m c (Proc.devRef .tc main_arg9) = m ((c : Thread nD τ).loc main_arg9) :=
  calc W7 m c (Proc.devRef .tc main_arg9)
    _ = W6 m c (Proc.devRef .tc main_arg9) := StableHlo.after_of_writes_sub hostOps3 _ hostOps3_writes (by decide)
    _ = W5 m c (Proc.devRef .tc main_arg9) := W6_of_ne m c main_arg9 (by decide)
    _ = W4 m c (Proc.devRef .tc main_arg9) := StableHlo.after_of_writes_sub hostOps2 _ hostOps2_writes (by decide)
    _ = W3 m c (Proc.devRef .tc main_arg9) := W4_of_ne m c main_arg9 (by decide)
    _ = W2 m c (Proc.devRef .tc main_arg9) := StableHlo.after_of_writes_sub hostOps1 _ hostOps1_writes (by decide)
    _ = W1 m c (Proc.devRef .tc main_arg9) := W2_of_ne m c main_arg9 (by decide)
    _ = W0 m c (Proc.devRef .tc main_arg9) := StableHlo.after_of_writes_sub hostOps0 _ hostOps0_writes (by decide)
    _ = m ((c : Thread nD τ).loc main_arg9) := rfl

theorem W7_main_arg10 (c : Dev nD) : W7 m c (Proc.devRef .tc main_arg10) = m ((c : Thread nD τ).loc main_arg10) :=
  calc W7 m c (Proc.devRef .tc main_arg10)
    _ = W6 m c (Proc.devRef .tc main_arg10) := StableHlo.after_of_writes_sub hostOps3 _ hostOps3_writes (by decide)
    _ = W5 m c (Proc.devRef .tc main_arg10) := W6_of_ne m c main_arg10 (by decide)
    _ = W4 m c (Proc.devRef .tc main_arg10) := StableHlo.after_of_writes_sub hostOps2 _ hostOps2_writes (by decide)
    _ = W3 m c (Proc.devRef .tc main_arg10) := W4_of_ne m c main_arg10 (by decide)
    _ = W2 m c (Proc.devRef .tc main_arg10) := StableHlo.after_of_writes_sub hostOps1 _ hostOps1_writes (by decide)
    _ = W1 m c (Proc.devRef .tc main_arg10) := W2_of_ne m c main_arg10 (by decide)
    _ = W0 m c (Proc.devRef .tc main_arg10) := StableHlo.after_of_writes_sub hostOps0 _ hostOps0_writes (by decide)
    _ = m ((c : Thread nD τ).loc main_arg10) := rfl

theorem W7_main_arg11 (c : Dev nD) : W7 m c (Proc.devRef .tc main_arg11) = m ((c : Thread nD τ).loc main_arg11) :=
  calc W7 m c (Proc.devRef .tc main_arg11)
    _ = W6 m c (Proc.devRef .tc main_arg11) := StableHlo.after_of_writes_sub hostOps3 _ hostOps3_writes (by decide)
    _ = W5 m c (Proc.devRef .tc main_arg11) := W6_of_ne m c main_arg11 (by decide)
    _ = W4 m c (Proc.devRef .tc main_arg11) := StableHlo.after_of_writes_sub hostOps2 _ hostOps2_writes (by decide)
    _ = W3 m c (Proc.devRef .tc main_arg11) := W4_of_ne m c main_arg11 (by decide)
    _ = W2 m c (Proc.devRef .tc main_arg11) := StableHlo.after_of_writes_sub hostOps1 _ hostOps1_writes (by decide)
    _ = W1 m c (Proc.devRef .tc main_arg11) := W2_of_ne m c main_arg11 (by decide)
    _ = W0 m c (Proc.devRef .tc main_arg11) := StableHlo.after_of_writes_sub hostOps0 _ hostOps0_writes (by decide)
    _ = m ((c : Thread nD τ).loc main_arg11) := rfl

theorem W7_main_arg12 (c : Dev nD) : W7 m c (Proc.devRef .tc main_arg12) = m ((c : Thread nD τ).loc main_arg12) :=
  calc W7 m c (Proc.devRef .tc main_arg12)
    _ = W6 m c (Proc.devRef .tc main_arg12) := StableHlo.after_of_writes_sub hostOps3 _ hostOps3_writes (by decide)
    _ = W5 m c (Proc.devRef .tc main_arg12) := W6_of_ne m c main_arg12 (by decide)
    _ = W4 m c (Proc.devRef .tc main_arg12) := StableHlo.after_of_writes_sub hostOps2 _ hostOps2_writes (by decide)
    _ = W3 m c (Proc.devRef .tc main_arg12) := W4_of_ne m c main_arg12 (by decide)
    _ = W2 m c (Proc.devRef .tc main_arg12) := StableHlo.after_of_writes_sub hostOps1 _ hostOps1_writes (by decide)
    _ = W1 m c (Proc.devRef .tc main_arg12) := W2_of_ne m c main_arg12 (by decide)
    _ = W0 m c (Proc.devRef .tc main_arg12) := StableHlo.after_of_writes_sub hostOps0 _ hostOps0_writes (by decide)
    _ = m ((c : Thread nD τ).loc main_arg12) := rfl

theorem W7_main_arg13 (c : Dev nD) : W7 m c (Proc.devRef .tc main_arg13) = m ((c : Thread nD τ).loc main_arg13) :=
  calc W7 m c (Proc.devRef .tc main_arg13)
    _ = W6 m c (Proc.devRef .tc main_arg13) := StableHlo.after_of_writes_sub hostOps3 _ hostOps3_writes (by decide)
    _ = W5 m c (Proc.devRef .tc main_arg13) := W6_of_ne m c main_arg13 (by decide)
    _ = W4 m c (Proc.devRef .tc main_arg13) := StableHlo.after_of_writes_sub hostOps2 _ hostOps2_writes (by decide)
    _ = W3 m c (Proc.devRef .tc main_arg13) := W4_of_ne m c main_arg13 (by decide)
    _ = W2 m c (Proc.devRef .tc main_arg13) := StableHlo.after_of_writes_sub hostOps1 _ hostOps1_writes (by decide)
    _ = W1 m c (Proc.devRef .tc main_arg13) := W2_of_ne m c main_arg13 (by decide)
    _ = W0 m c (Proc.devRef .tc main_arg13) := StableHlo.after_of_writes_sub hostOps0 _ hostOps0_writes (by decide)
    _ = m ((c : Thread nD τ).loc main_arg13) := rfl

theorem W7_main_arg14 (c : Dev nD) : W7 m c (Proc.devRef .tc main_arg14) = m ((c : Thread nD τ).loc main_arg14) :=
  calc W7 m c (Proc.devRef .tc main_arg14)
    _ = W6 m c (Proc.devRef .tc main_arg14) := StableHlo.after_of_writes_sub hostOps3 _ hostOps3_writes (by decide)
    _ = W5 m c (Proc.devRef .tc main_arg14) := W6_of_ne m c main_arg14 (by decide)
    _ = W4 m c (Proc.devRef .tc main_arg14) := StableHlo.after_of_writes_sub hostOps2 _ hostOps2_writes (by decide)
    _ = W3 m c (Proc.devRef .tc main_arg14) := W4_of_ne m c main_arg14 (by decide)
    _ = W2 m c (Proc.devRef .tc main_arg14) := StableHlo.after_of_writes_sub hostOps1 _ hostOps1_writes (by decide)
    _ = W1 m c (Proc.devRef .tc main_arg14) := W2_of_ne m c main_arg14 (by decide)
    _ = W0 m c (Proc.devRef .tc main_arg14) := StableHlo.after_of_writes_sub hostOps0 _ hostOps0_writes (by decide)
    _ = m ((c : Thread nD τ).loc main_arg14) := rfl

/-- The frame claim at any float instance: @main terminates from any memory with zero counters, and every final memory
    holds each argument array as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun r h c =>
    ⟨(h c _ (mem_uc main_arg0 (by decide))).trans (W7_main_arg0 m c),
    (h c _ (mem_uc main_arg1 (by decide))).trans (W7_main_arg1 m c),
    (h c _ (mem_uc main_arg2 (by decide))).trans (W7_main_arg2 m c),
    (h c _ (mem_uc main_arg3 (by decide))).trans (W7_main_arg3 m c),
    (h c _ (mem_uc main_arg4 (by decide))).trans (W7_main_arg4 m c),
    (h c _ (mem_uc main_arg5 (by decide))).trans (W7_main_arg5 m c),
    (h c _ (mem_uc main_arg6 (by decide))).trans (W7_main_arg6 m c),
    (h c _ (mem_uc main_arg7 (by decide))).trans (W7_main_arg7 m c),
    (h c _ (mem_uc main_arg8 (by decide))).trans (W7_main_arg8 m c),
    (h c _ (mem_uc main_arg9 (by decide))).trans (W7_main_arg9 m c),
    (h c _ (mem_uc main_arg10 (by decide))).trans (W7_main_arg10 m c),
    (h c _ (mem_uc main_arg11 (by decide))).trans (W7_main_arg11 m c),
    (h c _ (mem_uc main_arg12 (by decide))).trans (W7_main_arg12 m c),
    (h c _ (mem_uc main_arg13 (by decide))).trans (W7_main_arg13 m c),
    (h c _ (mem_uc main_arg14 (by decide))).trans (W7_main_arg14 m c)⟩) (run_all m ρ)

end Cert.Kernel.Fr

end
-- ==== Proof.KI.Data.lean ====
/-
  Proof data for the three node-MLP kernel regions of `KernelIdeal`, at any float instance.
  Region K (K = 0, 1, 2) applies the same body to a 5000-row block of its first operand:
  two matrix products with per-column affine steps and clamps at zero in between.  Per region, at
  entry contents `V`: each window's block at a grid point (`iblkK`), the staging buffer of the output window
  after the body as one store of the body's payload (`outK_9`), and the pipeline's proof data (`datK`: inputs left in
  place, the output at `outK_9` of the input blocks).  Then the contents of the unscoped buffers at the seven
  boundaries between the host stretches and the regions (`W0` … `W7`): a host stretch applies its operations,
  a region replaces its arrays by what its write-backs leave.
-/
import proofs.«143124_j79869211837073_2_alg».proof.Proof.Gen.KernelIdeal.Launch
import proofs.«143124_j79869211837073_2_alg».proof.Proof.Gen.KernelIdeal.Skeleton
import proofs.«143124_j79869211837073_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

/-- The whole-buffer rectangles the body loads and stores through. -/
abbrev rA : Rect S5000x128 := Rect.unit (s := S5000x128) ![0, 0] S5000x128.size inb_S5000x128_S5000x128_0_0
abbrev rB : Rect S128x128 := Rect.unit (s := S128x128) ![0, 0] S128x128.size inb_S128x128_S128x128_0_0
abbrev rC : Rect S1x128 := Rect.unit (s := S1x128) ![0, 0] S1x128.size inb_S1x128_S1x128_0_0

section Regions
variable (V : (c : Dev nD) → (b : Ref sig .tc) → Buf (Elt F) ((c : Thread nD τ).loc b))

/-! ## Region 0 -/

/-- Window `w`'s block at point `t`, read off its array as region 0 finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The output window's staging buffer after the body: one whole-buffer store of the second product plus its bias,
    clamped at zero, of the first product's normalised and clamped rows. -/
def out0_9 (x0 : Vec F S5000x128 .f32) (x1 : Vec F S128x128 .f32) (x2 x3 x4 x5 x6 : Vec F S1x128 .f32)
    (x7 : Vec F S128x128 .f32) (x8 : Vec F S1x128 .f32) : Vec F S5000x128 .f32 :=
  View.canon [⟨rA, k0_pay1 (k0_pay2 (View.ld x0 rA) (View.ld x1 rB) (View.ld x2 rC) (View.ld x3 rC) (View.ld x6 rC) (View.ld x5 rC) (View.ld x4 rC) (View.ld x7 rB)) (View.ld x8 rC)⟩]

/-- The proof data of pipeline 0 on core `c`: the arrays as the region finds them; after the body each input's buffer
    still at its block and the output's at `out0_9` of the input blocks; nothing owed, full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => iblk0 V c 8 t
    | ⟨9, _⟩ => out0_9 (iblk0 V c 0 t) (iblk0 V c 1 t) (iblk0 V c 2 t) (iblk0 V c 3 t) (iblk0 V c 4 t) (iblk0 V c 5 t) (iblk0 V c 6 t) (iblk0 V c 7 t) (iblk0 V c 8 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = iblk0 V c 7 t := by dsimp only [dat0]
theorem after0_8 (c : Dev nD) (t : Fin cfg0.N) : (dat0 V c).after 8 t = iblk0 V c 8 t := by dsimp only [dat0]
theorem after0_9 (c : Dev nD) (t : Fin cfg0.N) : (dat0 V c).after 9 t =
    out0_9 (iblk0 V c 0 t) (iblk0 V c 1 t) (iblk0 V c 2 t) (iblk0 V c 3 t) (iblk0 V c 4 t) (iblk0 V c 5 t) (iblk0 V c 6 t) (iblk0 V c 7 t) (iblk0 V c 8 t) := by dsimp only [dat0]

/-! ## Region 1 -/

/-- Window `w`'s block at point `t`, read off its array as region 1 finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The output window's staging buffer after the body: one whole-buffer store of the second product plus its bias,
    clamped at zero, of the first product's normalised and clamped rows. -/
def out1_9 (x0 : Vec F S5000x128 .f32) (x1 : Vec F S128x128 .f32) (x2 x3 x4 x5 x6 : Vec F S1x128 .f32)
    (x7 : Vec F S128x128 .f32) (x8 : Vec F S1x128 .f32) : Vec F S5000x128 .f32 :=
  View.canon [⟨rA, k1_pay1 (k1_pay2 (View.ld x0 rA) (View.ld x1 rB) (View.ld x2 rC) (View.ld x3 rC) (View.ld x6 rC) (View.ld x5 rC) (View.ld x4 rC) (View.ld x7 rB)) (View.ld x8 rC)⟩]

/-- The proof data of pipeline 1 on core `c`: the arrays as the region finds them; after the body each input's buffer
    still at its block and the output's at `out1_9` of the input blocks; nothing owed, full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => out1_9 (iblk1 V c 0 t) (iblk1 V c 1 t) (iblk1 V c 2 t) (iblk1 V c 3 t) (iblk1 V c 4 t) (iblk1 V c 5 t) (iblk1 V c 6 t) (iblk1 V c 7 t) (iblk1 V c 8 t)
  Φ _ := Pipeline.ΦA spec1 c
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = iblk1 V c 8 t := by dsimp only [dat1]
theorem after1_9 (c : Dev nD) (t : Fin cfg1.N) : (dat1 V c).after 9 t =
    out1_9 (iblk1 V c 0 t) (iblk1 V c 1 t) (iblk1 V c 2 t) (iblk1 V c 3 t) (iblk1 V c 4 t) (iblk1 V c 5 t) (iblk1 V c 6 t) (iblk1 V c 7 t) (iblk1 V c 8 t) := by dsimp only [dat1]

/-! ## Region 2 -/

/-- Window `w`'s block at point `t`, read off its array as region 2 finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The output window's staging buffer after the body: one whole-buffer store of the second product plus its bias,
    clamped at zero, of the first product's normalised and clamped rows. -/
def out2_9 (x0 : Vec F S5000x128 .f32) (x1 : Vec F S128x128 .f32) (x2 x3 x4 x5 x6 : Vec F S1x128 .f32)
    (x7 : Vec F S128x128 .f32) (x8 : Vec F S1x128 .f32) : Vec F S5000x128 .f32 :=
  View.canon [⟨rA, k2_pay1 (k2_pay2 (View.ld x0 rA) (View.ld x1 rB) (View.ld x2 rC) (View.ld x3 rC) (View.ld x6 rC) (View.ld x5 rC) (View.ld x4 rC) (View.ld x7 rB)) (View.ld x8 rC)⟩]

/-- The proof data of pipeline 2 on core `c`: the arrays as the region finds them; after the body each input's buffer
    still at its block and the output's at `out2_9` of the input blocks; nothing owed, full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => iblk2 V c 7 t
    | ⟨8, _⟩ => iblk2 V c 8 t
    | ⟨9, _⟩ => out2_9 (iblk2 V c 0 t) (iblk2 V c 1 t) (iblk2 V c 2 t) (iblk2 V c 3 t) (iblk2 V c 4 t) (iblk2 V c 5 t) (iblk2 V c 6 t) (iblk2 V c 7 t) (iblk2 V c 8 t)
  Φ _ := Pipeline.ΦA spec2 c
  q _ := fullShare
  owed _ := 0

theorem A_eq2 (c : Dev nD) (w : Fin cfg2.W) : (dat2 V c).A w = V c (Pipeline.arrRef spec2 w) := by
  dsimp only [dat2]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = iblk2 V c 6 t := by dsimp only [dat2]
theorem after2_7 (c : Dev nD) (t : Fin cfg2.N) : (dat2 V c).after 7 t = iblk2 V c 7 t := by dsimp only [dat2]
theorem after2_8 (c : Dev nD) (t : Fin cfg2.N) : (dat2 V c).after 8 t = iblk2 V c 8 t := by dsimp only [dat2]
theorem after2_9 (c : Dev nD) (t : Fin cfg2.N) : (dat2 V c).after 9 t =
    out2_9 (iblk2 V c 0 t) (iblk2 V c 1 t) (iblk2 V c 2 t) (iblk2 V c 3 t) (iblk2 V c 4 t) (iblk2 V c 5 t) (iblk2 V c 6 t) (iblk2 V c 7 t) (iblk2 V c 8 t) := by dsimp only [dat2]

end Regions

/-! ## The unscoped buffers at each boundary -/

variable (m : (ℓ : Loc nD τ sig) → Buf (Elt F) ℓ)

/-- Core `c`'s buffers at launch. -/
abbrev W0 : Dev nD → Valuation τ sig (Elt F) := fun c b => m (c, b)
abbrev W1 : Dev nD → Valuation τ sig (Elt F) := fun c => StableHlo.after hostOps0 (W0 m c)
abbrev V1 : (c : Dev nD) → (b : Ref sig .tc) → Buf (Elt F) ((c : Thread nD τ).loc b) := fun c b => W1 m c b
/-- After region 0: its arrays at what the pipeline leaves, every other buffer as entered. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)
abbrev W3 : Dev nD → Valuation τ sig (Elt F) := fun c => StableHlo.after hostOps1 (W2 m c)
abbrev V3 : (c : Dev nD) → (b : Ref sig .tc) → Buf (Elt F) ((c : Thread nD τ).loc b) := fun c b => W3 m c b

/-- After region 1: its arrays at what the pipeline leaves, every other buffer as entered. -/
def W4 (c : Dev nD) : Valuation τ sig (Elt F) :=
  Pipeline.withArrays spec1 c (W3 m c) fun w => (dat1 (V3 m) c).arrAt w cfg1.N
theorem W4_arr (c : Dev nD) (w : Fin cfg1.W) :
    W4 m c (Proc.devRef .tc (Pipeline.arrRef spec1 w)) = (dat1 (V3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
abbrev V4 : (c : Dev nD) → (b : Ref sig .tc) → Buf (Elt F) ((c : Thread nD τ).loc b) := fun c b => W4 m c b
theorem hF1 (c : Dev nD) (w : Fin cfg1.W) : (dat1 (V3 m) c).arrAt w cfg1.N = V4 m c (Pipeline.arrRef spec1 w) :=
  (W4_arr m c w).symm
theorem hrest1 (c : Dev nD) : ∀ b, b ∉ Finset.univ.image (Pipeline.arrRef spec1) → V4 m c b = V3 m c b :=
  fun b hb => W4_of_ne m c b fun w e => hb (Finset.mem_image.mpr ⟨w, Finset.mem_univ _, e⟩)
abbrev W5 : Dev nD → Valuation τ sig (Elt F) := fun c => StableHlo.after hostOps2 (W4 m c)
abbrev V5 : (c : Dev nD) → (b : Ref sig .tc) → Buf (Elt F) ((c : Thread nD τ).loc b) := fun c b => W5 m c b

/-- After region 2: its arrays at what the pipeline leaves, every other buffer as entered. -/
def W6 (c : Dev nD) : Valuation τ sig (Elt F) :=
  Pipeline.withArrays spec2 c (W5 m c) fun w => (dat2 (V5 m) c).arrAt w cfg2.N
theorem W6_arr (c : Dev nD) (w : Fin cfg2.W) :
    W6 m c (Proc.devRef .tc (Pipeline.arrRef spec2 w)) = (dat2 (V5 m) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m c (Proc.devRef .tc b) = W5 m c (Proc.devRef .tc b) := by
  unfold W6; exact Pipeline.withArrays_of_ne spec2 c _ _ b hb
abbrev V6 : (c : Dev nD) → (b : Ref sig .tc) → Buf (Elt F) ((c : Thread nD τ).loc b) := fun c b => W6 m c b
theorem hF2 (c : Dev nD) (w : Fin cfg2.W) : (dat2 (V5 m) c).arrAt w cfg2.N = V6 m c (Pipeline.arrRef spec2 w) :=
  (W6_arr m c w).symm
theorem hrest2 (c : Dev nD) : ∀ b, b ∉ Finset.univ.image (Pipeline.arrRef spec2) → V6 m c b = V5 m c b :=
  fun b hb => W6_of_ne m c b fun w e => hb (Finset.mem_image.mpr ⟨w, Finset.mem_univ _, e⟩)
abbrev W7 : Dev nD → Valuation τ sig (Elt F) := fun c => StableHlo.after hostOps3 (W6 m c)
abbrev V7 : (c : Dev nD) → (b : Ref sig .tc) → Buf (Elt F) ((c : Thread nD τ).loc b) := fun c b => W7 m c b

/-- No pipeline has a prefetched table. -/
abbrev adm : (p : Fin 3) → (pcfgs (F := F) p).Adm := fun p => (cfgs p).toPCfg_adm
/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V3 m) c
  | ⟨2, _⟩ => fun c => dat2 (V5 m) c

end Cert.KernelIdeal.Fr

end
-- ==== Proof.KI.Body0.lean ====
/-
  Region 0 of `KernelIdeal`: what its body finds and leaves, at any entry contents `V`.  Each of the nine input
  windows' current staging buffer holds that window's block at every grid point, whether the pipeline fetched it there
  or not (the first window's block moves with the point; the other eight have a constant block index and are fetched
  once).  The body loads the nine input buffers whole, forms the two matrix products with the per-column affine steps
  and clamps at zero between them, and stores the result over the whole output buffer: one store that covers the
  buffer, so the output buffer afterwards reads the stored payload whatever it held before.  From these, the body's
  triple on whole staging memrefs, and the pipeline's body obligation at every grid point.
-/
import proofs.«143124_j79869211837073_2_alg».proof.Proof.KI.Data

-- membership in a rectangle of 5000 rows: the elaborator's structural look recurses once per coordinate of the long axis
set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What the body finds in each input window's buffer -/

/-- Input window 0's current staging buffer holds its block at every point, fetched there or not, for any proof
    data whose array is the entry contents' and whose body leaves the block in place: unfetched, the block index has
    not moved, so the previous point's block is this point's; the window is uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not, for any proof
    data whose array is the entry contents' and whose body leaves the block in place: unfetched, the block index has
    not moved, so the previous point's block is this point's; the window is uncut and never idle. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or not, for any proof
    data whose array is the entry contents' and whose body leaves the block in place: unfetched, the block index has
    not moved, so the previous point's block is this point's; the window is uncut and never idle. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds its block at every point, fetched there or not, for any proof
    data whose array is the entry contents' and whose body leaves the block in place: unfetched, the block index has
    not moved, so the previous point's block is this point's; the window is uncut and never idle. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's current staging buffer holds its block at every point, fetched there or not, for any proof
    data whose array is the entry contents' and whose body leaves the block in place: unfetched, the block index has
    not moved, so the previous point's block is this point's; the window is uncut and never idle. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- Input window 5's current staging buffer holds its block at every point, fetched there or not, for any proof
    data whose array is the entry contents' and whose body leaves the block in place: unfetched, the block index has
    not moved, so the previous point's block is this point's; the window is uncut and never idle. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-- Input window 6's current staging buffer holds its block at every point, fetched there or not, for any proof
    data whose array is the entry contents' and whose body leaves the block in place: unfetched, the block index has
    not moved, so the previous point's block is this point's; the window is uncut and never idle. -/
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)

/-- Input window 7's current staging buffer holds its block at every point, fetched there or not, for any proof
    data whose array is the entry contents' and whose body leaves the block in place: unfetched, the block index has
    not moved, so the previous point's block is this point's; the window is uncut and never idle. -/
theorem before0_7_of {c : Dev nD} (dat : Dat τ (Elt F) Unit ℕ (UR sig nD τ) ℕ cfg0 c) (hA : dat.A 7 = V c (Pipeline.arrRef spec0 7))
    (hafter : ∀ t, dat.after 7 t = iblk0 V c 7 t) (t : Fin cfg0.N) (d) : dat.before 7 t d = iblk0 V c 7 t :=
  (dat.before_in_eq_fetched 7 rfl (fun _ => rfl) (fun _ _ _ => rfl) (fun t => by rw [hafter]; unfold Dat.blockOf iblk0; rw [hA]; try rfl) t d).trans
    (by unfold Dat.fetched Dat.blockOf iblk0; rw [hA]; try rfl)

/-- Input window 8's current staging buffer holds its block at every point, fetched there or not, for any proof
    data whose array is the entry contents' and whose body leaves the block in place: unfetched, the block index has
    not moved, so the previous point's block is this point's; the window is uncut and never idle. -/
theorem before0_8_of {c : Dev nD} (dat : Dat τ (Elt F) Unit ℕ (UR sig nD τ) ℕ cfg0 c) (hA : dat.A 8 = V c (Pipeline.arrRef spec0 8))
    (hafter : ∀ t, dat.after 8 t = iblk0 V c 8 t) (t : Fin cfg0.N) (d) : dat.before 8 t d = iblk0 V c 8 t :=
  (dat.before_in_eq_fetched 8 rfl (fun _ => rfl) (fun _ _ _ => rfl) (fun t => by rw [hafter]; unfold Dat.blockOf iblk0; rw [hA]; try rfl) t d).trans
    (by unfold Dat.fetched Dat.blockOf iblk0; rw [hA]; try rfl)

/-- Each input's current staging buffer holds its block at every point, for region 0's own proof data. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d
theorem before0_7 (c : Dev nD) (t : Fin cfg0.N) (d) : (dat0 V c).before 7 t d = iblk0 V c 7 t :=
  before0_7_of V (dat0 V c) (A_eq0 V c 7) (after0_7 V c) t d
theorem before0_8 (c : Dev nD) (t : Fin cfg0.N) (d) : (dat0 V c).before 8 t d = iblk0 V c 8 t :=
  before0_8_of V (dat0 V c) (A_eq0 V c 8) (after0_8 V c) t d

/-! ## The one store covers the output buffer -/

/-- The whole-buffer rectangle tiles the buffer, so any single piece laid through it covers every index. -/
theorem cover0_9 (p0 : Vec F S5000x128 .f32) (y : S5000x128.Idx) :
    ∃ pc ∈ ([⟨rA, p0⟩] : List (View.Piece (Elt F) S5000x128 .f32)), y ∈ pc.1.set :=
  View.cover_of_tiled [⟨rA, p0⟩] S5000x128.size (by rfl) y

/-! ## The body's triple -/

set_option maxHeartbeats 4000000 in
/-- The body on whole staging memrefs, the nine inputs' at read contents `x0` … `x8` and the output's at anything,
    runs to the continuation holding the inputs' as they were and the output's at `out0_9` of the inputs': the nine
    loads read the inputs through the whole-buffer rectangles, the load of the output buffer is discarded, and the one
    store, covering the buffer, leaves its payload there. -/
theorem sound_kernel0 (c : Dev nD) (E : Set ℕ) (i : grid0.Coords) (arg1 : Memref sig .tc .vmem S5000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S5000x128 .f32) (harg10 : arg10.IsWhole)
    (x0 : Vec F S5000x128 .f32) (x1 : Vec F S128x128 .f32) (x2 x3 x4 x5 x6 : Vec F S1x128 .f32) (x7 : Vec F S128x128 .f32) (x8 : Vec F S1x128 .f32)
    (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare (out0_9 x0 x1 x2 x3 x4 x5 x6 x7 x8)) -∗ K ⟨⟩))
      ⊢ wp frame (wpE (defs₀ (F := F)) Variants.none c none) E (cc0__mlp_kernel i arg1 harg1 arg2 harg2 arg3 harg3 arg4 harg4 arg5 harg5 arg6 harg6 arg7 harg7 arg8 harg8 arg9 harg9 arg10 harg10) K := by
  simp only [cc0__mlp_kernel_eq_skeleton]; unfold cc0__mlp_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, Hk⟩
  subst hf0 hf1 hf2 hf3 hf4 hf5 hf6 hf7 hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  iexists _; isplitr
  swap; · iexact H9
  ipureintro
  exact View.read_writes_eq_canon _ _ _ (cover0_9 _)

/-! ## The body obligation, at a generic point -/

/-- What the body is called with at point `t`: the invariant, the core's debts, and every window's current staging
    buffer at what the pipeline left there, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d))
    ∗ (∃ d, owns (c : Thread nD τ) (st0_9 t) fullShare ((dat0 V c).before 9 t d)))

/-- and what it returns: the same, every buffer at what the proof data say the body leaves. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t)
    ∗ owns (c : Thread nD τ) (st0_9 t) fullShare ((dat0 V c).after 9 t))

set_option maxHeartbeats 1000000 in
/-- The body at any point: the inputs' buffers hold their blocks, so the body's triple applies; the invariant and the
    core's debts pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6, before0_7, before0_8]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8, after0_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel0 c Set.univ _ _ _ _ _ _ _ _ _ _ _ _ _ _ _ _ _ _ _ _ _ (iblk0 V c 0 t) (iblk0 V c 1 t) (iblk0 V c 2 t) (iblk0 V c 3 t) (iblk0 V c 4 t) (iblk0 V c 5 t) (iblk0 V c 6 t) (iblk0 V c 7 t) (iblk0 V c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The pipeline's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Fr

end
-- ==== Proof.KI.Body1.lean ====
/-
  Region 1 of `KernelIdeal`: what its body finds and leaves, at any entry contents `V`.  Each of the nine input
  windows' current staging buffer holds that window's block at every grid point, whether the pipeline fetched it there
  or not (the first window's block moves with the point; the other eight have a constant block index and are fetched
  once).  The body loads the nine input buffers whole, forms the two matrix products with the per-column affine steps
  and clamps at zero between them, and stores the result over the whole output buffer: one store that covers the
  buffer, so the output buffer afterwards reads the stored payload whatever it held before.  From these, the body's
  triple on whole staging memrefs, and the pipeline's body obligation at every grid point.
-/
import proofs.«143124_j79869211837073_2_alg».proof.Proof.KI.Data

-- membership in a rectangle of 5000 rows: the elaborator's structural look recurses once per coordinate of the long axis
set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What the body finds in each input window's buffer -/

/-- Input window 0's current staging buffer holds its block at every point, fetched there or not, for any proof
    data whose array is the entry contents' and whose body leaves the block in place: unfetched, the block index has
    not moved, so the previous point's block is this point's; the window is uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not, for any proof
    data whose array is the entry contents' and whose body leaves the block in place: unfetched, the block index has
    not moved, so the previous point's block is this point's; the window is uncut and never idle. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not, for any proof
    data whose array is the entry contents' and whose body leaves the block in place: unfetched, the block index has
    not moved, so the previous point's block is this point's; the window is uncut and never idle. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, fetched there or not, for any proof
    data whose array is the entry contents' and whose body leaves the block in place: unfetched, the block index has
    not moved, so the previous point's block is this point's; the window is uncut and never idle. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's current staging buffer holds its block at every point, fetched there or not, for any proof
    data whose array is the entry contents' and whose body leaves the block in place: unfetched, the block index has
    not moved, so the previous point's block is this point's; the window is uncut and never idle. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- Input window 5's current staging buffer holds its block at every point, fetched there or not, for any proof
    data whose array is the entry contents' and whose body leaves the block in place: unfetched, the block index has
    not moved, so the previous point's block is this point's; the window is uncut and never idle. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-- Input window 6's current staging buffer holds its block at every point, fetched there or not, for any proof
    data whose array is the entry contents' and whose body leaves the block in place: unfetched, the block index has
    not moved, so the previous point's block is this point's; the window is uncut and never idle. -/
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

/-- Input window 7's current staging buffer holds its block at every point, fetched there or not, for any proof
    data whose array is the entry contents' and whose body leaves the block in place: unfetched, the block index has
    not moved, so the previous point's block is this point's; the window is uncut and never idle. -/
theorem before1_7_of {c : Dev nD} (dat : Dat τ (Elt F) Unit ℕ (UR sig nD τ) ℕ cfg1 c) (hA : dat.A 7 = V c (Pipeline.arrRef spec1 7))
    (hafter : ∀ t, dat.after 7 t = iblk1 V c 7 t) (t : Fin cfg1.N) (d) : dat.before 7 t d = iblk1 V c 7 t :=
  (dat.before_in_eq_fetched 7 rfl (fun _ => rfl) (fun _ _ _ => rfl) (fun t => by rw [hafter]; unfold Dat.blockOf iblk1; rw [hA]; try rfl) t d).trans
    (by unfold Dat.fetched Dat.blockOf iblk1; rw [hA]; try rfl)

/-- Input window 8's current staging buffer holds its block at every point, fetched there or not, for any proof
    data whose array is the entry contents' and whose body leaves the block in place: unfetched, the block index has
    not moved, so the previous point's block is this point's; the window is uncut and never idle. -/
theorem before1_8_of {c : Dev nD} (dat : Dat τ (Elt F) Unit ℕ (UR sig nD τ) ℕ cfg1 c) (hA : dat.A 8 = V c (Pipeline.arrRef spec1 8))
    (hafter : ∀ t, dat.after 8 t = iblk1 V c 8 t) (t : Fin cfg1.N) (d) : dat.before 8 t d = iblk1 V c 8 t :=
  (dat.before_in_eq_fetched 8 rfl (fun _ => rfl) (fun _ _ _ => rfl) (fun t => by rw [hafter]; unfold Dat.blockOf iblk1; rw [hA]; try rfl) t d).trans
    (by unfold Dat.fetched Dat.blockOf iblk1; rw [hA]; try rfl)

/-- Each input's current staging buffer holds its block at every point, for region 1's own proof data. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d
theorem before1_7 (c : Dev nD) (t : Fin cfg1.N) (d) : (dat1 V c).before 7 t d = iblk1 V c 7 t :=
  before1_7_of V (dat1 V c) (A_eq1 V c 7) (after1_7 V c) t d
theorem before1_8 (c : Dev nD) (t : Fin cfg1.N) (d) : (dat1 V c).before 8 t d = iblk1 V c 8 t :=
  before1_8_of V (dat1 V c) (A_eq1 V c 8) (after1_8 V c) t d

/-! ## The one store covers the output buffer -/

/-- The whole-buffer rectangle tiles the buffer, so any single piece laid through it covers every index. -/
theorem cover1_9 (p0 : Vec F S5000x128 .f32) (y : S5000x128.Idx) :
    ∃ pc ∈ ([⟨rA, p0⟩] : List (View.Piece (Elt F) S5000x128 .f32)), y ∈ pc.1.set :=
  View.cover_of_tiled [⟨rA, p0⟩] S5000x128.size (by rfl) y

/-! ## The body's triple -/

set_option maxHeartbeats 4000000 in
/-- The body on whole staging memrefs, the nine inputs' at read contents `x0` … `x8` and the output's at anything,
    runs to the continuation holding the inputs' as they were and the output's at `out1_9` of the inputs': the nine
    loads read the inputs through the whole-buffer rectangles, the load of the output buffer is discarded, and the one
    store, covering the buffer, leaves its payload there. -/
theorem sound_kernel1 (c : Dev nD) (E : Set ℕ) (i : grid1.Coords) (arg1 : Memref sig .tc .vmem S5000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S5000x128 .f32) (harg10 : arg10.IsWhole)
    (x0 : Vec F S5000x128 .f32) (x1 : Vec F S128x128 .f32) (x2 x3 x4 x5 x6 : Vec F S1x128 .f32) (x7 : Vec F S128x128 .f32) (x8 : Vec F S1x128 .f32)
    (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare (out1_9 x0 x1 x2 x3 x4 x5 x6 x7 x8)) -∗ K ⟨⟩))
      ⊢ wp frame (wpE (defs₀ (F := F)) Variants.none c none) E (cc1__mlp_kernel i arg1 harg1 arg2 harg2 arg3 harg3 arg4 harg4 arg5 harg5 arg6 harg6 arg7 harg7 arg8 harg8 arg9 harg9 arg10 harg10) K := by
  simp only [cc1__mlp_kernel_eq_skeleton]; unfold cc1__mlp_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, Hk⟩
  subst hf0 hf1 hf2 hf3 hf4 hf5 hf6 hf7 hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  iexists _; isplitr
  swap; · iexact H9
  ipureintro
  exact View.read_writes_eq_canon _ _ _ (cover1_9 _)

/-! ## The body obligation, at a generic point -/

/-- What the body is called with at point `t`: the invariant, the core's debts, and every window's current staging
    buffer at what the pipeline left there, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d))
    ∗ (∃ d, owns (c : Thread nD τ) (st1_9 t) fullShare ((dat1 V c).before 9 t d)))

/-- and what it returns: the same, every buffer at what the proof data say the body leaves. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t)
    ∗ owns (c : Thread nD τ) (st1_9 t) fullShare ((dat1 V c).after 9 t))

set_option maxHeartbeats 1000000 in
/-- The body at any point: the inputs' buffers hold their blocks, so the body's triple applies; the invariant and the
    core's debts pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7, before1_8]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8, after1_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel1 c Set.univ _ _ _ _ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) (iblk1 V c 7 t) (iblk1 V c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The pipeline's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Fr

end
-- ==== Proof.KI.Body2.lean ====
/-
  Region 2 of `KernelIdeal`: what its body finds and leaves, at any entry contents `V`.  Each of the nine input
  windows' current staging buffer holds that window's block at every grid point, whether the pipeline fetched it there
  or not (the first window's block moves with the point; the other eight have a constant block index and are fetched
  once).  The body loads the nine input buffers whole, forms the two matrix products with the per-column affine steps
  and clamps at zero between them, and stores the result over the whole output buffer: one store that covers the
  buffer, so the output buffer afterwards reads the stored payload whatever it held before.  From these, the body's
  triple on whole staging memrefs, and the pipeline's body obligation at every grid point.
-/
import proofs.«143124_j79869211837073_2_alg».proof.Proof.KI.Data

-- membership in a rectangle of 5000 rows: the elaborator's structural look recurses once per coordinate of the long axis
set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What the body finds in each input window's buffer -/

/-- Input window 0's current staging buffer holds its block at every point, fetched there or not, for any proof
    data whose array is the entry contents' and whose body leaves the block in place: unfetched, the block index has
    not moved, so the previous point's block is this point's; the window is uncut and never idle. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds its block at every point, fetched there or not, for any proof
    data whose array is the entry contents' and whose body leaves the block in place: unfetched, the block index has
    not moved, so the previous point's block is this point's; the window is uncut and never idle. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current staging buffer holds its block at every point, fetched there or not, for any proof
    data whose array is the entry contents' and whose body leaves the block in place: unfetched, the block index has
    not moved, so the previous point's block is this point's; the window is uncut and never idle. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3's current staging buffer holds its block at every point, fetched there or not, for any proof
    data whose array is the entry contents' and whose body leaves the block in place: unfetched, the block index has
    not moved, so the previous point's block is this point's; the window is uncut and never idle. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- Input window 4's current staging buffer holds its block at every point, fetched there or not, for any proof
    data whose array is the entry contents' and whose body leaves the block in place: unfetched, the block index has
    not moved, so the previous point's block is this point's; the window is uncut and never idle. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-- Input window 5's current staging buffer holds its block at every point, fetched there or not, for any proof
    data whose array is the entry contents' and whose body leaves the block in place: unfetched, the block index has
    not moved, so the previous point's block is this point's; the window is uncut and never idle. -/
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

/-- Input window 6's current staging buffer holds its block at every point, fetched there or not, for any proof
    data whose array is the entry contents' and whose body leaves the block in place: unfetched, the block index has
    not moved, so the previous point's block is this point's; the window is uncut and never idle. -/
theorem before2_6_of {c : Dev nD} (dat : Dat τ (Elt F) Unit ℕ (UR sig nD τ) ℕ cfg2 c) (hA : dat.A 6 = V c (Pipeline.arrRef spec2 6))
    (hafter : ∀ t, dat.after 6 t = iblk2 V c 6 t) (t : Fin cfg2.N) (d) : dat.before 6 t d = iblk2 V c 6 t :=
  (dat.before_in_eq_fetched 6 rfl (fun _ => rfl) (fun _ _ _ => rfl) (fun t => by rw [hafter]; unfold Dat.blockOf iblk2; rw [hA]; try rfl) t d).trans
    (by unfold Dat.fetched Dat.blockOf iblk2; rw [hA]; try rfl)

/-- Input window 7's current staging buffer holds its block at every point, fetched there or not, for any proof
    data whose array is the entry contents' and whose body leaves the block in place: unfetched, the block index has
    not moved, so the previous point's block is this point's; the window is uncut and never idle. -/
theorem before2_7_of {c : Dev nD} (dat : Dat τ (Elt F) Unit ℕ (UR sig nD τ) ℕ cfg2 c) (hA : dat.A 7 = V c (Pipeline.arrRef spec2 7))
    (hafter : ∀ t, dat.after 7 t = iblk2 V c 7 t) (t : Fin cfg2.N) (d) : dat.before 7 t d = iblk2 V c 7 t :=
  (dat.before_in_eq_fetched 7 rfl (fun _ => rfl) (fun _ _ _ => rfl) (fun t => by rw [hafter]; unfold Dat.blockOf iblk2; rw [hA]; try rfl) t d).trans
    (by unfold Dat.fetched Dat.blockOf iblk2; rw [hA]; try rfl)

/-- Input window 8's current staging buffer holds its block at every point, fetched there or not, for any proof
    data whose array is the entry contents' and whose body leaves the block in place: unfetched, the block index has
    not moved, so the previous point's block is this point's; the window is uncut and never idle. -/
theorem before2_8_of {c : Dev nD} (dat : Dat τ (Elt F) Unit ℕ (UR sig nD τ) ℕ cfg2 c) (hA : dat.A 8 = V c (Pipeline.arrRef spec2 8))
    (hafter : ∀ t, dat.after 8 t = iblk2 V c 8 t) (t : Fin cfg2.N) (d) : dat.before 8 t d = iblk2 V c 8 t :=
  (dat.before_in_eq_fetched 8 rfl (fun _ => rfl) (fun _ _ _ => rfl) (fun t => by rw [hafter]; unfold Dat.blockOf iblk2; rw [hA]; try rfl) t d).trans
    (by unfold Dat.fetched Dat.blockOf iblk2; rw [hA]; try rfl)

/-- Each input's current staging buffer holds its block at every point, for region 2's own proof data. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d
theorem before2_6 (c : Dev nD) (t : Fin cfg2.N) (d) : (dat2 V c).before 6 t d = iblk2 V c 6 t :=
  before2_6_of V (dat2 V c) (A_eq2 V c 6) (after2_6 V c) t d
theorem before2_7 (c : Dev nD) (t : Fin cfg2.N) (d) : (dat2 V c).before 7 t d = iblk2 V c 7 t :=
  before2_7_of V (dat2 V c) (A_eq2 V c 7) (after2_7 V c) t d
theorem before2_8 (c : Dev nD) (t : Fin cfg2.N) (d) : (dat2 V c).before 8 t d = iblk2 V c 8 t :=
  before2_8_of V (dat2 V c) (A_eq2 V c 8) (after2_8 V c) t d

/-! ## The one store covers the output buffer -/

/-- The whole-buffer rectangle tiles the buffer, so any single piece laid through it covers every index. -/
theorem cover2_9 (p0 : Vec F S5000x128 .f32) (y : S5000x128.Idx) :
    ∃ pc ∈ ([⟨rA, p0⟩] : List (View.Piece (Elt F) S5000x128 .f32)), y ∈ pc.1.set :=
  View.cover_of_tiled [⟨rA, p0⟩] S5000x128.size (by rfl) y

/-! ## The body's triple -/

set_option maxHeartbeats 4000000 in
/-- The body on whole staging memrefs, the nine inputs' at read contents `x0` … `x8` and the output's at anything,
    runs to the continuation holding the inputs' as they were and the output's at `out2_9` of the inputs': the nine
    loads read the inputs through the whole-buffer rectangles, the load of the output buffer is discarded, and the one
    store, covering the buffer, leaves its payload there. -/
theorem sound_kernel2 (c : Dev nD) (E : Set ℕ) (i : grid2.Coords) (arg1 : Memref sig .tc .vmem S5000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S5000x128 .f32) (harg10 : arg10.IsWhole)
    (x0 : Vec F S5000x128 .f32) (x1 : Vec F S128x128 .f32) (x2 x3 x4 x5 x6 : Vec F S1x128 .f32) (x7 : Vec F S128x128 .f32) (x8 : Vec F S1x128 .f32)
    (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare (out2_9 x0 x1 x2 x3 x4 x5 x6 x7 x8)) -∗ K ⟨⟩))
      ⊢ wp frame (wpE (defs₀ (F := F)) Variants.none c none) E (cc2__mlp_kernel i arg1 harg1 arg2 harg2 arg3 harg3 arg4 harg4 arg5 harg5 arg6 harg6 arg7 harg7 arg8 harg8 arg9 harg9 arg10 harg10) K := by
  simp only [cc2__mlp_kernel_eq_skeleton]; unfold cc2__mlp_kernel_skel
  simp only [k2_part1_eq_skeleton]; unfold k2_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, Hk⟩
  subst hf0 hf1 hf2 hf3 hf4 hf5 hf6 hf7 hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  iexists _; isplitr
  swap; · iexact H9
  ipureintro
  exact View.read_writes_eq_canon _ _ _ (cover2_9 _)

/-! ## The body obligation, at a generic point -/

/-- What the body is called with at point `t`: the invariant, the core's debts, and every window's current staging
    buffer at what the pipeline left there, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d))
    ∗ (∃ d, owns (c : Thread nD τ) (st2_7 t) fullShare ((dat2 V c).before 7 t d))
    ∗ (∃ d, owns (c : Thread nD τ) (st2_8 t) fullShare ((dat2 V c).before 8 t d))
    ∗ (∃ d, owns (c : Thread nD τ) (st2_9 t) fullShare ((dat2 V c).before 9 t d)))

/-- and what it returns: the same, every buffer at what the proof data say the body leaves. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t)
    ∗ owns (c : Thread nD τ) (st2_7 t) fullShare ((dat2 V c).after 7 t)
    ∗ owns (c : Thread nD τ) (st2_8 t) fullShare ((dat2 V c).after 8 t)
    ∗ owns (c : Thread nD τ) (st2_9 t) fullShare ((dat2 V c).after 9 t))

set_option maxHeartbeats 1000000 in
/-- The body at any point: the inputs' buffers hold their blocks, so the body's triple applies; the invariant and the
    core's debts pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5, before2_6, before2_7, before2_8]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6, after2_7, after2_8, after2_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel2 c Set.univ _ _ _ _ _ _ _ _ _ _ _ _ _ _ _ _ _ _ _ _ _ (iblk2 V c 0 t) (iblk2 V c 1 t) (iblk2 V c 2 t) (iblk2 V c 3 t) (iblk2 V c 4 t) (iblk2 V c 5 t) (iblk2 V c 6 t) (iblk2 V c 7 t) (iblk2 V c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The pipeline's body obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Fr

end
-- ==== Proof.KI.Run.lean ====
/-
  The run of `KernelIdeal`'s @main at any float instance: seven segments — a host stretch, a kernel region, a host stretch,
  a kernel region, a host stretch, a kernel region, a host stretch — over the thread state "every unscoped buffer at the
  boundary's contents, the generator register at some state, nothing owed".  A host stretch moves the contents by
  `StableHlo.after`; a region splits its ten arrays out of the unscoped buffers, runs its pipeline from the body obligation,
  and puts them back at what the write-backs leave.  `run_all`: every execution terminates and every final memory holds
  each unscoped buffer at the last boundary's contents `W7`.  No stretch and no region writes an argument array
  (`W7_main_argJ`), which gives the frame claim.
-/
import proofs.«143124_j79869211837073_2_alg».proof.Proof.KI.Body0
import proofs.«143124_j79869211837073_2_alg».proof.Proof.KI.Body1
import proofs.«143124_j79869211837073_2_alg».proof.Proof.KI.Body2
import proofs.«143124_j79869211837073_2_alg».proof.Proof.Gen.KernelIdeal.Regions

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The thread state -/

abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its dues, at nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along; it is left with
    those references at `StableHlo.after ops (W c)`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last boundary's contents `W7`, the generator
    register at some state. -/
abbrev Tₙ (c : Dev nD) : sProp 𝕄 := iprop(StableHlo.held (c : Thread nD τ) (Pipeline.ucRefs τ sig) (W7 m c) ∗ ∃ r, prngReg c r)

/-! ## The regions as segments -/

set_option backward.isDefEq.respectTransparency.types false in
/-- Region 0 over the thread state: entered from every unscoped buffer at `W1`, left at `W2`.  Its arrays are split out
    of the unscoped buffers and put back at the exit contents; the generator register goes into the pipeline's invariant and
    comes out; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `W3`, left at `W4`.  Its arrays are split out
    of the unscoped buffers and put back at the exit contents; the generator register goes into the pipeline's invariant and
    comes out; nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V3 m c) (V4 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at `W5`, left at `W6`.  Its arrays are split out
    of the unscoped buffers and put back at the exit contents; the generator register goes into the pipeline's invariant and
    comes out; nothing is owed; the kernel has no semaphore of its own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m) c).loose
  hwaits := Pipeline.hwaits_of_owed_zero _ _ _ _ L lv 2 fun _ _ => rfl
  pre c := iprop(StableHlo.held (c : Thread nD τ) (Pipeline.ucRefs τ sig) (W5 m c) ∗ R c)
  post c := iprop(StableHlo.held (c : Thread nD τ) (Pipeline.ucRefs τ sig) (W6 m c) ∗ R c)
  X c := iprop(∃ r, prngReg c r)
  Y c := iprop(∃ r, prngReg c r)
  Z c := Pipeline.unscopedRest (Ix := Unit) (Name := ℕ) (U := UR sig nD τ) (Lvl := ℕ) spec2 c (V5 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (V5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (V5 m c) (V6 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's seven segments in order: a host segment per stretch from its boundary's contents, a region per kernel call. -/
abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m),
    .host (hseg hostOps2 hostOps2_sub hostOps2_fresh (W4 m)),
    .region (reg2 m),
    .host (hseg hostOps3 hostOps3_sub hostOps3_fresh (W6 m)) ]

/-- @main is the run of the segments: both are the chain of the same seven items. -/
theorem main_run (c : Dev nD) : main (F := F) c = Pipeline.Seg.run (segs m) := by
  rw [main_chain c, Pipeline.Seg.run_eq_chain]
  rfl

set_option backward.isDefEq.respectTransparency.types false in
/-- From any memory with zero counters every weakly fair execution of @main terminates, nothing faulting, and every final
    memory holds each unscoped buffer of each core at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W7 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl,
      fun c => by
        show iprop(StableHlo.held (c : Thread nD τ) (Pipeline.ucRefs τ sig) (W7 m c) ∗ R c)
          ⊢ iprop(Tₙ m c ∗ ∃ W, owes (c : Thread nD τ) (0 : CellTallies nD τ sig Unit) W)
        iintro ⟨Hh, Hr, HO⟩
        isplitl [Hh Hr]
        · isplitl [Hh]; · iexact Hh
          iexact Hr
        iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m c b)
    (hfin := fun c s' => by
      iintro ⟨⟨Hh, -⟩, HSI⟩
      unfold StableHlo.held
      imodintro
      iapply (pointsTo_read_all (Pipeline.ucRefs τ sig) (fun b => (((c : Thread nD τ)).1, b)) (W7 m c) s')
      isplitl [Hh] <;> iassumption)
    (hQ := fun s h c => h c)

/-! ## The arguments end as launched: no host operation and no region writes one -/

theorem W7_main_arg0 (c : Dev nD) : W7 m c (Proc.devRef .tc main_arg0) = m ((c : Thread nD τ).loc main_arg0) :=
  calc W7 m c (Proc.devRef .tc main_arg0)
    _ = W6 m c (Proc.devRef .tc main_arg0) := StableHlo.after_of_writes_sub hostOps3 _ hostOps3_writes (by decide)
    _ = W5 m c (Proc.devRef .tc main_arg0) := W6_of_ne m c main_arg0 (by decide)
    _ = W4 m c (Proc.devRef .tc main_arg0) := StableHlo.after_of_writes_sub hostOps2 _ hostOps2_writes (by decide)
    _ = W3 m c (Proc.devRef .tc main_arg0) := W4_of_ne m c main_arg0 (by decide)
    _ = W2 m c (Proc.devRef .tc main_arg0) := StableHlo.after_of_writes_sub hostOps1 _ hostOps1_writes (by decide)
    _ = W1 m c (Proc.devRef .tc main_arg0) := W2_of_ne m c main_arg0 (by decide)
    _ = W0 m c (Proc.devRef .tc main_arg0) := StableHlo.after_of_writes_sub hostOps0 _ hostOps0_writes (by decide)
    _ = m ((c : Thread nD τ).loc main_arg0) := rfl

theorem W7_main_arg1 (c : Dev nD) : W7 m c (Proc.devRef .tc main_arg1) = m ((c : Thread nD τ).loc main_arg1) :=
  calc W7 m c (Proc.devRef .tc main_arg1)
    _ = W6 m c (Proc.devRef .tc main_arg1) := StableHlo.after_of_writes_sub hostOps3 _ hostOps3_writes (by decide)
    _ = W5 m c (Proc.devRef .tc main_arg1) := W6_of_ne m c main_arg1 (by decide)
    _ = W4 m c (Proc.devRef .tc main_arg1) := StableHlo.after_of_writes_sub hostOps2 _ hostOps2_writes (by decide)
    _ = W3 m c (Proc.devRef .tc main_arg1) := W4_of_ne m c main_arg1 (by decide)
    _ = W2 m c (Proc.devRef .tc main_arg1) := StableHlo.after_of_writes_sub hostOps1 _ hostOps1_writes (by decide)
    _ = W1 m c (Proc.devRef .tc main_arg1) := W2_of_ne m c main_arg1 (by decide)
    _ = W0 m c (Proc.devRef .tc main_arg1) := StableHlo.after_of_writes_sub hostOps0 _ hostOps0_writes (by decide)
    _ = m ((c : Thread nD τ).loc main_arg1) := rfl

theorem W7_main_arg2 (c : Dev nD) : W7 m c (Proc.devRef .tc main_arg2) = m ((c : Thread nD τ).loc main_arg2) :=
  calc W7 m c (Proc.devRef .tc main_arg2)
    _ = W6 m c (Proc.devRef .tc main_arg2) := StableHlo.after_of_writes_sub hostOps3 _ hostOps3_writes (by decide)
    _ = W5 m c (Proc.devRef .tc main_arg2) := W6_of_ne m c main_arg2 (by decide)
    _ = W4 m c (Proc.devRef .tc main_arg2) := StableHlo.after_of_writes_sub hostOps2 _ hostOps2_writes (by decide)
    _ = W3 m c (Proc.devRef .tc main_arg2) := W4_of_ne m c main_arg2 (by decide)
    _ = W2 m c (Proc.devRef .tc main_arg2) := StableHlo.after_of_writes_sub hostOps1 _ hostOps1_writes (by decide)
    _ = W1 m c (Proc.devRef .tc main_arg2) := W2_of_ne m c main_arg2 (by decide)
    _ = W0 m c (Proc.devRef .tc main_arg2) := StableHlo.after_of_writes_sub hostOps0 _ hostOps0_writes (by decide)
    _ = m ((c : Thread nD τ).loc main_arg2) := rfl

theorem W7_main_arg3 (c : Dev nD) : W7 m c (Proc.devRef .tc main_arg3) = m ((c : Thread nD τ).loc main_arg3) :=
  calc W7 m c (Proc.devRef .tc main_arg3)
    _ = W6 m c (Proc.devRef .tc main_arg3) := StableHlo.after_of_writes_sub hostOps3 _ hostOps3_writes (by decide)
    _ = W5 m c (Proc.devRef .tc main_arg3) := W6_of_ne m c main_arg3 (by decide)
    _ = W4 m c (Proc.devRef .tc main_arg3) := StableHlo.after_of_writes_sub hostOps2 _ hostOps2_writes (by decide)
    _ = W3 m c (Proc.devRef .tc main_arg3) := W4_of_ne m c main_arg3 (by decide)
    _ = W2 m c (Proc.devRef .tc main_arg3) := StableHlo.after_of_writes_sub hostOps1 _ hostOps1_writes (by decide)
    _ = W1 m c (Proc.devRef .tc main_arg3) := W2_of_ne m c main_arg3 (by decide)
    _ = W0 m c (Proc.devRef .tc main_arg3) := StableHlo.after_of_writes_sub hostOps0 _ hostOps0_writes (by decide)
    _ = m ((c : Thread nD τ).loc main_arg3) := rfl

theorem W7_main_arg4 (c : Dev nD) : W7 m c (Proc.devRef .tc main_arg4) = m ((c : Thread nD τ).loc main_arg4) :=
  calc W7 m c (Proc.devRef .tc main_arg4)
    _ = W6 m c (Proc.devRef .tc main_arg4) := StableHlo.after_of_writes_sub hostOps3 _ hostOps3_writes (by decide)
    _ = W5 m c (Proc.devRef .tc main_arg4) := W6_of_ne m c main_arg4 (by decide)
    _ = W4 m c (Proc.devRef .tc main_arg4) := StableHlo.after_of_writes_sub hostOps2 _ hostOps2_writes (by decide)
    _ = W3 m c (Proc.devRef .tc main_arg4) := W4_of_ne m c main_arg4 (by decide)
    _ = W2 m c (Proc.devRef .tc main_arg4) := StableHlo.after_of_writes_sub hostOps1 _ hostOps1_writes (by decide)
    _ = W1 m c (Proc.devRef .tc main_arg4) := W2_of_ne m c main_arg4 (by decide)
    _ = W0 m c (Proc.devRef .tc main_arg4) := StableHlo.after_of_writes_sub hostOps0 _ hostOps0_writes (by decide)
    _ = m ((c : Thread nD τ).loc main_arg4) := rfl

theorem W7_main_arg5 (c : Dev nD) : W7 m c (Proc.devRef .tc main_arg5) = m ((c : Thread nD τ).loc main_arg5) :=
  calc W7 m c (Proc.devRef .tc main_arg5)
    _ = W6 m c (Proc.devRef .tc main_arg5) := StableHlo.after_of_writes_sub hostOps3 _ hostOps3_writes (by decide)
    _ = W5 m c (Proc.devRef .tc main_arg5) := W6_of_ne m c main_arg5 (by decide)
    _ = W4 m c (Proc.devRef .tc main_arg5) := StableHlo.after_of_writes_sub hostOps2 _ hostOps2_writes (by decide)
    _ = W3 m c (Proc.devRef .tc main_arg5) := W4_of_ne m c main_arg5 (by decide)
    _ = W2 m c (Proc.devRef .tc main_arg5) := StableHlo.after_of_writes_sub hostOps1 _ hostOps1_writes (by decide)
    _ = W1 m c (Proc.devRef .tc main_arg5) := W2_of_ne m c main_arg5 (by decide)
    _ = W0 m c (Proc.devRef .tc main_arg5) := StableHlo.after_of_writes_sub hostOps0 _ hostOps0_writes (by decide)
    _ = m ((c : Thread nD τ).loc main_arg5) := rfl

theorem W7_main_arg6 (c : Dev nD) : W7 m c (Proc.devRef .tc main_arg6) = m ((c : Thread nD τ).loc main_arg6) :=
  calc W7 m c (Proc.devRef .tc main_arg6)
    _ = W6 m c (Proc.devRef .tc main_arg6) := StableHlo.after_of_writes_sub hostOps3 _ hostOps3_writes (by decide)
    _ = W5 m c (Proc.devRef .tc main_arg6) := W6_of_ne m c main_arg6 (by decide)
    _ = W4 m c (Proc.devRef .tc main_arg6) := StableHlo.after_of_writes_sub hostOps2 _ hostOps2_writes (by decide)
    _ = W3 m c (Proc.devRef .tc main_arg6) := W4_of_ne m c main_arg6 (by decide)
    _ = W2 m c (Proc.devRef .tc main_arg6) := StableHlo.after_of_writes_sub hostOps1 _ hostOps1_writes (by decide)
    _ = W1 m c (Proc.devRef .tc main_arg6) := W2_of_ne m c main_arg6 (by decide)
    _ = W0 m c (Proc.devRef .tc main_arg6) := StableHlo.after_of_writes_sub hostOps0 _ hostOps0_writes (by decide)
    _ = m ((c : Thread nD τ).loc main_arg6) := rfl

theorem W7_main_arg7 (c : Dev nD) : W7 m c (Proc.devRef .tc main_arg7) = m ((c : Thread nD τ).loc main_arg7) :=
  calc W7 m c (Proc.devRef .tc main_arg7)
    _ = W6 m c (Proc.devRef .tc main_arg7) := StableHlo.after_of_writes_sub hostOps3 _ hostOps3_writes (by decide)
    _ = W5 m c (Proc.devRef .tc main_arg7) := W6_of_ne m c main_arg7 (by decide)
    _ = W4 m c (Proc.devRef .tc main_arg7) := StableHlo.after_of_writes_sub hostOps2 _ hostOps2_writes (by decide)
    _ = W3 m c (Proc.devRef .tc main_arg7) := W4_of_ne m c main_arg7 (by decide)
    _ = W2 m c (Proc.devRef .tc main_arg7) := StableHlo.after_of_writes_sub hostOps1 _ hostOps1_writes (by decide)
    _ = W1 m c (Proc.devRef .tc main_arg7) := W2_of_ne m c main_arg7 (by decide)
    _ = W0 m c (Proc.devRef .tc main_arg7) := StableHlo.after_of_writes_sub hostOps0 _ hostOps0_writes (by decide)
    _ = m ((c : Thread nD τ).loc main_arg7) := rfl

theorem W7_main_arg8 (c : Dev nD) : W7 m c (Proc.devRef .tc main_arg8) = m ((c : Thread nD τ).loc main_arg8) :=
  calc W7 m c (Proc.devRef .tc main_arg8)
    _ = W6 m c (Proc.devRef .tc main_arg8) := StableHlo.after_of_writes_sub hostOps3 _ hostOps3_writes (by decide)
    _ = W5 m c (Proc.devRef .tc main_arg8) := W6_of_ne m c main_arg8 (by decide)
    _ = W4 m c (Proc.devRef .tc main_arg8) := StableHlo.after_of_writes_sub hostOps2 _ hostOps2_writes (by decide)
    _ = W3 m c (Proc.devRef .tc main_arg8) := W4_of_ne m c main_arg8 (by decide)
    _ = W2 m c (Proc.devRef .tc main_arg8) := StableHlo.after_of_writes_sub hostOps1 _ hostOps1_writes (by decide)
    _ = W1 m c (Proc.devRef .tc main_arg8) := W2_of_ne m c main_arg8 (by decide)
    _ = W0 m c (Proc.devRef .tc main_arg8) := StableHlo.after_of_writes_sub hostOps0 _ hostOps0_writes (by decide)
    _ = m ((c : Thread nD τ).loc main_arg8) := rfl

theorem W7_main_arg9 (c : Dev nD) : W7 m c (Proc.devRef .tc main_arg9) = m ((c : Thread nD τ).loc main_arg9) :=
  calc W7 m c (Proc.devRef .tc main_arg9)
    _ = W6 m c (Proc.devRef .tc main_arg9) := StableHlo.after_of_writes_sub hostOps3 _ hostOps3_writes (by decide)
    _ = W5 m c (Proc.devRef .tc main_arg9) := W6_of_ne m c main_arg9 (by decide)
    _ = W4 m c (Proc.devRef .tc main_arg9) := StableHlo.after_of_writes_sub hostOps2 _ hostOps2_writes (by decide)
    _ = W3 m c (Proc.devRef .tc main_arg9) := W4_of_ne m c main_arg9 (by decide)
    _ = W2 m c (Proc.devRef .tc main_arg9) := StableHlo.after_of_writes_sub hostOps1 _ hostOps1_writes (by decide)
    _ = W1 m c (Proc.devRef .tc main_arg9) := W2_of_ne m c main_arg9 (by decide)
    _ = W0 m c (Proc.devRef .tc main_arg9) := StableHlo.after_of_writes_sub hostOps0 _ hostOps0_writes (by decide)
    _ = m ((c : Thread nD τ).loc main_arg9) := rfl

theorem W7_main_arg10 (c : Dev nD) : W7 m c (Proc.devRef .tc main_arg10) = m ((c : Thread nD τ).loc main_arg10) :=
  calc W7 m c (Proc.devRef .tc main_arg10)
    _ = W6 m c (Proc.devRef .tc main_arg10) := StableHlo.after_of_writes_sub hostOps3 _ hostOps3_writes (by decide)
    _ = W5 m c (Proc.devRef .tc main_arg10) := W6_of_ne m c main_arg10 (by decide)
    _ = W4 m c (Proc.devRef .tc main_arg10) := StableHlo.after_of_writes_sub hostOps2 _ hostOps2_writes (by decide)
    _ = W3 m c (Proc.devRef .tc main_arg10) := W4_of_ne m c main_arg10 (by decide)
    _ = W2 m c (Proc.devRef .tc main_arg10) := StableHlo.after_of_writes_sub hostOps1 _ hostOps1_writes (by decide)
    _ = W1 m c (Proc.devRef .tc main_arg10) := W2_of_ne m c main_arg10 (by decide)
    _ = W0 m c (Proc.devRef .tc main_arg10) := StableHlo.after_of_writes_sub hostOps0 _ hostOps0_writes (by decide)
    _ = m ((c : Thread nD τ).loc main_arg10) := rfl

theorem W7_main_arg11 (c : Dev nD) : W7 m c (Proc.devRef .tc main_arg11) = m ((c : Thread nD τ).loc main_arg11) :=
  calc W7 m c (Proc.devRef .tc main_arg11)
    _ = W6 m c (Proc.devRef .tc main_arg11) := StableHlo.after_of_writes_sub hostOps3 _ hostOps3_writes (by decide)
    _ = W5 m c (Proc.devRef .tc main_arg11) := W6_of_ne m c main_arg11 (by decide)
    _ = W4 m c (Proc.devRef .tc main_arg11) := StableHlo.after_of_writes_sub hostOps2 _ hostOps2_writes (by decide)
    _ = W3 m c (Proc.devRef .tc main_arg11) := W4_of_ne m c main_arg11 (by decide)
    _ = W2 m c (Proc.devRef .tc main_arg11) := StableHlo.after_of_writes_sub hostOps1 _ hostOps1_writes (by decide)
    _ = W1 m c (Proc.devRef .tc main_arg11) := W2_of_ne m c main_arg11 (by decide)
    _ = W0 m c (Proc.devRef .tc main_arg11) := StableHlo.after_of_writes_sub hostOps0 _ hostOps0_writes (by decide)
    _ = m ((c : Thread nD τ).loc main_arg11) := rfl

theorem W7_main_arg12 (c : Dev nD) : W7 m c (Proc.devRef .tc main_arg12) = m ((c : Thread nD τ).loc main_arg12) :=
  calc W7 m c (Proc.devRef .tc main_arg12)
    _ = W6 m c (Proc.devRef .tc main_arg12) := StableHlo.after_of_writes_sub hostOps3 _ hostOps3_writes (by decide)
    _ = W5 m c (Proc.devRef .tc main_arg12) := W6_of_ne m c main_arg12 (by decide)
    _ = W4 m c (Proc.devRef .tc main_arg12) := StableHlo.after_of_writes_sub hostOps2 _ hostOps2_writes (by decide)
    _ = W3 m c (Proc.devRef .tc main_arg12) := W4_of_ne m c main_arg12 (by decide)
    _ = W2 m c (Proc.devRef .tc main_arg12) := StableHlo.after_of_writes_sub hostOps1 _ hostOps1_writes (by decide)
    _ = W1 m c (Proc.devRef .tc main_arg12) := W2_of_ne m c main_arg12 (by decide)
    _ = W0 m c (Proc.devRef .tc main_arg12) := StableHlo.after_of_writes_sub hostOps0 _ hostOps0_writes (by decide)
    _ = m ((c : Thread nD τ).loc main_arg12) := rfl

theorem W7_main_arg13 (c : Dev nD) : W7 m c (Proc.devRef .tc main_arg13) = m ((c : Thread nD τ).loc main_arg13) :=
  calc W7 m c (Proc.devRef .tc main_arg13)
    _ = W6 m c (Proc.devRef .tc main_arg13) := StableHlo.after_of_writes_sub hostOps3 _ hostOps3_writes (by decide)
    _ = W5 m c (Proc.devRef .tc main_arg13) := W6_of_ne m c main_arg13 (by decide)
    _ = W4 m c (Proc.devRef .tc main_arg13) := StableHlo.after_of_writes_sub hostOps2 _ hostOps2_writes (by decide)
    _ = W3 m c (Proc.devRef .tc main_arg13) := W4_of_ne m c main_arg13 (by decide)
    _ = W2 m c (Proc.devRef .tc main_arg13) := StableHlo.after_of_writes_sub hostOps1 _ hostOps1_writes (by decide)
    _ = W1 m c (Proc.devRef .tc main_arg13) := W2_of_ne m c main_arg13 (by decide)
    _ = W0 m c (Proc.devRef .tc main_arg13) := StableHlo.after_of_writes_sub hostOps0 _ hostOps0_writes (by decide)
    _ = m ((c : Thread nD τ).loc main_arg13) := rfl

theorem W7_main_arg14 (c : Dev nD) : W7 m c (Proc.devRef .tc main_arg14) = m ((c : Thread nD τ).loc main_arg14) :=
  calc W7 m c (Proc.devRef .tc main_arg14)
    _ = W6 m c (Proc.devRef .tc main_arg14) := StableHlo.after_of_writes_sub hostOps3 _ hostOps3_writes (by decide)
    _ = W5 m c (Proc.devRef .tc main_arg14) := W6_of_ne m c main_arg14 (by decide)
    _ = W4 m c (Proc.devRef .tc main_arg14) := StableHlo.after_of_writes_sub hostOps2 _ hostOps2_writes (by decide)
    _ = W3 m c (Proc.devRef .tc main_arg14) := W4_of_ne m c main_arg14 (by decide)
    _ = W2 m c (Proc.devRef .tc main_arg14) := StableHlo.after_of_writes_sub hostOps1 _ hostOps1_writes (by decide)
    _ = W1 m c (Proc.devRef .tc main_arg14) := W2_of_ne m c main_arg14 (by decide)
    _ = W0 m c (Proc.devRef .tc main_arg14) := StableHlo.after_of_writes_sub hostOps0 _ hostOps0_writes (by decide)
    _ = m ((c : Thread nD τ).loc main_arg14) := rfl

/-- The frame claim at any float instance: @main terminates from any memory with zero counters, and every final memory
    holds each argument array as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun r h c =>
    ⟨(h c _ (mem_uc main_arg0 (by decide))).trans (W7_main_arg0 m c),
    (h c _ (mem_uc main_arg1 (by decide))).trans (W7_main_arg1 m c),
    (h c _ (mem_uc main_arg2 (by decide))).trans (W7_main_arg2 m c),
    (h c _ (mem_uc main_arg3 (by decide))).trans (W7_main_arg3 m c),
    (h c _ (mem_uc main_arg4 (by decide))).trans (W7_main_arg4 m c),
    (h c _ (mem_uc main_arg5 (by decide))).trans (W7_main_arg5 m c),
    (h c _ (mem_uc main_arg6 (by decide))).trans (W7_main_arg6 m c),
    (h c _ (mem_uc main_arg7 (by decide))).trans (W7_main_arg7 m c),
    (h c _ (mem_uc main_arg8 (by decide))).trans (W7_main_arg8 m c),
    (h c _ (mem_uc main_arg9 (by decide))).trans (W7_main_arg9 m c),
    (h c _ (mem_uc main_arg10 (by decide))).trans (W7_main_arg10 m c),
    (h c _ (mem_uc main_arg11 (by decide))).trans (W7_main_arg11 m c),
    (h c _ (mem_uc main_arg12 (by decide))).trans (W7_main_arg12 m c),
    (h c _ (mem_uc main_arg13 (by decide))).trans (W7_main_arg13 m c),
    (h c _ (mem_uc main_arg14 (by decide))).trans (W7_main_arg14 m c)⟩) (run_all m ρ)

end Cert.KernelIdeal.Fr

end
-- ==== Proof.RefRead.lean ====
/-
  The reference program's run and its operations read one at a time (both generated); the hand modules that
  compare the reference's stages with the kernel regions import this one.
-/
import proofs.«143124_j79869211837073_2_alg».proof.Proof.Gen.ReferenceIdeal.Run
import proofs.«143124_j79869211837073_2_alg».proof.Proof.Gen.ReferenceIdeal.Read
-- ==== Proof.Frames.lean ====
/-
  The four claims that need no comparison of values.  The kernel program and its idealisation run to the end with
  their argument arrays unchanged: their several-region frame theorems, at the bit-exact and at the ideal float
  instance.  The reference program runs to the end with its two results at the operations' composed terms and its
  arguments unchanged; the frame claim keeps the part about the arguments.  The idealisation rewrote no operation of
  the kernel program, so there is nothing for it to preserve.
-/
import proofs.«143124_j79869211837073_2_alg».proof.Defs
import proofs.«143124_j79869211837073_2_alg».proof.Proof.K.Run
import proofs.«143124_j79869211837073_2_alg».proof.Proof.KI.Run
import proofs.«143124_j79869211837073_2_alg».proof.Proof.RefRead
import proofs.«143124_j79869211837073_2_alg».proof.Proof.Gen.Kernel
import proofs.«143124_j79869211837073_2_alg».proof.Proof.Gen.KernelIdeal
import proofs.«143124_j79869211837073_2_alg».proof.Proof.Gen.ReferenceIdeal
import proofs.«143124_j79869211837073_2_alg».proof.Proof.Gen.Pre_finite_inputs

namespace Cert.Proof.Frames

open Idealize.ShloMosaic Idealize.ShloMosaic.TcCoe Idealize.SL.Sem

/-- The kernel program, at the bit-exact instance, from any memory with zero counters. -/
theorem frame_p : Cert.frame_Kernel := fun m ρ _ => Cert.Kernel.Fr.frame m ρ

/-- Its idealisation, at the ideal instance. -/
theorem frame_pi : Cert.frame_KernelIdeal := fun m ρ _ => Cert.KernelIdeal.Fr.frame m ρ

/-- The reference program: its run's conclusion lists the two results first and then the fifteen arguments; the frame
    claim is the arguments' part. -/
theorem frame_ri : Cert.frame_ReferenceIdeal := fun m ρ _ =>
  (θ_run Cert.ReferenceIdeal.defs _ _).mono (fun _ h c => (h c).2.2) (Cert.ReferenceIdeal.Value.run (F := Ideal) m ρ)

/-- The idealisation is the kernel program's own text read at the ideal instance: no rewrite to account for. -/
theorem preserves : Cert.preserves_Kernel_KernelIdeal := trivial

end Cert.Proof.Frames
-- ==== Proof.Spec.lean ====
/-
  One layer of the node network on ONE row, over the extended reals.

  A layer sends a row `a` of 128 features to
      clamp0 ( (clamp0 ( ((a·W₁ + b₁) − μ) · s + β ))·W₂ + b₂ ),      clamp0 x = max x 0,
  where the per-column scale `s` is spelt `γ · rsqrt (σ² + ε)` by the kernel and `γ / sqrt (σ² + ε)` by the
  reference.  Both spellings are the same number as soon as `σ² + ε` is positive: then `rsqrt` is the inverse of the
  (nonzero) square root and the quotient by a nonzero number is the product with its inverse.  Everything else in a
  layer is the same expression on both sides, so a layer is stated once, over the scale as a parameter.
-/
import Idealize.ShloMosaic.PureOps.Ideal
import Idealize.ShloMosaic.PureOps.Ideal.Laws

noncomputable section

namespace Cert.Spec

open Idealize.ShloMosaic

/-- The variance offset both programs carry, as the extended real its word denotes. -/
abbrev eps : EReal := Ideal.ofBits .f32 0x3727C5AC#32
/-- The clamp's zero, as the word both programs carry. -/
abbrev zero : EReal := Ideal.ofBits .f32 0x00000000#32

/-- The kernel's scale: `γ · rsqrt (σ² + ε)`. -/
def scaleK (g v : EReal) : EReal := g * Ideal.rsqrt (v + eps)
/-- The reference's scale: `γ / sqrt (σ² + ε)`. -/
def scaleR (g v : EReal) : EReal := Ideal.div g (Ideal.sqrt (v + eps))

/-- The hidden row: the first product with its bias, normalised, shifted and clamped. -/
def hidden (sc : EReal → EReal → EReal) (a : Fin 128 → EReal) (w1 : Fin 128 → Fin 128 → EReal)
    (b1 g be mu var : Fin 128 → EReal) (k : Fin 128) : EReal :=
  max ((((∑ k' : Fin 128, a k' * w1 k' k) + b1 k) - mu k) * sc (g k) (var k) + be k) zero

/-- One layer on one row. -/
def rowLayer (sc : EReal → EReal → EReal) (a : Fin 128 → EReal) (w1 : Fin 128 → Fin 128 → EReal)
    (b1 g be mu var : Fin 128 → EReal) (w2 : Fin 128 → Fin 128 → EReal) (b2 : Fin 128 → EReal) (j : Fin 128) : EReal :=
  max ((∑ k : Fin 128, hidden sc a w1 b1 g be mu var k * w2 k j) + b2 j) zero

/-- With a positive `σ² + ε` the two spellings of the scale are one number. -/
theorem scaleK_eq_scaleR (g v : EReal) (hv : 0 < v + eps) : scaleK g v = scaleR g v := by
  unfold scaleK scaleR
  generalize v + eps = s at hv
  induction s using EReal.rec with
  | bot => exact absurd hv (by simp)
  | top =>
    rw [Ideal.rsqrt_top, Ideal.sqrt_top]
    unfold Ideal.div
    rw [if_neg (by simp), EReal.inv_top]
  | coe r =>
    have hr : 0 < r := by exact_mod_cast hv
    have hs : Real.sqrt r ≠ 0 := (Real.sqrt_pos.mpr hr).ne'
    rw [Ideal.rsqrt_coe, Ideal.sqrt_coe, if_neg (not_lt.mpr hr.le), if_neg hr.ne', if_neg (not_lt.mpr hr.le),
      Ideal.div_coe hs, one_div]

/-- A layer whose variances all have a positive `σ² + ε` is the same under either spelling of the scale. -/
theorem rowLayer_scale (a : Fin 128 → EReal) (w1 : Fin 128 → Fin 128 → EReal) (b1 g be mu var : Fin 128 → EReal)
    (w2 : Fin 128 → Fin 128 → EReal) (b2 : Fin 128 → EReal) (hv : ∀ k, 0 < var k + eps) :
    rowLayer scaleK a w1 b1 g be mu var w2 b2 = rowLayer scaleR a w1 b1 g be mu var w2 b2 := by
  funext j
  unfold rowLayer hidden
  simp only [fun k => scaleK_eq_scaleR (g k) (var k) (hv k)]

/-- Two layers on rows that agree entry by entry, with parameters that agree entry by entry, one under the kernel's
    spelling of the scale and one under the reference's, agree where every variance plus ε is positive. -/
theorem layer_bridge (a a' : Fin 128 → EReal) (w1 w1' : Fin 128 → Fin 128 → EReal) (b1 b1' g g' be be' mu mu' var var' : Fin 128 → EReal)
    (w2 w2' : Fin 128 → Fin 128 → EReal) (b2 b2' : Fin 128 → EReal) (j : Fin 128)
    (ha : a = a') (hw1 : w1 = w1') (hb1 : b1 = b1') (hg : g = g') (hbe : be = be') (hmu : mu = mu') (hvar : var = var')
    (hw2 : w2 = w2') (hb2 : b2 = b2') (hv : ∀ k, 0 < var' k + eps) :
    rowLayer scaleK a w1 b1 g be mu var w2 b2 j = rowLayer scaleR a' w1' b1' g' be' mu' var' w2' b2' j := by
  subst ha hw1 hb1 hg hbe hmu hvar hw2 hb2
  exact congrFun (rowLayer_scale _ _ _ _ _ _ _ _ _ hv) j

end Cert.Spec

end
-- ==== Proof.KI.Pay.lean ====
/-
  The body of a node-MLP kernel region, read at one entry of its output block, over the extended reals.

  The body's two payloads compose to: the second matrix product of the clamped hidden block with its bias, clamped
  at zero.  A matrix product into a zero accumulator is the plain sum over the contracted axis; a change of float
  format is the identity; a `[1,128]` row broadcast over the block reads its one row.  So entry `(p, q)` of the block
  the body stores is the one-row layer (`Cert.Spec.rowLayer`, with the kernel's spelling of the scale) of row `p` of
  the first operand's block.
-/
import proofs.«143124_j79869211837073_2_alg».proof.Proof.Gen.KernelIdeal.Skeleton
import proofs.«143124_j79869211837073_2_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Pay

open Idealize.ShloMosaic Idealize.ShloMosaic.ValueIdx Cert.KernelIdeal Cert.KernelIdeal.Gen

abbrev D := dot_S5000x128_S128x128_S5000x128_1_0_0_1_n_n

theorem lhs0 (i : S5000x128.Idx) (q : D.contr.Idx) : (D.lhsIdx i q 0).val = (i 0).val := by
  unfold DotDims.lhsIdx
  rw [dif_neg (show ¬(0 : Fin S5000x128.rank) ∈ D.lhsBatch by decide), dif_pos (show (0 : Fin S5000x128.rank) ∈ D.lhsNonContracting by decide)]
  rfl
theorem lhs1 (i : S5000x128.Idx) (q : D.contr.Idx) : (D.lhsIdx i q 1).val = (q ⟨0, by decide⟩).val :=
  D.lhsIdx_val_of_single rfl i q
theorem rhs0 (i : S5000x128.Idx) (q : D.contr.Idx) : (D.rhsIdx i q 0).val = (q ⟨0, by decide⟩).val :=
  D.rhsIdx_val_of_single rfl i q
theorem rhs1 (i : S5000x128.Idx) (q : D.contr.Idx) : (D.rhsIdx i q 1).val = (i 1).val := by
  unfold DotDims.rhsIdx
  rw [dif_neg (show ¬(1 : Fin S128x128.rank) ∈ D.rhsBatch by decide), dif_pos (show (1 : Fin S128x128.rank) ∈ D.rhsNonContracting by decide)]
  rfl

/-- The block product: a `[5000,128] × [128,128]` matrix product into the zero accumulator, at entry `(p, q)`, is the
    sum over `k` of the left operand's `(p, k)` times the right operand's `(k, q)`. -/
theorem mm_apply {φ₁ φ₂ : FTy} (l : FVec Ideal S5000x128 φ₁) (r : FVec Ideal S128x128 φ₂) (p : Fin 5000) (q : Fin 128) :
    matmul D none l r (constant (F := Ideal) S5000x128 .f32 0x00000000#32) (ix2 p q)
      = ∑ k : Fin 128, l (ix2 p k) * r (ix2 k q) := by
  show FloatOps.matmul D none l r (constant (F := Ideal) S5000x128 .f32 0x00000000#32) (ix2 p q) = _
  rw [Ideal.matmul_constant_zero_apply, ← Equiv.sum_comp (ValueIdx.contrEquiv1 D 128 rfl rfl).symm]
  refine Finset.sum_congr rfl fun k _ => ?_
  have hk := ValueIdx.contrEquiv1_symm_val D 128 rfl rfl k
  have el : D.lhsIdx (ix2 p q) ((ValueIdx.contrEquiv1 D 128 rfl rfl).symm k) = ix2 p k :=
    funext fun a => Fin.ext (by
      match a with
      | ⟨0, _⟩ => exact lhs0 _ _
      | ⟨1, _⟩ => exact (lhs1 _ _).trans hk)
  have er : D.rhsIdx (ix2 p q) ((ValueIdx.contrEquiv1 D 128 rfl rfl).symm k) = ix2 k q :=
    funext fun a => Fin.ext (by
      match a with
      | ⟨0, _⟩ => exact (rhs0 _ _).trans hk
      | ⟨1, _⟩ => exact rhs1 _ _)
  rw [el, er]

/-- Entry `(p, q)` of the block region 0's body stores is the one-row layer of row `p` of its first operand's block. -/
theorem pay0_apply (x0 : Vec Ideal S5000x128 .f32) (x1 : Vec Ideal S128x128 .f32) (x2 x3 x4 x5 x6 : Vec Ideal S1x128 .f32)
    (x7 : Vec Ideal S128x128 .f32) (x8 : Vec Ideal S1x128 .f32) (p : Fin 5000) (q : Fin 128) :
    k0_pay1 (F := Ideal) (k0_pay2 x0 x1 x2 x3 x6 x5 x4 x7) x8 (ix2 p q)
      = Cert.Spec.rowLayer Cert.Spec.scaleK (fun k => x0 (ix2 p k)) (fun a b => x1 (ix2 a b)) (fun k => x2 (ix2 (0 : Fin 1) k))
          (fun k => x3 (ix2 (0 : Fin 1) k)) (fun k => x4 (ix2 (0 : Fin 1) k)) (fun k => x5 (ix2 (0 : Fin 1) k)) (fun k => x6 (ix2 (0 : Fin 1) k))
          (fun a b => x7 (ix2 a b)) (fun k => x8 (ix2 (0 : Fin 1) k)) q := by
  unfold k0_pay1 k0_pay2
  dsimp only
  simp only [shapeCast_self]
  simp only [maximumf_apply, addf_apply, subf_apply, mulf_apply, truncf_apply, broadcast_apply, mm_apply, broadcastTo_1b_ab_apply]
  unfold Cert.Spec.rowLayer Cert.Spec.hidden Cert.Spec.scaleK
  rfl

/-- Entry `(p, q)` of the block region 1's body stores is the one-row layer of row `p` of its first operand's block. -/
theorem pay1_apply (x0 : Vec Ideal S5000x128 .f32) (x1 : Vec Ideal S128x128 .f32) (x2 x3 x4 x5 x6 : Vec Ideal S1x128 .f32)
    (x7 : Vec Ideal S128x128 .f32) (x8 : Vec Ideal S1x128 .f32) (p : Fin 5000) (q : Fin 128) :
    k1_pay1 (F := Ideal) (k1_pay2 x0 x1 x2 x3 x6 x5 x4 x7) x8 (ix2 p q)
      = Cert.Spec.rowLayer Cert.Spec.scaleK (fun k => x0 (ix2 p k)) (fun a b => x1 (ix2 a b)) (fun k => x2 (ix2 (0 : Fin 1) k))
          (fun k => x3 (ix2 (0 : Fin 1) k)) (fun k => x4 (ix2 (0 : Fin 1) k)) (fun k => x5 (ix2 (0 : Fin 1) k)) (fun k => x6 (ix2 (0 : Fin 1) k))
          (fun a b => x7 (ix2 a b)) (fun k => x8 (ix2 (0 : Fin 1) k)) q := by
  unfold k1_pay1 k1_pay2
  dsimp only
  simp only [shapeCast_self]
  simp only [maximumf_apply, addf_apply, subf_apply, mulf_apply, truncf_apply, broadcast_apply, mm_apply, broadcastTo_1b_ab_apply]
  unfold Cert.Spec.rowLayer Cert.Spec.hidden Cert.Spec.scaleK
  rfl

/-- Entry `(p, q)` of the block region 2's body stores is the one-row layer of row `p` of its first operand's block. -/
theorem pay2_apply (x0 : Vec Ideal S5000x128 .f32) (x1 : Vec Ideal S128x128 .f32) (x2 x3 x4 x5 x6 : Vec Ideal S1x128 .f32)
    (x7 : Vec Ideal S128x128 .f32) (x8 : Vec Ideal S1x128 .f32) (p : Fin 5000) (q : Fin 128) :
    k2_pay1 (F := Ideal) (k2_pay2 x0 x1 x2 x3 x6 x5 x4 x7) x8 (ix2 p q)
      = Cert.Spec.rowLayer Cert.Spec.scaleK (fun k => x0 (ix2 p k)) (fun a b => x1 (ix2 a b)) (fun k => x2 (ix2 (0 : Fin 1) k))
          (fun k => x3 (ix2 (0 : Fin 1) k)) (fun k => x4 (ix2 (0 : Fin 1) k)) (fun k => x5 (ix2 (0 : Fin 1) k)) (fun k => x6 (ix2 (0 : Fin 1) k))
          (fun a b => x7 (ix2 a b)) (fun k => x8 (ix2 (0 : Fin 1) k)) q := by
  unfold k2_pay1 k2_pay2
  dsimp only
  simp only [shapeCast_self]
  simp only [maximumf_apply, addf_apply, subf_apply, mulf_apply, truncf_apply, broadcast_apply, mm_apply, broadcastTo_1b_ab_apply]
  unfold Cert.Spec.rowLayer Cert.Spec.hidden Cert.Spec.scaleK
  rfl

end Cert.KernelIdeal.Pay

end
-- ==== Proof.KI.Arr.lean ====
/-
  From blocks to arrays: the output array of each node-MLP kernel region as ONE function of the region's operand
  arrays, over the extended reals.

  The output window's block at grid point `t` is rows `5000 t … 5000 t + 4999` of its array, the first operand's block
  the same rows of its array, and every other operand is read whole at every point.  The body stores, at entry
  `(p, q)` of the block, the one-row layer of row `p` of the first operand's block; so what point `t` writes back is
  block `t` of the array function `G`: row `r`, column `j` ↦ the one-row layer of row `r` of the first operand at
  column `j`.  The twenty blocks cover the hundred thousand rows (row `r` lies in block `r / 5000`), so the array
  ends holding `G`.
-/
import proofs.«143124_j79869211837073_2_alg».proof.Proof.KI.Data
import proofs.«143124_j79869211837073_2_alg».proof.Proof.KI.Pay
import Idealize.ShloMosaic.Lib.Pipeline.Value
import Idealize.ShloMosaic.Lib.ValueIdx

set_option maxRecDepth 16384

noncomputable section

namespace Cert.KernelIdeal.Arr

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.Fr

theorem hz : (![0, 0] : Fin 2 → Nat) = fun _ => 0 := funext fun a => by fin_cases a <;> rfl

/-- The output array of a region as a function of its operand arrays: row `r`, column `j` is the one-row layer (the
    kernel's spelling of the scale) of row `r` of the first operand. -/
def G (a : S100000x128.Idx → EReal) (w1 : S128x128.Idx → EReal) (b1 g be mu var : S1x128.Idx → EReal)
    (w2 : S128x128.Idx → EReal) (b2 : S1x128.Idx → EReal) : S100000x128.Idx → EReal := fun i =>
  Cert.Spec.rowLayer Cert.Spec.scaleK (fun k => a (ix2 (i 0 : Fin 100000) k)) (fun x y => w1 (ix2 x y))
    (fun k => b1 (ix2 (0 : Fin 1) k)) (fun k => g (ix2 (0 : Fin 1) k)) (fun k => be (ix2 (0 : Fin 1) k))
    (fun k => mu (ix2 (0 : Fin 1) k)) (fun k => var (ix2 (0 : Fin 1) k)) (fun x y => w2 (ix2 x y))
    (fun k => b2 (ix2 (0 : Fin 1) k)) (i 1 : Fin 128)

/-! ## Region 0 -/

/-- The printed index maps over region 0's grid: the first operand's and the output's blocks move down the rows with
    the point, every other window stays at its one block. -/
theorem idx_facts0 : ∀ t : Fin cfg0.N, win0_0.index t (0 : Fin 2) = t.val ∧ win0_0.index t (1 : Fin 2) = 0
    ∧ win0_9.index t (0 : Fin 2) = t.val ∧ win0_9.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0 :=
  (by decide +kernel : ∀ t : Fin grid0.N, _)

section
variable (V : (c : Dev nD) → (b : Ref sig .tc) → Buf (Elt Ideal) ((c : Thread nD τ).loc b)) (c : Dev nD) (t : Fin cfg0.N)

/-- Row `p` of the first operand's block at point `t` is row `5000 t + p` of its array. -/
theorem iblk0_rows (p : Fin 5000) (k : Fin 128) (r : Fin 100000) (hr : r.val = t.val * 5000 + p.val) :
    (iblk0 V c 0 t : Vec Ideal S5000x128 .f32) (ix2 p k) = (V c main_v20 : S100000x128.Idx → EReal) (ix2 r k) := by
  unfold iblk0
  rw [View.read_apply]
  show V c main_v20 _ = V c main_v20 _
  refine congrArg _ (funext fun d => Fin.ext ?_)
  obtain ⟨e0, e1, -⟩ := idx_facts0 t
  match d with
  | ⟨0, _⟩ => show win0_0.index t (0 : Fin 2) * 5000 + 1 * p.val = r.val; omega
  | ⟨1, _⟩ => show win0_0.index t (1 : Fin 2) * 128 + 1 * k.val = k.val; omega

/-- Entry `(p, q)` of the output's block at point `t` is entry `(5000 t + p, q)` of its array. -/
theorem blk0_emb (p : Fin 5000) (q : Fin 128) (r : Fin 100000) (hr : r.val = t.val * 5000 + p.val) :
    ((cfg0.win 9).blk t).view.emb (ix2 p q) = (ix2 r q : S100000x128.Idx) := by
  refine funext fun d => Fin.ext ?_
  obtain ⟨-, -, e0, e1, -⟩ := idx_facts0 t
  match d with
  | ⟨0, _⟩ => show win0_9.index t (0 : Fin 2) * 5000 + 1 * p.val = r.val; omega
  | ⟨1, _⟩ => show win0_9.index t (1 : Fin 2) * 128 + 1 * q.val = q.val; omega

/-- The `[128,128]` operand of window 1 is read whole at every point. -/
theorem iblk0_w1 (x y : Fin 128) :
    (iblk0 V c 1 t : Vec Ideal S128x128 .f32) (ix2 x y) = (V c main_v22 : S128x128.Idx → EReal) (ix2 x y) := by
  unfold iblk0
  rw [View.read_apply]
  show V c main_v22 _ = V c main_v22 _
  refine congrArg _ (funext fun d => Fin.ext ?_)
  have e := idx_facts0 t
  match d with
  | ⟨0, _⟩ => show win0_1.index t (0 : Fin 2) * 128 + 1 * x.val = x.val; omega
  | ⟨1, _⟩ => show win0_1.index t (1 : Fin 2) * 128 + 1 * y.val = y.val; omega

/-- The `[128,128]` operand of window 7 is read whole at every point. -/
theorem iblk0_w7 (x y : Fin 128) :
    (iblk0 V c 7 t : Vec Ideal S128x128 .f32) (ix2 x y) = (V c main_v34 : S128x128.Idx → EReal) (ix2 x y) := by
  unfold iblk0
  rw [View.read_apply]
  show V c main_v34 _ = V c main_v34 _
  refine congrArg _ (funext fun d => Fin.ext ?_)
  have e := idx_facts0 t
  match d with
  | ⟨0, _⟩ => show win0_7.index t (0 : Fin 2) * 128 + 1 * x.val = x.val; omega
  | ⟨1, _⟩ => show win0_7.index t (1 : Fin 2) * 128 + 1 * y.val = y.val; omega

/-- The `[1,128]` row of window 2 is read whole at every point. -/
theorem iblk0_w2 (k : Fin 128) :
    (iblk0 V c 2 t : Vec Ideal S1x128 .f32) (ix2 (0 : Fin 1) k) = (V c main_v37 : S1x128.Idx → EReal) (ix2 (0 : Fin 1) k) := by
  unfold iblk0
  rw [View.read_apply]
  show V c main_v37 _ = V c main_v37 _
  refine congrArg _ (funext fun d => Fin.ext ?_)
  have e := idx_facts0 t
  match d with
  | ⟨0, _⟩ => show win0_2.index t (0 : Fin 2) * 1 + 1 * 0 = 0; omega
  | ⟨1, _⟩ => show win0_2.index t (1 : Fin 2) * 128 + 1 * k.val = k.val; omega

/-- The `[1,128]` row of window 3 is read whole at every point. -/
theorem iblk0_w3 (k : Fin 128) :
    (iblk0 V c 3 t : Vec Ideal S1x128 .f32) (ix2 (0 : Fin 1) k) = (V c main_v38 : S1x128.Idx → EReal) (ix2 (0 : Fin 1) k) := by
  unfold iblk0
  rw [View.read_apply]
  show V c main_v38 _ = V c main_v38 _
  refine congrArg _ (funext fun d => Fin.ext ?_)
  have e := idx_facts0 t
  match d with
  | ⟨0, _⟩ => show win0_3.index t (0 : Fin 2) * 1 + 1 * 0 = 0; omega
  | ⟨1, _⟩ => show win0_3.index t (1 : Fin 2) * 128 + 1 * k.val = k.val; omega

/-- The `[1,128]` row of window 4 is read whole at every point. -/
theorem iblk0_w4 (k : Fin 128) :
    (iblk0 V c 4 t : Vec Ideal S1x128 .f32) (ix2 (0 : Fin 1) k) = (V c main_v39 : S1x128.Idx → EReal) (ix2 (0 : Fin 1) k) := by
  unfold iblk0
  rw [View.read_apply]
  show V c main_v39 _ = V c main_v39 _
  refine congrArg _ (funext fun d => Fin.ext ?_)
  have e := idx_facts0 t
  match d with
  | ⟨0, _⟩ => show win0_4.index t (0 : Fin 2) * 1 + 1 * 0 = 0; omega
  | ⟨1, _⟩ => show win0_4.index t (1 : Fin 2) * 128 + 1 * k.val = k.val; omega

/-- The `[1,128]` row of window 5 is read whole at every point. -/
theorem iblk0_w5 (k : Fin 128) :
    (iblk0 V c 5 t : Vec Ideal S1x128 .f32) (ix2 (0 : Fin 1) k) = (V c main_v40 : S1x128.Idx → EReal) (ix2 (0 : Fin 1) k) := by
  unfold iblk0
  rw [View.read_apply]
  show V c main_v40 _ = V c main_v40 _
  refine congrArg _ (funext fun d => Fin.ext ?_)
  have e := idx_facts0 t
  match d with
  | ⟨0, _⟩ => show win0_5.index t (0 : Fin 2) * 1 + 1 * 0 = 0; omega
  | ⟨1, _⟩ => show win0_5.index t (1 : Fin 2) * 128 + 1 * k.val = k.val; omega

/-- The `[1,128]` row of window 6 is read whole at every point. -/
theorem iblk0_w6 (k : Fin 128) :
    (iblk0 V c 6 t : Vec Ideal S1x128 .f32) (ix2 (0 : Fin 1) k) = (V c main_v41 : S1x128.Idx → EReal) (ix2 (0 : Fin 1) k) := by
  unfold iblk0
  rw [View.read_apply]
  show V c main_v41 _ = V c main_v41 _
  refine congrArg _ (funext fun d => Fin.ext ?_)
  have e := idx_facts0 t
  match d with
  | ⟨0, _⟩ => show win0_6.index t (0 : Fin 2) * 1 + 1 * 0 = 0; omega
  | ⟨1, _⟩ => show win0_6.index t (1 : Fin 2) * 128 + 1 * k.val = k.val; omega

/-- The `[1,128]` row of window 8 is read whole at every point. -/
theorem iblk0_w8 (k : Fin 128) :
    (iblk0 V c 8 t : Vec Ideal S1x128 .f32) (ix2 (0 : Fin 1) k) = (V c main_v42 : S1x128.Idx → EReal) (ix2 (0 : Fin 1) k) := by
  unfold iblk0
  rw [View.read_apply]
  show V c main_v42 _ = V c main_v42 _
  refine congrArg _ (funext fun d => Fin.ext ?_)
  have e := idx_facts0 t
  match d with
  | ⟨0, _⟩ => show win0_8.index t (0 : Fin 2) * 1 + 1 * 0 = 0; omega
  | ⟨1, _⟩ => show win0_8.index t (1 : Fin 2) * 128 + 1 * k.val = k.val; omega

/-- What point `t` writes back is block `t` of `G` of the region's operand arrays as it finds them. -/
theorem flushed0_eq :
    (dat0 (F := Ideal) V c).flushed 9 t = ((cfg0.win 9).blk t).view.read (Elt Ideal)
      (G (V c main_v20) (V c main_v22) (V c main_v37) (V c main_v38) (V c main_v39) (V c main_v40) (V c main_v41) (V c main_v34) (V c main_v42)) := by
  show (cfg0.win 9).cut (grid0.coords t) ((dat0 V c).after 9 t) = _
  rw [after0_9]
  unfold out0_9
  rw [View.canon_unit_zero hz]
  simp only [View.ld_unit_zero (S := S5000x128) hz, View.ld_unit_zero (S := S128x128) hz, View.ld_unit_zero (S := S1x128) hz]
  funext j
  obtain ⟨p, q, rfl⟩ : ∃ (p : Fin 5000) (q : Fin 128), j = ix2 p q := ⟨j 0, j 1, eq_ix2 j⟩
  have ht : t.val < 20 := Nat.lt_of_lt_of_eq t.isLt (N_0 : cfg0.N = 20)
  have hr : t.val * 5000 + p.val < 100000 := by have := p.isLt; omega
  rw [View.read_apply, blk0_emb t p q ⟨_, hr⟩ rfl]
  refine (Cert.KernelIdeal.Pay.pay0_apply _ _ _ _ _ _ _ _ _ p q).trans ?_
  unfold G
  simp only [iblk0_rows V c t p _ ⟨_, hr⟩ rfl, iblk0_w1 V c t, iblk0_w2 V c t, iblk0_w3 V c t, iblk0_w4 V c t,
    iblk0_w5 V c t, iblk0_w6 V c t, iblk0_w7 V c t, iblk0_w8 V c t]
  rfl

/-- Every row of the output array lies in the block of the point that covers it. -/
theorem cover0 (i : S100000x128.Idx) :
    ∃ t : Fin cfg0.N, (cfg0.win 9).flush t = true ∧ i ∈ ((cfg0.win 9).blk t).view.set := by
  have hi0 : (i 0).val < 100000 := (i 0).isLt
  have hi1 : (i 1).val < 128 := (i 1).isLt
  let t : Fin cfg0.N := ⟨(i 0).val / 5000, Nat.lt_of_lt_of_eq (by omega : (i 0).val / 5000 < 20) (N_0 : cfg0.N = 20).symm⟩
  refine ⟨t, flush0_9 t, ?_⟩
  show i ∈ ((View.whole main_v43).slice (win0_9.rect t)).set
  rw [View.set_slice_whole, Rect.mem_set_unit]
  obtain ⟨-, -, e0, e1, -⟩ := idx_facts0 t
  have ht : t.val = (i 0).val / 5000 := rfl
  intro d
  match d with
  | ⟨0, _⟩ => show win0_9.index t (0 : Fin 2) * 5000 ≤ (i 0).val ∧ (i 0).val < win0_9.index t (0 : Fin 2) * 5000 + 5000; omega
  | ⟨1, _⟩ => show win0_9.index t (1 : Fin 2) * 128 ≤ (i 1).val ∧ (i 1).val < win0_9.index t (1 : Fin 2) * 128 + 128; omega

/-- The region's output array after its run: `G` of its operand arrays. -/
theorem final0 : (dat0 (F := Ideal) V c).arrAt 9 cfg0.N
    = G (V c main_v20) (V c main_v22) (V c main_v37) (V c main_v38) (V c main_v39) (V c main_v40) (V c main_v41) (V c main_v34) (V c main_v42) :=
  (dat0 V c).arrAt_eq_of_cover 9 _ (fun t _ => flushed0_eq V c t) (cover0)
end

/-! ## Region 1 -/

/-- The printed index maps over region 1's grid: the first operand's and the output's blocks move down the rows with
    the point, every other window stays at its one block. -/
theorem idx_facts1 : ∀ t : Fin cfg1.N, win1_0.index t (0 : Fin 2) = t.val ∧ win1_0.index t (1 : Fin 2) = 0
    ∧ win1_9.index t (0 : Fin 2) = t.val ∧ win1_9.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = 0 ∧ win1_7.index t (1 : Fin 2) = 0
    ∧ win1_8.index t (0 : Fin 2) = 0 ∧ win1_8.index t (1 : Fin 2) = 0 :=
  (by decide +kernel : ∀ t : Fin grid1.N, _)

section
variable (V : (c : Dev nD) → (b : Ref sig .tc) → Buf (Elt Ideal) ((c : Thread nD τ).loc b)) (c : Dev nD) (t : Fin cfg1.N)

/-- Row `p` of the first operand's block at point `t` is row `5000 t + p` of its array. -/
theorem iblk1_rows (p : Fin 5000) (k : Fin 128) (r : Fin 100000) (hr : r.val = t.val * 5000 + p.val) :
    (iblk1 V c 0 t : Vec Ideal S5000x128 .f32) (ix2 p k) = (V c main_v59 : S100000x128.Idx → EReal) (ix2 r k) := by
  unfold iblk1
  rw [View.read_apply]
  show V c main_v59 _ = V c main_v59 _
  refine congrArg _ (funext fun d => Fin.ext ?_)
  obtain ⟨e0, e1, -⟩ := idx_facts1 t
  match d with
  | ⟨0, _⟩ => show win1_0.index t (0 : Fin 2) * 5000 + 1 * p.val = r.val; omega
  | ⟨1, _⟩ => show win1_0.index t (1 : Fin 2) * 128 + 1 * k.val = k.val; omega

/-- Entry `(p, q)` of the output's block at point `t` is entry `(5000 t + p, q)` of its array. -/
theorem blk1_emb (p : Fin 5000) (q : Fin 128) (r : Fin 100000) (hr : r.val = t.val * 5000 + p.val) :
    ((cfg1.win 9).blk t).view.emb (ix2 p q) = (ix2 r q : S100000x128.Idx) := by
  refine funext fun d => Fin.ext ?_
  obtain ⟨-, -, e0, e1, -⟩ := idx_facts1 t
  match d with
  | ⟨0, _⟩ => show win1_9.index t (0 : Fin 2) * 5000 + 1 * p.val = r.val; omega
  | ⟨1, _⟩ => show win1_9.index t (1 : Fin 2) * 128 + 1 * q.val = q.val; omega

/-- The `[128,128]` operand of window 1 is read whole at every point. -/
theorem iblk1_w1 (x y : Fin 128) :
    (iblk1 V c 1 t : Vec Ideal S128x128 .f32) (ix2 x y) = (V c main_v61 : S128x128.Idx → EReal) (ix2 x y) := by
  unfold iblk1
  rw [View.read_apply]
  show V c main_v61 _ = V c main_v61 _
  refine congrArg _ (funext fun d => Fin.ext ?_)
  have e := idx_facts1 t
  match d with
  | ⟨0, _⟩ => show win1_1.index t (0 : Fin 2) * 128 + 1 * x.val = x.val; omega
  | ⟨1, _⟩ => show win1_1.index t (1 : Fin 2) * 128 + 1 * y.val = y.val; omega

/-- The `[128,128]` operand of window 7 is read whole at every point. -/
theorem iblk1_w7 (x y : Fin 128) :
    (iblk1 V c 7 t : Vec Ideal S128x128 .f32) (ix2 x y) = (V c main_v73 : S128x128.Idx → EReal) (ix2 x y) := by
  unfold iblk1
  rw [View.read_apply]
  show V c main_v73 _ = V c main_v73 _
  refine congrArg _ (funext fun d => Fin.ext ?_)
  have e := idx_facts1 t
  match d with
  | ⟨0, _⟩ => show win1_7.index t (0 : Fin 2) * 128 + 1 * x.val = x.val; omega
  | ⟨1, _⟩ => show win1_7.index t (1 : Fin 2) * 128 + 1 * y.val = y.val; omega

/-- The `[1,128]` row of window 2 is read whole at every point. -/
theorem iblk1_w2 (k : Fin 128) :
    (iblk1 V c 2 t : Vec Ideal S1x128 .f32) (ix2 (0 : Fin 1) k) = (V c main_v76 : S1x128.Idx → EReal) (ix2 (0 : Fin 1) k) := by
  unfold iblk1
  rw [View.read_apply]
  show V c main_v76 _ = V c main_v76 _
  refine congrArg _ (funext fun d => Fin.ext ?_)
  have e := idx_facts1 t
  match d with
  | ⟨0, _⟩ => show win1_2.index t (0 : Fin 2) * 1 + 1 * 0 = 0; omega
  | ⟨1, _⟩ => show win1_2.index t (1 : Fin 2) * 128 + 1 * k.val = k.val; omega

/-- The `[1,128]` row of window 3 is read whole at every point. -/
theorem iblk1_w3 (k : Fin 128) :
    (iblk1 V c 3 t : Vec Ideal S1x128 .f32) (ix2 (0 : Fin 1) k) = (V c main_v77 : S1x128.Idx → EReal) (ix2 (0 : Fin 1) k) := by
  unfold iblk1
  rw [View.read_apply]
  show V c main_v77 _ = V c main_v77 _
  refine congrArg _ (funext fun d => Fin.ext ?_)
  have e := idx_facts1 t
  match d with
  | ⟨0, _⟩ => show win1_3.index t (0 : Fin 2) * 1 + 1 * 0 = 0; omega
  | ⟨1, _⟩ => show win1_3.index t (1 : Fin 2) * 128 + 1 * k.val = k.val; omega

/-- The `[1,128]` row of window 4 is read whole at every point. -/
theorem iblk1_w4 (k : Fin 128) :
    (iblk1 V c 4 t : Vec Ideal S1x128 .f32) (ix2 (0 : Fin 1) k) = (V c main_v78 : S1x128.Idx → EReal) (ix2 (0 : Fin 1) k) := by
  unfold iblk1
  rw [View.read_apply]
  show V c main_v78 _ = V c main_v78 _
  refine congrArg _ (funext fun d => Fin.ext ?_)
  have e := idx_facts1 t
  match d with
  | ⟨0, _⟩ => show win1_4.index t (0 : Fin 2) * 1 + 1 * 0 = 0; omega
  | ⟨1, _⟩ => show win1_4.index t (1 : Fin 2) * 128 + 1 * k.val = k.val; omega

/-- The `[1,128]` row of window 5 is read whole at every point. -/
theorem iblk1_w5 (k : Fin 128) :
    (iblk1 V c 5 t : Vec Ideal S1x128 .f32) (ix2 (0 : Fin 1) k) = (V c main_v79 : S1x128.Idx → EReal) (ix2 (0 : Fin 1) k) := by
  unfold iblk1
  rw [View.read_apply]
  show V c main_v79 _ = V c main_v79 _
  refine congrArg _ (funext fun d => Fin.ext ?_)
  have e := idx_facts1 t
  match d with
  | ⟨0, _⟩ => show win1_5.index t (0 : Fin 2) * 1 + 1 * 0 = 0; omega
  | ⟨1, _⟩ => show win1_5.index t (1 : Fin 2) * 128 + 1 * k.val = k.val; omega

/-- The `[1,128]` row of window 6 is read whole at every point. -/
theorem iblk1_w6 (k : Fin 128) :
    (iblk1 V c 6 t : Vec Ideal S1x128 .f32) (ix2 (0 : Fin 1) k) = (V c main_v80 : S1x128.Idx → EReal) (ix2 (0 : Fin 1) k) := by
  unfold iblk1
  rw [View.read_apply]
  show V c main_v80 _ = V c main_v80 _
  refine congrArg _ (funext fun d => Fin.ext ?_)
  have e := idx_facts1 t
  match d with
  | ⟨0, _⟩ => show win1_6.index t (0 : Fin 2) * 1 + 1 * 0 = 0; omega
  | ⟨1, _⟩ => show win1_6.index t (1 : Fin 2) * 128 + 1 * k.val = k.val; omega

/-- The `[1,128]` row of window 8 is read whole at every point. -/
theorem iblk1_w8 (k : Fin 128) :
    (iblk1 V c 8 t : Vec Ideal S1x128 .f32) (ix2 (0 : Fin 1) k) = (V c main_v81 : S1x128.Idx → EReal) (ix2 (0 : Fin 1) k) := by
  unfold iblk1
  rw [View.read_apply]
  show V c main_v81 _ = V c main_v81 _
  refine congrArg _ (funext fun d => Fin.ext ?_)
  have e := idx_facts1 t
  match d with
  | ⟨0, _⟩ => show win1_8.index t (0 : Fin 2) * 1 + 1 * 0 = 0; omega
  | ⟨1, _⟩ => show win1_8.index t (1 : Fin 2) * 128 + 1 * k.val = k.val; omega

/-- What point `t` writes back is block `t` of `G` of the region's operand arrays as it finds them. -/
theorem flushed1_eq :
    (dat1 (F := Ideal) V c).flushed 9 t = ((cfg1.win 9).blk t).view.read (Elt Ideal)
      (G (V c main_v59) (V c main_v61) (V c main_v76) (V c main_v77) (V c main_v78) (V c main_v79) (V c main_v80) (V c main_v73) (V c main_v81)) := by
  show (cfg1.win 9).cut (grid1.coords t) ((dat1 V c).after 9 t) = _
  rw [after1_9]
  unfold out1_9
  rw [View.canon_unit_zero hz]
  simp only [View.ld_unit_zero (S := S5000x128) hz, View.ld_unit_zero (S := S128x128) hz, View.ld_unit_zero (S := S1x128) hz]
  funext j
  obtain ⟨p, q, rfl⟩ : ∃ (p : Fin 5000) (q : Fin 128), j = ix2 p q := ⟨j 0, j 1, eq_ix2 j⟩
  have ht : t.val < 20 := Nat.lt_of_lt_of_eq t.isLt (N_1 : cfg1.N = 20)
  have hr : t.val * 5000 + p.val < 100000 := by have := p.isLt; omega
  rw [View.read_apply, blk1_emb t p q ⟨_, hr⟩ rfl]
  refine (Cert.KernelIdeal.Pay.pay1_apply _ _ _ _ _ _ _ _ _ p q).trans ?_
  unfold G
  simp only [iblk1_rows V c t p _ ⟨_, hr⟩ rfl, iblk1_w1 V c t, iblk1_w2 V c t, iblk1_w3 V c t, iblk1_w4 V c t,
    iblk1_w5 V c t, iblk1_w6 V c t, iblk1_w7 V c t, iblk1_w8 V c t]
  rfl

/-- Every row of the output array lies in the block of the point that covers it. -/
theorem cover1 (i : S100000x128.Idx) :
    ∃ t : Fin cfg1.N, (cfg1.win 9).flush t = true ∧ i ∈ ((cfg1.win 9).blk t).view.set := by
  have hi0 : (i 0).val < 100000 := (i 0).isLt
  have hi1 : (i 1).val < 128 := (i 1).isLt
  let t : Fin cfg1.N := ⟨(i 0).val / 5000, Nat.lt_of_lt_of_eq (by omega : (i 0).val / 5000 < 20) (N_1 : cfg1.N = 20).symm⟩
  refine ⟨t, flush1_9 t, ?_⟩
  show i ∈ ((View.whole main_v82).slice (win1_9.rect t)).set
  rw [View.set_slice_whole, Rect.mem_set_unit]
  obtain ⟨-, -, e0, e1, -⟩ := idx_facts1 t
  have ht : t.val = (i 0).val / 5000 := rfl
  intro d
  match d with
  | ⟨0, _⟩ => show win1_9.index t (0 : Fin 2) * 5000 ≤ (i 0).val ∧ (i 0).val < win1_9.index t (0 : Fin 2) * 5000 + 5000; omega
  | ⟨1, _⟩ => show win1_9.index t (1 : Fin 2) * 128 ≤ (i 1).val ∧ (i 1).val < win1_9.index t (1 : Fin 2) * 128 + 128; omega

/-- The region's output array after its run: `G` of its operand arrays. -/
theorem final1 : (dat1 (F := Ideal) V c).arrAt 9 cfg1.N
    = G (V c main_v59) (V c main_v61) (V c main_v76) (V c main_v77) (V c main_v78) (V c main_v79) (V c main_v80) (V c main_v73) (V c main_v81) :=
  (dat1 V c).arrAt_eq_of_cover 9 _ (fun t _ => flushed1_eq V c t) (cover1)
end

/-! ## Region 2 -/

/-- The printed index maps over region 2's grid: the first operand's and the output's blocks move down the rows with
    the point, every other window stays at its one block. -/
theorem idx_facts2 : ∀ t : Fin cfg2.N, win2_0.index t (0 : Fin 2) = t.val ∧ win2_0.index t (1 : Fin 2) = 0
    ∧ win2_9.index t (0 : Fin 2) = t.val ∧ win2_9.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = 0 ∧ win2_6.index t (1 : Fin 2) = 0
    ∧ win2_7.index t (0 : Fin 2) = 0 ∧ win2_7.index t (1 : Fin 2) = 0
    ∧ win2_8.index t (0 : Fin 2) = 0 ∧ win2_8.index t (1 : Fin 2) = 0 :=
  (by decide +kernel : ∀ t : Fin grid2.N, _)

section
variable (V : (c : Dev nD) → (b : Ref sig .tc) → Buf (Elt Ideal) ((c : Thread nD τ).loc b)) (c : Dev nD) (t : Fin cfg2.N)

/-- Row `p` of the first operand's block at point `t` is row `5000 t + p` of its array. -/
theorem iblk2_rows (p : Fin 5000) (k : Fin 128) (r : Fin 100000) (hr : r.val = t.val * 5000 + p.val) :
    (iblk2 V c 0 t : Vec Ideal S5000x128 .f32) (ix2 p k) = (V c main_v98 : S100000x128.Idx → EReal) (ix2 r k) := by
  unfold iblk2
  rw [View.read_apply]
  show V c main_v98 _ = V c main_v98 _
  refine congrArg _ (funext fun d => Fin.ext ?_)
  obtain ⟨e0, e1, -⟩ := idx_facts2 t
  match d with
  | ⟨0, _⟩ => show win2_0.index t (0 : Fin 2) * 5000 + 1 * p.val = r.val; omega
  | ⟨1, _⟩ => show win2_0.index t (1 : Fin 2) * 128 + 1 * k.val = k.val; omega

/-- Entry `(p, q)` of the output's block at point `t` is entry `(5000 t + p, q)` of its array. -/
theorem blk2_emb (p : Fin 5000) (q : Fin 128) (r : Fin 100000) (hr : r.val = t.val * 5000 + p.val) :
    ((cfg2.win 9).blk t).view.emb (ix2 p q) = (ix2 r q : S100000x128.Idx) := by
  refine funext fun d => Fin.ext ?_
  obtain ⟨-, -, e0, e1, -⟩ := idx_facts2 t
  match d with
  | ⟨0, _⟩ => show win2_9.index t (0 : Fin 2) * 5000 + 1 * p.val = r.val; omega
  | ⟨1, _⟩ => show win2_9.index t (1 : Fin 2) * 128 + 1 * q.val = q.val; omega

/-- The `[128,128]` operand of window 1 is read whole at every point. -/
theorem iblk2_w1 (x y : Fin 128) :
    (iblk2 V c 1 t : Vec Ideal S128x128 .f32) (ix2 x y) = (V c main_v100 : S128x128.Idx → EReal) (ix2 x y) := by
  unfold iblk2
  rw [View.read_apply]
  show V c main_v100 _ = V c main_v100 _
  refine congrArg _ (funext fun d => Fin.ext ?_)
  have e := idx_facts2 t
  match d with
  | ⟨0, _⟩ => show win2_1.index t (0 : Fin 2) * 128 + 1 * x.val = x.val; omega
  | ⟨1, _⟩ => show win2_1.index t (1 : Fin 2) * 128 + 1 * y.val = y.val; omega

/-- The `[128,128]` operand of window 7 is read whole at every point. -/
theorem iblk2_w7 (x y : Fin 128) :
    (iblk2 V c 7 t : Vec Ideal S128x128 .f32) (ix2 x y) = (V c main_v112 : S128x128.Idx → EReal) (ix2 x y) := by
  unfold iblk2
  rw [View.read_apply]
  show V c main_v112 _ = V c main_v112 _
  refine congrArg _ (funext fun d => Fin.ext ?_)
  have e := idx_facts2 t
  match d with
  | ⟨0, _⟩ => show win2_7.index t (0 : Fin 2) * 128 + 1 * x.val = x.val; omega
  | ⟨1, _⟩ => show win2_7.index t (1 : Fin 2) * 128 + 1 * y.val = y.val; omega

/-- The `[1,128]` row of window 2 is read whole at every point. -/
theorem iblk2_w2 (k : Fin 128) :
    (iblk2 V c 2 t : Vec Ideal S1x128 .f32) (ix2 (0 : Fin 1) k) = (V c main_v115 : S1x128.Idx → EReal) (ix2 (0 : Fin 1) k) := by
  unfold iblk2
  rw [View.read_apply]
  show V c main_v115 _ = V c main_v115 _
  refine congrArg _ (funext fun d => Fin.ext ?_)
  have e := idx_facts2 t
  match d with
  | ⟨0, _⟩ => show win2_2.index t (0 : Fin 2) * 1 + 1 * 0 = 0; omega
  | ⟨1, _⟩ => show win2_2.index t (1 : Fin 2) * 128 + 1 * k.val = k.val; omega

/-- The `[1,128]` row of window 3 is read whole at every point. -/
theorem iblk2_w3 (k : Fin 128) :
    (iblk2 V c 3 t : Vec Ideal S1x128 .f32) (ix2 (0 : Fin 1) k) = (V c main_v116 : S1x128.Idx → EReal) (ix2 (0 : Fin 1) k) := by
  unfold iblk2
  rw [View.read_apply]
  show V c main_v116 _ = V c main_v116 _
  refine congrArg _ (funext fun d => Fin.ext ?_)
  have e := idx_facts2 t
  match d with
  | ⟨0, _⟩ => show win2_3.index t (0 : Fin 2) * 1 + 1 * 0 = 0; omega
  | ⟨1, _⟩ => show win2_3.index t (1 : Fin 2) * 128 + 1 * k.val = k.val; omega

/-- The `[1,128]` row of window 4 is read whole at every point. -/
theorem iblk2_w4 (k : Fin 128) :
    (iblk2 V c 4 t : Vec Ideal S1x128 .f32) (ix2 (0 : Fin 1) k) = (V c main_v117 : S1x128.Idx → EReal) (ix2 (0 : Fin 1) k) := by
  unfold iblk2
  rw [View.read_apply]
  show V c main_v117 _ = V c main_v117 _
  refine congrArg _ (funext fun d => Fin.ext ?_)
  have e := idx_facts2 t
  match d with
  | ⟨0, _⟩ => show win2_4.index t (0 : Fin 2) * 1 + 1 * 0 = 0; omega
  | ⟨1, _⟩ => show win2_4.index t (1 : Fin 2) * 128 + 1 * k.val = k.val; omega

/-- The `[1,128]` row of window 5 is read whole at every point. -/
theorem iblk2_w5 (k : Fin 128) :
    (iblk2 V c 5 t : Vec Ideal S1x128 .f32) (ix2 (0 : Fin 1) k) = (V c main_v118 : S1x128.Idx → EReal) (ix2 (0 : Fin 1) k) := by
  unfold iblk2
  rw [View.read_apply]
  show V c main_v118 _ = V c main_v118 _
  refine congrArg _ (funext fun d => Fin.ext ?_)
  have e := idx_facts2 t
  match d with
  | ⟨0, _⟩ => show win2_5.index t (0 : Fin 2) * 1 + 1 * 0 = 0; omega
  | ⟨1, _⟩ => show win2_5.index t (1 : Fin 2) * 128 + 1 * k.val = k.val; omega

/-- The `[1,128]` row of window 6 is read whole at every point. -/
theorem iblk2_w6 (k : Fin 128) :
    (iblk2 V c 6 t : Vec Ideal S1x128 .f32) (ix2 (0 : Fin 1) k) = (V c main_v119 : S1x128.Idx → EReal) (ix2 (0 : Fin 1) k) := by
  unfold iblk2
  rw [View.read_apply]
  show V c main_v119 _ = V c main_v119 _
  refine congrArg _ (funext fun d => Fin.ext ?_)
  have e := idx_facts2 t
  match d with
  | ⟨0, _⟩ => show win2_6.index t (0 : Fin 2) * 1 + 1 * 0 = 0; omega
  | ⟨1, _⟩ => show win2_6.index t (1 : Fin 2) * 128 + 1 * k.val = k.val; omega

/-- The `[1,128]` row of window 8 is read whole at every point. -/
theorem iblk2_w8 (k : Fin 128) :
    (iblk2 V c 8 t : Vec Ideal S1x128 .f32) (ix2 (0 : Fin 1) k) = (V c main_v120 : S1x128.Idx → EReal) (ix2 (0 : Fin 1) k) := by
  unfold iblk2
  rw [View.read_apply]
  show V c main_v120 _ = V c main_v120 _
  refine congrArg _ (funext fun d => Fin.ext ?_)
  have e := idx_facts2 t
  match d with
  | ⟨0, _⟩ => show win2_8.index t (0 : Fin 2) * 1 + 1 * 0 = 0; omega
  | ⟨1, _⟩ => show win2_8.index t (1 : Fin 2) * 128 + 1 * k.val = k.val; omega

/-- What point `t` writes back is block `t` of `G` of the region's operand arrays as it finds them. -/
theorem flushed2_eq :
    (dat2 (F := Ideal) V c).flushed 9 t = ((cfg2.win 9).blk t).view.read (Elt Ideal)
      (G (V c main_v98) (V c main_v100) (V c main_v115) (V c main_v116) (V c main_v117) (V c main_v118) (V c main_v119) (V c main_v112) (V c main_v120)) := by
  show (cfg2.win 9).cut (grid2.coords t) ((dat2 V c).after 9 t) = _
  rw [after2_9]
  unfold out2_9
  rw [View.canon_unit_zero hz]
  simp only [View.ld_unit_zero (S := S5000x128) hz, View.ld_unit_zero (S := S128x128) hz, View.ld_unit_zero (S := S1x128) hz]
  funext j
  obtain ⟨p, q, rfl⟩ : ∃ (p : Fin 5000) (q : Fin 128), j = ix2 p q := ⟨j 0, j 1, eq_ix2 j⟩
  have ht : t.val < 20 := Nat.lt_of_lt_of_eq t.isLt (N_2 : cfg2.N = 20)
  have hr : t.val * 5000 + p.val < 100000 := by have := p.isLt; omega
  rw [View.read_apply, blk2_emb t p q ⟨_, hr⟩ rfl]
  refine (Cert.KernelIdeal.Pay.pay2_apply _ _ _ _ _ _ _ _ _ p q).trans ?_
  unfold G
  simp only [iblk2_rows V c t p _ ⟨_, hr⟩ rfl, iblk2_w1 V c t, iblk2_w2 V c t, iblk2_w3 V c t, iblk2_w4 V c t,
    iblk2_w5 V c t, iblk2_w6 V c t, iblk2_w7 V c t, iblk2_w8 V c t]
  rfl

/-- Every row of the output array lies in the block of the point that covers it. -/
theorem cover2 (i : S100000x128.Idx) :
    ∃ t : Fin cfg2.N, (cfg2.win 9).flush t = true ∧ i ∈ ((cfg2.win 9).blk t).view.set := by
  have hi0 : (i 0).val < 100000 := (i 0).isLt
  have hi1 : (i 1).val < 128 := (i 1).isLt
  let t : Fin cfg2.N := ⟨(i 0).val / 5000, Nat.lt_of_lt_of_eq (by omega : (i 0).val / 5000 < 20) (N_2 : cfg2.N = 20).symm⟩
  refine ⟨t, flush2_9 t, ?_⟩
  show i ∈ ((View.whole main_v121).slice (win2_9.rect t)).set
  rw [View.set_slice_whole, Rect.mem_set_unit]
  obtain ⟨-, -, e0, e1, -⟩ := idx_facts2 t
  have ht : t.val = (i 0).val / 5000 := rfl
  intro d
  match d with
  | ⟨0, _⟩ => show win2_9.index t (0 : Fin 2) * 5000 ≤ (i 0).val ∧ (i 0).val < win2_9.index t (0 : Fin 2) * 5000 + 5000; omega
  | ⟨1, _⟩ => show win2_9.index t (1 : Fin 2) * 128 ≤ (i 1).val ∧ (i 1).val < win2_9.index t (1 : Fin 2) * 128 + 128; omega

/-- The region's output array after its run: `G` of its operand arrays. -/
theorem final2 : (dat2 (F := Ideal) V c).arrAt 9 cfg2.N
    = G (V c main_v98) (V c main_v100) (V c main_v115) (V c main_v116) (V c main_v117) (V c main_v118) (V c main_v119) (V c main_v112) (V c main_v120) :=
  (dat2 V c).arrAt_eq_of_cover 9 _ (fun t _ => flushed2_eq V c t) (cover2)
end

end Cert.KernelIdeal.Arr

end
-- ==== Proof.RefLayer1.lean ====
/-
  The reference's layer 1, read at one output element.

  Layer 1's input is the reference's `%20` (the first argument plus the scatter-add `%19`); its parameters are
  the first slices of the stacked weight arrays.
  Reading the reference's operations one at a time from the layer's last clamp down to the nine arrays a layer is
  made of (the input row, the two weight matrices, the two biases and the four normalisation vectors), and naming
  every composed index by its coordinates, leaves exactly the row formula `Cert.Spec.rowLayer` with the reference's
  spelling of the scale, `γ / sqrt (σ² + ε)`.
-/
import proofs.«143124_j79869211837073_2_alg».proof.Proof.RefRead
import proofs.«143124_j79869211837073_2_alg».proof.Proof.Spec
import Idealize.ShloMosaic.Lib.ValueIdx

noncomputable section

namespace Cert.RefLayer

open Idealize.ShloMosaic Idealize.ShloMosaic.ValueIdx Cert.ReferenceIdeal Cert.ReferenceIdeal.Read

/-! Composed indices, named by their coordinates. -/

theorem lidx53 (r : Fin 100000) (j k : Fin 128) : lidx_main_v53 (ix2 r j) k = ix2 r k :=
  funext fun a => Fin.ext (by match a with | ⟨0, _⟩ => rfl | ⟨1, _⟩ => rfl)
theorem ridx53 (r : Fin 100000) (j k : Fin 128) : ridx_main_v53 (ix2 r j) k = ix2 k j :=
  funext fun a => Fin.ext (by match a with | ⟨0, _⟩ => rfl | ⟨1, _⟩ => rfl)
theorem lidx23 (r : Fin 100000) (j k : Fin 128) : lidx_main_v23 (ix2 r j) k = ix2 r k :=
  funext fun a => Fin.ext (by match a with | ⟨0, _⟩ => rfl | ⟨1, _⟩ => rfl)
theorem ridx23 (r : Fin 100000) (j k : Fin 128) : ridx_main_v23 (ix2 r j) k = ix2 k j :=
  funext fun a => Fin.ext (by match a with | ⟨0, _⟩ => rfl | ⟨1, _⟩ => rfl)
theorem idx27 (r : Fin 100000) (k : Fin 128) : idx_main_v26 (idx_main_v27 (ix2 r k)) = ix1 k :=
  funext fun a => Fin.ext (by match a with | ⟨0, _⟩ => rfl)
theorem idx32 (r : Fin 100000) (k : Fin 128) : idx_main_v31 (idx_main_v32 (ix2 r k)) = ix1 k :=
  funext fun a => Fin.ext (by match a with | ⟨0, _⟩ => rfl)
theorem idx43 (r : Fin 100000) (k : Fin 128) : idx_main_v42 (idx_main_v43 (ix2 r k)) = ix1 k :=
  funext fun a => Fin.ext (by match a with | ⟨0, _⟩ => rfl)
theorem idx48 (r : Fin 100000) (k : Fin 128) : idx_main_v47 (idx_main_v48 (ix2 r k)) = ix1 k :=
  funext fun a => Fin.ext (by match a with | ⟨0, _⟩ => rfl)
theorem idx57 (r : Fin 100000) (k : Fin 128) : idx_main_v56 (idx_main_v57 (ix2 r k)) = ix1 k :=
  funext fun a => Fin.ext (by match a with | ⟨0, _⟩ => rfl)

/-- The reference's first layer at row `r`, column `j`, is the row formula on the row `r` of the layer's input. -/
theorem ref_layer1 (x0 : (⟨S100000x128, .f32⟩ : BufTy).Contents (Elt Ideal)) (x1 : (⟨S2x1600000, .i32⟩ : BufTy).Contents (Elt Ideal))
    (x3 : (⟨S3x128x128, .f32⟩ : BufTy).Contents (Elt Ideal)) (x4 x5 x6 x7 x8 : (⟨S3x128, .f32⟩ : BufTy).Contents (Elt Ideal))
    (x9 : (⟨S3x128x128, .f32⟩ : BufTy).Contents (Elt Ideal)) (x10 : (⟨S3x128, .f32⟩ : BufTy).Contents (Elt Ideal))
    (r : Fin 100000) (j : Fin 128) :
    val_main_v59 (F := Ideal) x0 x1 x3 x4 x5 x6 x7 x8 x9 x10 (ix2 r j)
      = Cert.Spec.rowLayer Cert.Spec.scaleR (fun k => val_main_v20 (F := Ideal) x0 x1 (ix2 r k))
          (fun a b => val_main_v22 (F := Ideal) x3 (ix2 a b))
          (fun k => val_main_v25 (F := Ideal) x4 (ix1 k)) (fun k => val_main_v35 (F := Ideal) x5 (ix1 k))
          (fun k => val_main_v46 (F := Ideal) x6 (ix1 k)) (fun k => val_main_v30 (F := Ideal) x7 (ix1 k))
          (fun k => val_main_v37 (F := Ideal) x8 (ix1 k))
          (fun a b => val_main_v52 (F := Ideal) x9 (ix2 a b)) (fun k => val_main_v55 (F := Ideal) x10 (ix1 k)) j := by
  rw [val_main_v59_apply, val_main_call1_v0_apply, val_main_call1_cst_apply, val_main_v58_apply, val_main_v57_apply,
    val_main_v56_apply, val_main_v53_apply]
  simp only [val_main_v50_apply, val_main_call0_v0_apply, val_main_call0_cst_apply, val_main_v49_apply,
    val_main_v48_apply, val_main_v47_apply, val_main_v44_apply, val_main_v43_apply, val_main_v42_apply,
    val_main_v41_apply, val_main_v40_apply, val_main_v39_apply, val_main_v38_apply, val_main_cst_4_apply,
    val_main_v33_apply, val_main_v32_apply, val_main_v31_apply, val_main_v28_apply, val_main_v27_apply,
    val_main_v26_apply, val_main_v23_apply,
    lidx53, ridx53, lidx23, ridx23, idx27, idx32, idx43, idx48, idx57,
    Ideal.maximumf_def, Ideal.addf_def, Ideal.subf_def, Ideal.mulf_def, Ideal.hostDivf_def, Ideal.hostUnary_sqrt_def,
    Ideal.ofBits_def]
  unfold Cert.Spec.rowLayer Cert.Spec.hidden Cert.Spec.scaleR
  rfl

end Cert.RefLayer

end
-- ==== Proof.RefLayer2.lean ====
/-
  The reference's layer 2, read at one output element.

  Layer 2's input is the reference's `%75` (layer 1's output `%59` plus the scatter-add `%74`); its parameters
  are the second slices of the stacked weight arrays.
  Reading the reference's operations one at a time from the layer's last clamp down to the nine arrays a layer is
  made of (the input row, the two weight matrices, the two biases and the four normalisation vectors), and naming
  every composed index by its coordinates, leaves exactly the row formula `Cert.Spec.rowLayer` with the reference's
  spelling of the scale, `γ / sqrt (σ² + ε)`.
-/
import proofs.«143124_j79869211837073_2_alg».proof.Proof.RefRead
import proofs.«143124_j79869211837073_2_alg».proof.Proof.Spec
import Idealize.ShloMosaic.Lib.ValueIdx

noncomputable section

namespace Cert.RefLayer

open Idealize.ShloMosaic Idealize.ShloMosaic.ValueIdx Cert.ReferenceIdeal Cert.ReferenceIdeal.Read

/-! Composed indices, named by their coordinates. -/

theorem lidx108 (r : Fin 100000) (j k : Fin 128) : lidx_main_v108 (ix2 r j) k = ix2 r k :=
  funext fun a => Fin.ext (by match a with | ⟨0, _⟩ => rfl | ⟨1, _⟩ => rfl)
theorem ridx108 (r : Fin 100000) (j k : Fin 128) : ridx_main_v108 (ix2 r j) k = ix2 k j :=
  funext fun a => Fin.ext (by match a with | ⟨0, _⟩ => rfl | ⟨1, _⟩ => rfl)
theorem lidx78 (r : Fin 100000) (j k : Fin 128) : lidx_main_v78 (ix2 r j) k = ix2 r k :=
  funext fun a => Fin.ext (by match a with | ⟨0, _⟩ => rfl | ⟨1, _⟩ => rfl)
theorem ridx78 (r : Fin 100000) (j k : Fin 128) : ridx_main_v78 (ix2 r j) k = ix2 k j :=
  funext fun a => Fin.ext (by match a with | ⟨0, _⟩ => rfl | ⟨1, _⟩ => rfl)
theorem idx82 (r : Fin 100000) (k : Fin 128) : idx_main_v81 (idx_main_v82 (ix2 r k)) = ix1 k :=
  funext fun a => Fin.ext (by match a with | ⟨0, _⟩ => rfl)
theorem idx87 (r : Fin 100000) (k : Fin 128) : idx_main_v86 (idx_main_v87 (ix2 r k)) = ix1 k :=
  funext fun a => Fin.ext (by match a with | ⟨0, _⟩ => rfl)
theorem idx98 (r : Fin 100000) (k : Fin 128) : idx_main_v97 (idx_main_v98 (ix2 r k)) = ix1 k :=
  funext fun a => Fin.ext (by match a with | ⟨0, _⟩ => rfl)
theorem idx103 (r : Fin 100000) (k : Fin 128) : idx_main_v102 (idx_main_v103 (ix2 r k)) = ix1 k :=
  funext fun a => Fin.ext (by match a with | ⟨0, _⟩ => rfl)
theorem idx112 (r : Fin 100000) (k : Fin 128) : idx_main_v111 (idx_main_v112 (ix2 r k)) = ix1 k :=
  funext fun a => Fin.ext (by match a with | ⟨0, _⟩ => rfl)

/-- The reference's second layer at row `r`, column `j`, is the row formula on the row `r` of the layer's input. -/
theorem ref_layer2 (x0 : (⟨S100000x128, .f32⟩ : BufTy).Contents (Elt Ideal)) (x1 : (⟨S2x1600000, .i32⟩ : BufTy).Contents (Elt Ideal))
    (x3 : (⟨S3x128x128, .f32⟩ : BufTy).Contents (Elt Ideal)) (x4 x5 x6 x7 x8 : (⟨S3x128, .f32⟩ : BufTy).Contents (Elt Ideal))
    (x9 : (⟨S3x128x128, .f32⟩ : BufTy).Contents (Elt Ideal)) (x10 : (⟨S3x128, .f32⟩ : BufTy).Contents (Elt Ideal))
    (r : Fin 100000) (j : Fin 128) :
    val_main_v114 (F := Ideal) x0 x1 x3 x4 x5 x6 x7 x8 x9 x10 (ix2 r j)
      = Cert.Spec.rowLayer Cert.Spec.scaleR (fun k => val_main_v75 (F := Ideal) x0 x1 x3 x4 x5 x6 x7 x8 x9 x10 (ix2 r k))
          (fun a b => val_main_v77 (F := Ideal) x3 (ix2 a b))
          (fun k => val_main_v80 (F := Ideal) x4 (ix1 k)) (fun k => val_main_v90 (F := Ideal) x5 (ix1 k))
          (fun k => val_main_v101 (F := Ideal) x6 (ix1 k)) (fun k => val_main_v85 (F := Ideal) x7 (ix1 k))
          (fun k => val_main_v92 (F := Ideal) x8 (ix1 k))
          (fun a b => val_main_v107 (F := Ideal) x9 (ix2 a b)) (fun k => val_main_v110 (F := Ideal) x10 (ix1 k)) j := by
  rw [val_main_v114_apply, val_main_call3_v0_apply, val_main_call3_cst_apply, val_main_v113_apply, val_main_v112_apply,
    val_main_v111_apply, val_main_v108_apply]
  simp only [val_main_v105_apply, val_main_call2_v0_apply, val_main_call2_cst_apply, val_main_v104_apply,
    val_main_v103_apply, val_main_v102_apply, val_main_v99_apply, val_main_v98_apply, val_main_v97_apply,
    val_main_v96_apply, val_main_v95_apply, val_main_v94_apply, val_main_v93_apply, val_main_cst_9_apply,
    val_main_v88_apply, val_main_v87_apply, val_main_v86_apply, val_main_v83_apply, val_main_v82_apply,
    val_main_v81_apply, val_main_v78_apply,
    lidx108, ridx108, lidx78, ridx78, idx82, idx87, idx98, idx103, idx112,
    Ideal.maximumf_def, Ideal.addf_def, Ideal.subf_def, Ideal.mulf_def, Ideal.hostDivf_def, Ideal.hostUnary_sqrt_def,
    Ideal.ofBits_def]
  unfold Cert.Spec.rowLayer Cert.Spec.hidden Cert.Spec.scaleR
  rfl

end Cert.RefLayer

end
-- ==== Proof.RefLayer3.lean ====
/-
  The reference's layer 3, read at one output element.

  Layer 3's input is the reference's `%130` (layer 2's output `%114` plus the scatter-add `%129`); its
  parameters are the third slices of the stacked weight arrays.
  Reading the reference's operations one at a time from the layer's last clamp down to the nine arrays a layer is
  made of (the input row, the two weight matrices, the two biases and the four normalisation vectors), and naming
  every composed index by its coordinates, leaves exactly the row formula `Cert.Spec.rowLayer` with the reference's
  spelling of the scale, `γ / sqrt (σ² + ε)`.
-/
import proofs.«143124_j79869211837073_2_alg».proof.Proof.RefRead
import proofs.«143124_j79869211837073_2_alg».proof.Proof.Spec
import Idealize.ShloMosaic.Lib.ValueIdx

noncomputable section

namespace Cert.RefLayer

open Idealize.ShloMosaic Idealize.ShloMosaic.ValueIdx Cert.ReferenceIdeal Cert.ReferenceIdeal.Read

/-! Composed indices, named by their coordinates. -/

theorem lidx163 (r : Fin 100000) (j k : Fin 128) : lidx_main_v163 (ix2 r j) k = ix2 r k :=
  funext fun a => Fin.ext (by match a with | ⟨0, _⟩ => rfl | ⟨1, _⟩ => rfl)
theorem ridx163 (r : Fin 100000) (j k : Fin 128) : ridx_main_v163 (ix2 r j) k = ix2 k j :=
  funext fun a => Fin.ext (by match a with | ⟨0, _⟩ => rfl | ⟨1, _⟩ => rfl)
theorem lidx133 (r : Fin 100000) (j k : Fin 128) : lidx_main_v133 (ix2 r j) k = ix2 r k :=
  funext fun a => Fin.ext (by match a with | ⟨0, _⟩ => rfl | ⟨1, _⟩ => rfl)
theorem ridx133 (r : Fin 100000) (j k : Fin 128) : ridx_main_v133 (ix2 r j) k = ix2 k j :=
  funext fun a => Fin.ext (by match a with | ⟨0, _⟩ => rfl | ⟨1, _⟩ => rfl)
theorem idx137 (r : Fin 100000) (k : Fin 128) : idx_main_v136 (idx_main_v137 (ix2 r k)) = ix1 k :=
  funext fun a => Fin.ext (by match a with | ⟨0, _⟩ => rfl)
theorem idx142 (r : Fin 100000) (k : Fin 128) : idx_main_v141 (idx_main_v142 (ix2 r k)) = ix1 k :=
  funext fun a => Fin.ext (by match a with | ⟨0, _⟩ => rfl)
theorem idx153 (r : Fin 100000) (k : Fin 128) : idx_main_v152 (idx_main_v153 (ix2 r k)) = ix1 k :=
  funext fun a => Fin.ext (by match a with | ⟨0, _⟩ => rfl)
theorem idx158 (r : Fin 100000) (k : Fin 128) : idx_main_v157 (idx_main_v158 (ix2 r k)) = ix1 k :=
  funext fun a => Fin.ext (by match a with | ⟨0, _⟩ => rfl)
theorem idx167 (r : Fin 100000) (k : Fin 128) : idx_main_v166 (idx_main_v167 (ix2 r k)) = ix1 k :=
  funext fun a => Fin.ext (by match a with | ⟨0, _⟩ => rfl)

/-- The reference's third layer at row `r`, column `j`, is the row formula on the row `r` of the layer's input. -/
theorem ref_layer3 (x0 : (⟨S100000x128, .f32⟩ : BufTy).Contents (Elt Ideal)) (x1 : (⟨S2x1600000, .i32⟩ : BufTy).Contents (Elt Ideal))
    (x3 : (⟨S3x128x128, .f32⟩ : BufTy).Contents (Elt Ideal)) (x4 x5 x6 x7 x8 : (⟨S3x128, .f32⟩ : BufTy).Contents (Elt Ideal))
    (x9 : (⟨S3x128x128, .f32⟩ : BufTy).Contents (Elt Ideal)) (x10 : (⟨S3x128, .f32⟩ : BufTy).Contents (Elt Ideal))
    (r : Fin 100000) (j : Fin 128) :
    val_main_v169 (F := Ideal) x0 x1 x3 x4 x5 x6 x7 x8 x9 x10 (ix2 r j)
      = Cert.Spec.rowLayer Cert.Spec.scaleR (fun k => val_main_v130 (F := Ideal) x0 x1 x3 x4 x5 x6 x7 x8 x9 x10 (ix2 r k))
          (fun a b => val_main_v132 (F := Ideal) x3 (ix2 a b))
          (fun k => val_main_v135 (F := Ideal) x4 (ix1 k)) (fun k => val_main_v145 (F := Ideal) x5 (ix1 k))
          (fun k => val_main_v156 (F := Ideal) x6 (ix1 k)) (fun k => val_main_v140 (F := Ideal) x7 (ix1 k))
          (fun k => val_main_v147 (F := Ideal) x8 (ix1 k))
          (fun a b => val_main_v162 (F := Ideal) x9 (ix2 a b)) (fun k => val_main_v165 (F := Ideal) x10 (ix1 k)) j := by
  rw [val_main_v169_apply, val_main_call5_v0_apply, val_main_call5_cst_apply, val_main_v168_apply, val_main_v167_apply,
    val_main_v166_apply, val_main_v163_apply]
  simp only [val_main_v160_apply, val_main_call4_v0_apply, val_main_call4_cst_apply, val_main_v159_apply,
    val_main_v158_apply, val_main_v157_apply, val_main_v154_apply, val_main_v153_apply, val_main_v152_apply,
    val_main_v151_apply, val_main_v150_apply, val_main_v149_apply, val_main_v148_apply, val_main_cst_14_apply,
    val_main_v143_apply, val_main_v142_apply, val_main_v141_apply, val_main_v138_apply, val_main_v137_apply,
    val_main_v136_apply, val_main_v133_apply,
    lidx163, ridx163, lidx133, ridx133, idx137, idx142, idx153, idx158, idx167,
    Ideal.maximumf_def, Ideal.addf_def, Ideal.subf_def, Ideal.mulf_def, Ideal.hostDivf_def, Ideal.hostUnary_sqrt_def,
    Ideal.ofBits_def]
  unfold Cert.Spec.rowLayer Cert.Spec.hidden Cert.Spec.scaleR
  rfl

end Cert.RefLayer

end
-- ==== Proof.RefVar.lean ====
/-
  The reference's per-layer variance rows.  The reference holds the three layers' variances stacked as one 3 × 128
  array; layer ℓ takes row ℓ by a slice and drops the unit axis by a reshape.  Entry `k` of the row so obtained is
  entry `(ℓ, k)` of the stacked array.
-/
import proofs.«143124_j79869211837073_2_alg».proof.Proof.RefRead
import Idealize.ShloMosaic.Lib.ValueIdx

namespace Cert.RefVar

open Idealize.ShloMosaic Idealize.ShloMosaic.ValueIdx Cert.ReferenceIdeal Cert.ReferenceIdeal.Read

/-- Layer 1's variance row: row 0 of the stacked variances, read entry by entry (the slice keeps row 0; the
    reshape to one axis reads column `k` of the one kept row). -/
theorem var_row1 (x8 : (⟨S3x128, .f32⟩ : BufTy).Contents (Elt Ideal)) (k : Fin 128) :
    val_main_v37 (F := Ideal) x8 (ix1 k) = x8 (ix2 (0 : Fin 3) k) := by
  rw [val_main_v37_apply, val_main_v36_apply]
  exact congrArg x8 (funext fun a => Fin.ext (by
    match a with
    | ⟨0, _⟩ => rfl
    | ⟨1, _⟩ => exact Nat.mod_eq_of_lt k.isLt))

/-- Layer 2's variance row: row 1 of the stacked variances, read entry by entry (the slice keeps row 1; the
    reshape to one axis reads column `k` of the one kept row). -/
theorem var_row2 (x8 : (⟨S3x128, .f32⟩ : BufTy).Contents (Elt Ideal)) (k : Fin 128) :
    val_main_v92 (F := Ideal) x8 (ix1 k) = x8 (ix2 (1 : Fin 3) k) := by
  rw [val_main_v92_apply, val_main_v91_apply]
  exact congrArg x8 (funext fun a => Fin.ext (by
    match a with
    | ⟨0, _⟩ => rfl
    | ⟨1, _⟩ => exact Nat.mod_eq_of_lt k.isLt))

/-- Layer 3's variance row: row 2 of the stacked variances, read entry by entry (the slice keeps row 2; the
    reshape to one axis reads column `k` of the one kept row). -/
theorem var_row3 (x8 : (⟨S3x128, .f32⟩ : BufTy).Contents (Elt Ideal)) (k : Fin 128) :
    val_main_v147 (F := Ideal) x8 (ix1 k) = x8 (ix2 (2 : Fin 3) k) := by
  rw [val_main_v147_apply, val_main_v146_apply]
  exact congrArg x8 (funext fun a => Fin.ext (by
    match a with
    | ⟨0, _⟩ => rfl
    | ⟨1, _⟩ => exact Nat.mod_eq_of_lt k.isLt))

end Cert.RefVar
-- ==== Proof.KI.Val.lean ====
/-
  The idealized kernel program's buffers, boundary by boundary, as the reference's stages of the argument arrays.

  Between two kernel regions the program applies the same host operations as the reference (the neighbour sums,
  the per-graph means, the slices of the parameter stacks); a kernel region stands where the reference applies a
  layer on the host.  So every buffer the program holds at a boundary is ONE of the reference's stages of the
  argument arrays: a host stretch's results by reading the stretch's operations off the buffers it starts from, a
  region's output array because, row by row, it is the one-row layer of the region's first operand — the
  kernel's spelling of the scale agreeing with the reference's where every variance plus ε is positive.
-/
import proofs.«143124_j79869211837073_2_alg».proof.Proof.KI.Data
import proofs.«143124_j79869211837073_2_alg».proof.Proof.KI.Arr
import proofs.«143124_j79869211837073_2_alg».proof.Proof.RefRead
import proofs.«143124_j79869211837073_2_alg».proof.Proof.RefLayer1
import proofs.«143124_j79869211837073_2_alg».proof.Proof.RefLayer2
import proofs.«143124_j79869211837073_2_alg».proof.Proof.RefLayer3
import proofs.«143124_j79869211837073_2_alg».proof.Proof.RefVar
import Idealize.ShloMosaic.Lib.ValueIdx
import Idealize.ShloMosaic.Lib.ValueLayout
import Idealize.ShloMosaic.Lib.StableHlo.Run

set_option maxRecDepth 16384

noncomputable section

namespace Cert.KernelIdeal.Val

open Idealize.ShloMosaic Idealize.ShloMosaic.TcCoe Idealize.ShloMosaic.ValueIdx Idealize.SL.Sem Idealize.ShloMosaic.StableHlo
open Cert.KernelIdeal Cert.KernelIdeal.Gen Cert.KernelIdeal.Fr

variable (m : (ℓ : Loc nD τ sig) → Buf (Elt Ideal) ℓ) (c : Dev nD)

/-- An argument array as launched. -/
abbrev A (b : Ref sig .tc) : Buf (Elt Ideal) ((c.tc : Thread nD τ).loc b) := m ((c.tc : Thread nD τ).loc b)

/-! ## The first host stretch -/

/-- Entry `(l, k)` of the variance stack as launched. -/
def varAt (l : Fin 3) (k : Fin 128) : EReal := (m ((c.tc : Thread nD τ).loc main_arg8) : S3x128.Idx → EReal) (ix2 l k)
set_option maxHeartbeats 2000000 in
theorem s0_v20 : W1 m c (Proc.devRef .tc main_v20) = Cert.ReferenceIdeal.Read.val_main_v20 (F := Ideal) (A m c main_arg0) (A m c main_arg1) := by
  after_results_simp
  rfl
set_option maxHeartbeats 2000000 in
theorem s0_v22 : W1 m c (Proc.devRef .tc main_v22) = Cert.ReferenceIdeal.Read.val_main_v22 (F := Ideal) (A m c main_arg3) := by
  after_results_simp
  rfl
set_option maxHeartbeats 2000000 in
theorem s0_v34 : W1 m c (Proc.devRef .tc main_v34) = Cert.ReferenceIdeal.Read.val_main_v52 (F := Ideal) (A m c main_arg9) := by
  after_results_simp
  rfl
set_option maxHeartbeats 2000000 in
theorem s0_v1 : W1 m c (Proc.devRef .tc main_v1) = Cert.ReferenceIdeal.Read.val_main_v1 (F := Ideal) (A m c main_arg1) := by
  after_results_simp
  rfl
set_option maxHeartbeats 2000000 in
theorem s0_v3 : W1 m c (Proc.devRef .tc main_v3) = Cert.ReferenceIdeal.Read.val_main_v3 (F := Ideal) (A m c main_arg1) := by
  after_results_simp
  rfl
set_option maxHeartbeats 2000000 in
theorem s0_v9 : W1 m c (Proc.devRef .tc main_v9) = Cert.ReferenceIdeal.Read.val_main_v9 (F := Ideal) (A m c main_arg2) := by
  after_results_simp
  rfl
set_option maxHeartbeats 2000000 in
theorem s0_row37 (k : Fin 128) : (W1 m c (Proc.devRef .tc main_v37) : S1x128.Idx → EReal) (ix2 (0 : Fin 1) k) = Cert.ReferenceIdeal.Read.val_main_v25 (F := Ideal) (A m c main_arg4) (ix1 k) := by
  after_results_simp
  exact shapeCast_a_1a_apply _ _ (0 : Fin 1) k
set_option maxHeartbeats 2000000 in
theorem s0_row38 (k : Fin 128) : (W1 m c (Proc.devRef .tc main_v38) : S1x128.Idx → EReal) (ix2 (0 : Fin 1) k) = Cert.ReferenceIdeal.Read.val_main_v35 (F := Ideal) (A m c main_arg5) (ix1 k) := by
  after_results_simp
  exact shapeCast_a_1a_apply _ _ (0 : Fin 1) k
set_option maxHeartbeats 2000000 in
theorem s0_row39 (k : Fin 128) : (W1 m c (Proc.devRef .tc main_v39) : S1x128.Idx → EReal) (ix2 (0 : Fin 1) k) = Cert.ReferenceIdeal.Read.val_main_v46 (F := Ideal) (A m c main_arg6) (ix1 k) := by
  after_results_simp
  exact shapeCast_a_1a_apply _ _ (0 : Fin 1) k
set_option maxHeartbeats 2000000 in
theorem s0_row40 (k : Fin 128) : (W1 m c (Proc.devRef .tc main_v40) : S1x128.Idx → EReal) (ix2 (0 : Fin 1) k) = Cert.ReferenceIdeal.Read.val_main_v30 (F := Ideal) (A m c main_arg7) (ix1 k) := by
  after_results_simp
  exact shapeCast_a_1a_apply _ _ (0 : Fin 1) k
set_option maxHeartbeats 2000000 in
theorem s0_row41 (k : Fin 128) : (W1 m c (Proc.devRef .tc main_v41) : S1x128.Idx → EReal) (ix2 (0 : Fin 1) k) = Cert.ReferenceIdeal.Read.val_main_v37 (F := Ideal) (A m c main_arg8) (ix1 k) := by
  after_results_simp
  exact shapeCast_a_1a_apply _ _ (0 : Fin 1) k
set_option maxHeartbeats 2000000 in
theorem s0_row42 (k : Fin 128) : (W1 m c (Proc.devRef .tc main_v42) : S1x128.Idx → EReal) (ix2 (0 : Fin 1) k) = Cert.ReferenceIdeal.Read.val_main_v55 (F := Ideal) (A m c main_arg10) (ix1 k) := by
  after_results_simp
  exact shapeCast_a_1a_apply _ _ (0 : Fin 1) k
theorem s0_arg2 : W1 m c (Proc.devRef .tc main_arg2) = A m c main_arg2 := by
  after_results_simp
theorem s0_arg3 : W1 m c (Proc.devRef .tc main_arg3) = A m c main_arg3 := by
  after_results_simp
theorem s0_arg4 : W1 m c (Proc.devRef .tc main_arg4) = A m c main_arg4 := by
  after_results_simp
theorem s0_arg5 : W1 m c (Proc.devRef .tc main_arg5) = A m c main_arg5 := by
  after_results_simp
theorem s0_arg6 : W1 m c (Proc.devRef .tc main_arg6) = A m c main_arg6 := by
  after_results_simp
theorem s0_arg7 : W1 m c (Proc.devRef .tc main_arg7) = A m c main_arg7 := by
  after_results_simp
theorem s0_arg8 : W1 m c (Proc.devRef .tc main_arg8) = A m c main_arg8 := by
  after_results_simp
theorem s0_arg9 : W1 m c (Proc.devRef .tc main_arg9) = A m c main_arg9 := by
  after_results_simp
theorem s0_arg10 : W1 m c (Proc.devRef .tc main_arg10) = A m c main_arg10 := by
  after_results_simp
theorem s0_arg11 : W1 m c (Proc.devRef .tc main_arg11) = A m c main_arg11 := by
  after_results_simp
theorem s0_arg12 : W1 m c (Proc.devRef .tc main_arg12) = A m c main_arg12 := by
  after_results_simp
theorem s0_arg13 : W1 m c (Proc.devRef .tc main_arg13) = A m c main_arg13 := by
  after_results_simp
theorem s0_arg14 : W1 m c (Proc.devRef .tc main_arg14) = A m c main_arg14 := by
  after_results_simp

/-! ## Region 0 -/

set_option maxHeartbeats 2000000 in
theorem r0 (hpos : ∀ (l : Fin 3) (k : Fin 128), 0 < varAt m c l k + Cert.Spec.eps) :
    W2 m c (Proc.devRef .tc main_v43) = Cert.ReferenceIdeal.Read.val_main_v59 (F := Ideal) (A m c main_arg0) (A m c main_arg1) (A m c main_arg3) (A m c main_arg4) (A m c main_arg5) (A m c main_arg6) (A m c main_arg7) (A m c main_arg8) (A m c main_arg9) (A m c main_arg10) := by
  refine (W2_arr m c 9).trans ((Cert.KernelIdeal.Arr.final0 (V1 m) c).trans ?_)
  funext i
  obtain ⟨r, j, rfl⟩ : ∃ (r : Fin 100000) (j : Fin 128), i = ix2 r j := ⟨i 0, i 1, eq_ix2 i⟩
  refine Eq.trans ?_ (Cert.RefLayer.ref_layer1 _ _ _ _ _ _ _ _ _ _ r j).symm
  unfold Cert.KernelIdeal.Arr.G
  refine Cert.Spec.layer_bridge _ _ _ _ _ _ _ _ _ _ _ _ _ _ _ _ _ _ j ?_ ?_ ?_ ?_ ?_ ?_ ?_ ?_ ?_ ?_
  · exact funext fun k => congrFun (s0_v20 m c) (ix2 r k)
  · exact funext fun x => funext fun y => congrFun (s0_v22 m c) (ix2 x y)
  · exact funext (s0_row37 m c)
  · exact funext (s0_row38 m c)
  · exact funext (s0_row39 m c)
  · exact funext (s0_row40 m c)
  · exact funext (s0_row41 m c)
  · exact funext fun x => funext fun y => congrFun (s0_v34 m c) (ix2 x y)
  · exact funext (s0_row42 m c)
  · intro k
    rw [Cert.RefVar.var_row1]
    exact hpos 0 k

/-! ## What region 0 leaves untouched -/

theorem c2_v1 : W2 m c (Proc.devRef .tc main_v1) = Cert.ReferenceIdeal.Read.val_main_v1 (F := Ideal) (A m c main_arg1) :=
  (W2_of_ne m c main_v1 (by decide)).trans (s0_v1 m c)
theorem c2_v3 : W2 m c (Proc.devRef .tc main_v3) = Cert.ReferenceIdeal.Read.val_main_v3 (F := Ideal) (A m c main_arg1) :=
  (W2_of_ne m c main_v3 (by decide)).trans (s0_v3 m c)
theorem c2_v9 : W2 m c (Proc.devRef .tc main_v9) = Cert.ReferenceIdeal.Read.val_main_v9 (F := Ideal) (A m c main_arg2) :=
  (W2_of_ne m c main_v9 (by decide)).trans (s0_v9 m c)
theorem c2_arg2 : W2 m c (Proc.devRef .tc main_arg2) = A m c main_arg2 :=
  (W2_of_ne m c main_arg2 (by decide)).trans (s0_arg2 m c)
theorem c2_arg3 : W2 m c (Proc.devRef .tc main_arg3) = A m c main_arg3 :=
  (W2_of_ne m c main_arg3 (by decide)).trans (s0_arg3 m c)
theorem c2_arg4 : W2 m c (Proc.devRef .tc main_arg4) = A m c main_arg4 :=
  (W2_of_ne m c main_arg4 (by decide)).trans (s0_arg4 m c)
theorem c2_arg5 : W2 m c (Proc.devRef .tc main_arg5) = A m c main_arg5 :=
  (W2_of_ne m c main_arg5 (by decide)).trans (s0_arg5 m c)
theorem c2_arg6 : W2 m c (Proc.devRef .tc main_arg6) = A m c main_arg6 :=
  (W2_of_ne m c main_arg6 (by decide)).trans (s0_arg6 m c)
theorem c2_arg7 : W2 m c (Proc.devRef .tc main_arg7) = A m c main_arg7 :=
  (W2_of_ne m c main_arg7 (by decide)).trans (s0_arg7 m c)
theorem c2_arg8 : W2 m c (Proc.devRef .tc main_arg8) = A m c main_arg8 :=
  (W2_of_ne m c main_arg8 (by decide)).trans (s0_arg8 m c)
theorem c2_arg9 : W2 m c (Proc.devRef .tc main_arg9) = A m c main_arg9 :=
  (W2_of_ne m c main_arg9 (by decide)).trans (s0_arg9 m c)
theorem c2_arg10 : W2 m c (Proc.devRef .tc main_arg10) = A m c main_arg10 :=
  (W2_of_ne m c main_arg10 (by decide)).trans (s0_arg10 m c)
theorem c2_arg11 : W2 m c (Proc.devRef .tc main_arg11) = A m c main_arg11 :=
  (W2_of_ne m c main_arg11 (by decide)).trans (s0_arg11 m c)
theorem c2_arg12 : W2 m c (Proc.devRef .tc main_arg12) = A m c main_arg12 :=
  (W2_of_ne m c main_arg12 (by decide)).trans (s0_arg12 m c)
theorem c2_arg13 : W2 m c (Proc.devRef .tc main_arg13) = A m c main_arg13 :=
  (W2_of_ne m c main_arg13 (by decide)).trans (s0_arg13 m c)
theorem c2_arg14 : W2 m c (Proc.devRef .tc main_arg14) = A m c main_arg14 :=
  (W2_of_ne m c main_arg14 (by decide)).trans (s0_arg14 m c)

/-! ## The second host stretch -/

set_option maxHeartbeats 2000000 in
theorem s1_v48 (hpos : ∀ (l : Fin 3) (k : Fin 128), 0 < varAt m c l k + Cert.Spec.eps) : W3 m c (Proc.devRef .tc main_v48) = Cert.ReferenceIdeal.Read.val_main_v64 (F := Ideal) (A m c main_arg0) (A m c main_arg1) (A m c main_arg2) (A m c main_arg3) (A m c main_arg4) (A m c main_arg5) (A m c main_arg6) (A m c main_arg7) (A m c main_arg8) (A m c main_arg9) (A m c main_arg10) := by
  after_results_simp
  simp only [r0 m c hpos, c2_v1 m c, c2_v3 m c, c2_v9 m c, c2_arg2 m c, c2_arg3 m c, c2_arg4 m c, c2_arg5 m c, c2_arg6 m c, c2_arg7 m c, c2_arg8 m c, c2_arg9 m c, c2_arg10 m c, c2_arg11 m c, c2_arg12 m c, c2_arg13 m c, c2_arg14 m c]
  rfl
set_option maxHeartbeats 2000000 in
theorem s1_v59 (hpos : ∀ (l : Fin 3) (k : Fin 128), 0 < varAt m c l k + Cert.Spec.eps) : W3 m c (Proc.devRef .tc main_v59) = Cert.ReferenceIdeal.Read.val_main_v75 (F := Ideal) (A m c main_arg0) (A m c main_arg1) (A m c main_arg3) (A m c main_arg4) (A m c main_arg5) (A m c main_arg6) (A m c main_arg7) (A m c main_arg8) (A m c main_arg9) (A m c main_arg10) := by
  after_results_simp
  simp only [r0 m c hpos, c2_v1 m c, c2_v3 m c, c2_v9 m c, c2_arg2 m c, c2_arg3 m c, c2_arg4 m c, c2_arg5 m c, c2_arg6 m c, c2_arg7 m c, c2_arg8 m c, c2_arg9 m c, c2_arg10 m c, c2_arg11 m c, c2_arg12 m c, c2_arg13 m c, c2_arg14 m c]
  rfl
set_option maxHeartbeats 2000000 in
theorem s1_v61 : W3 m c (Proc.devRef .tc main_v61) = Cert.ReferenceIdeal.Read.val_main_v77 (F := Ideal) (A m c main_arg3) := by
  after_results_simp
  simp only [c2_v1 m c, c2_v3 m c, c2_v9 m c, c2_arg2 m c, c2_arg3 m c, c2_arg4 m c, c2_arg5 m c, c2_arg6 m c, c2_arg7 m c, c2_arg8 m c, c2_arg9 m c, c2_arg10 m c, c2_arg11 m c, c2_arg12 m c, c2_arg13 m c, c2_arg14 m c]
  rfl
set_option maxHeartbeats 2000000 in
theorem s1_v73 : W3 m c (Proc.devRef .tc main_v73) = Cert.ReferenceIdeal.Read.val_main_v107 (F := Ideal) (A m c main_arg9) := by
  after_results_simp
  simp only [c2_v1 m c, c2_v3 m c, c2_v9 m c, c2_arg2 m c, c2_arg3 m c, c2_arg4 m c, c2_arg5 m c, c2_arg6 m c, c2_arg7 m c, c2_arg8 m c, c2_arg9 m c, c2_arg10 m c, c2_arg11 m c, c2_arg12 m c, c2_arg13 m c, c2_arg14 m c]
  rfl
set_option maxHeartbeats 2000000 in
theorem s1_row76 (k : Fin 128) : (W3 m c (Proc.devRef .tc main_v76) : S1x128.Idx → EReal) (ix2 (0 : Fin 1) k) = Cert.ReferenceIdeal.Read.val_main_v80 (F := Ideal) (A m c main_arg4) (ix1 k) := by
  after_results_simp
  simp only [c2_v1 m c, c2_v3 m c, c2_v9 m c, c2_arg2 m c, c2_arg3 m c, c2_arg4 m c, c2_arg5 m c, c2_arg6 m c, c2_arg7 m c, c2_arg8 m c, c2_arg9 m c, c2_arg10 m c, c2_arg11 m c, c2_arg12 m c, c2_arg13 m c, c2_arg14 m c]
  exact shapeCast_a_1a_apply _ _ (0 : Fin 1) k
set_option maxHeartbeats 2000000 in
theorem s1_row77 (k : Fin 128) : (W3 m c (Proc.devRef .tc main_v77) : S1x128.Idx → EReal) (ix2 (0 : Fin 1) k) = Cert.ReferenceIdeal.Read.val_main_v90 (F := Ideal) (A m c main_arg5) (ix1 k) := by
  after_results_simp
  simp only [c2_v1 m c, c2_v3 m c, c2_v9 m c, c2_arg2 m c, c2_arg3 m c, c2_arg4 m c, c2_arg5 m c, c2_arg6 m c, c2_arg7 m c, c2_arg8 m c, c2_arg9 m c, c2_arg10 m c, c2_arg11 m c, c2_arg12 m c, c2_arg13 m c, c2_arg14 m c]
  exact shapeCast_a_1a_apply _ _ (0 : Fin 1) k
set_option maxHeartbeats 2000000 in
theorem s1_row78 (k : Fin 128) : (W3 m c (Proc.devRef .tc main_v78) : S1x128.Idx → EReal) (ix2 (0 : Fin 1) k) = Cert.ReferenceIdeal.Read.val_main_v101 (F := Ideal) (A m c main_arg6) (ix1 k) := by
  after_results_simp
  simp only [c2_v1 m c, c2_v3 m c, c2_v9 m c, c2_arg2 m c, c2_arg3 m c, c2_arg4 m c, c2_arg5 m c, c2_arg6 m c, c2_arg7 m c, c2_arg8 m c, c2_arg9 m c, c2_arg10 m c, c2_arg11 m c, c2_arg12 m c, c2_arg13 m c, c2_arg14 m c]
  exact shapeCast_a_1a_apply _ _ (0 : Fin 1) k
set_option maxHeartbeats 2000000 in
theorem s1_row79 (k : Fin 128) : (W3 m c (Proc.devRef .tc main_v79) : S1x128.Idx → EReal) (ix2 (0 : Fin 1) k) = Cert.ReferenceIdeal.Read.val_main_v85 (F := Ideal) (A m c main_arg7) (ix1 k) := by
  after_results_simp
  simp only [c2_v1 m c, c2_v3 m c, c2_v9 m c, c2_arg2 m c, c2_arg3 m c, c2_arg4 m c, c2_arg5 m c, c2_arg6 m c, c2_arg7 m c, c2_arg8 m c, c2_arg9 m c, c2_arg10 m c, c2_arg11 m c, c2_arg12 m c, c2_arg13 m c, c2_arg14 m c]
  exact shapeCast_a_1a_apply _ _ (0 : Fin 1) k
set_option maxHeartbeats 2000000 in
theorem s1_row80 (k : Fin 128) : (W3 m c (Proc.devRef .tc main_v80) : S1x128.Idx → EReal) (ix2 (0 : Fin 1) k) = Cert.ReferenceIdeal.Read.val_main_v92 (F := Ideal) (A m c main_arg8) (ix1 k) := by
  after_results_simp
  simp only [c2_v1 m c, c2_v3 m c, c2_v9 m c, c2_arg2 m c, c2_arg3 m c, c2_arg4 m c, c2_arg5 m c, c2_arg6 m c, c2_arg7 m c, c2_arg8 m c, c2_arg9 m c, c2_arg10 m c, c2_arg11 m c, c2_arg12 m c, c2_arg13 m c, c2_arg14 m c]
  exact shapeCast_a_1a_apply _ _ (0 : Fin 1) k
set_option maxHeartbeats 2000000 in
theorem s1_row81 (k : Fin 128) : (W3 m c (Proc.devRef .tc main_v81) : S1x128.Idx → EReal) (ix2 (0 : Fin 1) k) = Cert.ReferenceIdeal.Read.val_main_v110 (F := Ideal) (A m c main_arg10) (ix1 k) := by
  after_results_simp
  simp only [c2_v1 m c, c2_v3 m c, c2_v9 m c, c2_arg2 m c, c2_arg3 m c, c2_arg4 m c, c2_arg5 m c, c2_arg6 m c, c2_arg7 m c, c2_arg8 m c, c2_arg9 m c, c2_arg10 m c, c2_arg11 m c, c2_arg12 m c, c2_arg13 m c, c2_arg14 m c]
  exact shapeCast_a_1a_apply _ _ (0 : Fin 1) k
set_option maxHeartbeats 2000000 in
theorem s1c_v1 : W3 m c (Proc.devRef .tc main_v1) = Cert.ReferenceIdeal.Read.val_main_v1 (F := Ideal) (A m c main_arg1) := by
  after_results_simp
  exact c2_v1 m c
set_option maxHeartbeats 2000000 in
theorem s1c_v3 : W3 m c (Proc.devRef .tc main_v3) = Cert.ReferenceIdeal.Read.val_main_v3 (F := Ideal) (A m c main_arg1) := by
  after_results_simp
  exact c2_v3 m c
set_option maxHeartbeats 2000000 in
theorem s1c_v9 : W3 m c (Proc.devRef .tc main_v9) = Cert.ReferenceIdeal.Read.val_main_v9 (F := Ideal) (A m c main_arg2) := by
  after_results_simp
  exact c2_v9 m c
set_option maxHeartbeats 2000000 in
theorem s1c_arg2 : W3 m c (Proc.devRef .tc main_arg2) = A m c main_arg2 := by
  after_results_simp
  exact c2_arg2 m c
set_option maxHeartbeats 2000000 in
theorem s1c_arg3 : W3 m c (Proc.devRef .tc main_arg3) = A m c main_arg3 := by
  after_results_simp
  exact c2_arg3 m c
set_option maxHeartbeats 2000000 in
theorem s1c_arg4 : W3 m c (Proc.devRef .tc main_arg4) = A m c main_arg4 := by
  after_results_simp
  exact c2_arg4 m c
set_option maxHeartbeats 2000000 in
theorem s1c_arg5 : W3 m c (Proc.devRef .tc main_arg5) = A m c main_arg5 := by
  after_results_simp
  exact c2_arg5 m c
set_option maxHeartbeats 2000000 in
theorem s1c_arg6 : W3 m c (Proc.devRef .tc main_arg6) = A m c main_arg6 := by
  after_results_simp
  exact c2_arg6 m c
set_option maxHeartbeats 2000000 in
theorem s1c_arg7 : W3 m c (Proc.devRef .tc main_arg7) = A m c main_arg7 := by
  after_results_simp
  exact c2_arg7 m c
set_option maxHeartbeats 2000000 in
theorem s1c_arg8 : W3 m c (Proc.devRef .tc main_arg8) = A m c main_arg8 := by
  after_results_simp
  exact c2_arg8 m c
set_option maxHeartbeats 2000000 in
theorem s1c_arg9 : W3 m c (Proc.devRef .tc main_arg9) = A m c main_arg9 := by
  after_results_simp
  exact c2_arg9 m c
set_option maxHeartbeats 2000000 in
theorem s1c_arg10 : W3 m c (Proc.devRef .tc main_arg10) = A m c main_arg10 := by
  after_results_simp
  exact c2_arg10 m c
set_option maxHeartbeats 2000000 in
theorem s1c_arg11 : W3 m c (Proc.devRef .tc main_arg11) = A m c main_arg11 := by
  after_results_simp
  exact c2_arg11 m c
set_option maxHeartbeats 2000000 in
theorem s1c_arg12 : W3 m c (Proc.devRef .tc main_arg12) = A m c main_arg12 := by
  after_results_simp
  exact c2_arg12 m c
set_option maxHeartbeats 2000000 in
theorem s1c_arg13 : W3 m c (Proc.devRef .tc main_arg13) = A m c main_arg13 := by
  after_results_simp
  exact c2_arg13 m c
set_option maxHeartbeats 2000000 in
theorem s1c_arg14 : W3 m c (Proc.devRef .tc main_arg14) = A m c main_arg14 := by
  after_results_simp
  exact c2_arg14 m c

/-! ## Region 1 -/

set_option maxHeartbeats 2000000 in
theorem r1 (hpos : ∀ (l : Fin 3) (k : Fin 128), 0 < varAt m c l k + Cert.Spec.eps) :
    W4 m c (Proc.devRef .tc main_v82) = Cert.ReferenceIdeal.Read.val_main_v114 (F := Ideal) (A m c main_arg0) (A m c main_arg1) (A m c main_arg3) (A m c main_arg4) (A m c main_arg5) (A m c main_arg6) (A m c main_arg7) (A m c main_arg8) (A m c main_arg9) (A m c main_arg10) := by
  refine (W4_arr m c 9).trans ((Cert.KernelIdeal.Arr.final1 (V3 m) c).trans ?_)
  funext i
  obtain ⟨r, j, rfl⟩ : ∃ (r : Fin 100000) (j : Fin 128), i = ix2 r j := ⟨i 0, i 1, eq_ix2 i⟩
  refine Eq.trans ?_ (Cert.RefLayer.ref_layer2 _ _ _ _ _ _ _ _ _ _ r j).symm
  unfold Cert.KernelIdeal.Arr.G
  refine Cert.Spec.layer_bridge _ _ _ _ _ _ _ _ _ _ _ _ _ _ _ _ _ _ j ?_ ?_ ?_ ?_ ?_ ?_ ?_ ?_ ?_ ?_
  · exact funext fun k => congrFun (s1_v59 m c hpos) (ix2 r k)
  · exact funext fun x => funext fun y => congrFun (s1_v61 m c) (ix2 x y)
  · exact funext (s1_row76 m c)
  · exact funext (s1_row77 m c)
  · exact funext (s1_row78 m c)
  · exact funext (s1_row79 m c)
  · exact funext (s1_row80 m c)
  · exact funext fun x => funext fun y => congrFun (s1_v73 m c) (ix2 x y)
  · exact funext (s1_row81 m c)
  · intro k
    rw [Cert.RefVar.var_row2]
    exact hpos 1 k

/-! ## What region 1 leaves untouched -/

theorem c4_v1 : W4 m c (Proc.devRef .tc main_v1) = Cert.ReferenceIdeal.Read.val_main_v1 (F := Ideal) (A m c main_arg1) :=
  (W4_of_ne m c main_v1 (by decide)).trans (s1c_v1 m c)
theorem c4_v3 : W4 m c (Proc.devRef .tc main_v3) = Cert.ReferenceIdeal.Read.val_main_v3 (F := Ideal) (A m c main_arg1) :=
  (W4_of_ne m c main_v3 (by decide)).trans (s1c_v3 m c)
theorem c4_v9 : W4 m c (Proc.devRef .tc main_v9) = Cert.ReferenceIdeal.Read.val_main_v9 (F := Ideal) (A m c main_arg2) :=
  (W4_of_ne m c main_v9 (by decide)).trans (s1c_v9 m c)
theorem c4_arg2 : W4 m c (Proc.devRef .tc main_arg2) = A m c main_arg2 :=
  (W4_of_ne m c main_arg2 (by decide)).trans (s1c_arg2 m c)
theorem c4_arg3 : W4 m c (Proc.devRef .tc main_arg3) = A m c main_arg3 :=
  (W4_of_ne m c main_arg3 (by decide)).trans (s1c_arg3 m c)
theorem c4_arg4 : W4 m c (Proc.devRef .tc main_arg4) = A m c main_arg4 :=
  (W4_of_ne m c main_arg4 (by decide)).trans (s1c_arg4 m c)
theorem c4_arg5 : W4 m c (Proc.devRef .tc main_arg5) = A m c main_arg5 :=
  (W4_of_ne m c main_arg5 (by decide)).trans (s1c_arg5 m c)
theorem c4_arg6 : W4 m c (Proc.devRef .tc main_arg6) = A m c main_arg6 :=
  (W4_of_ne m c main_arg6 (by decide)).trans (s1c_arg6 m c)
theorem c4_arg7 : W4 m c (Proc.devRef .tc main_arg7) = A m c main_arg7 :=
  (W4_of_ne m c main_arg7 (by decide)).trans (s1c_arg7 m c)
theorem c4_arg8 : W4 m c (Proc.devRef .tc main_arg8) = A m c main_arg8 :=
  (W4_of_ne m c main_arg8 (by decide)).trans (s1c_arg8 m c)
theorem c4_arg9 : W4 m c (Proc.devRef .tc main_arg9) = A m c main_arg9 :=
  (W4_of_ne m c main_arg9 (by decide)).trans (s1c_arg9 m c)
theorem c4_arg10 : W4 m c (Proc.devRef .tc main_arg10) = A m c main_arg10 :=
  (W4_of_ne m c main_arg10 (by decide)).trans (s1c_arg10 m c)
theorem c4_arg11 : W4 m c (Proc.devRef .tc main_arg11) = A m c main_arg11 :=
  (W4_of_ne m c main_arg11 (by decide)).trans (s1c_arg11 m c)
theorem c4_arg12 : W4 m c (Proc.devRef .tc main_arg12) = A m c main_arg12 :=
  (W4_of_ne m c main_arg12 (by decide)).trans (s1c_arg12 m c)
theorem c4_arg13 : W4 m c (Proc.devRef .tc main_arg13) = A m c main_arg13 :=
  (W4_of_ne m c main_arg13 (by decide)).trans (s1c_arg13 m c)
theorem c4_arg14 : W4 m c (Proc.devRef .tc main_arg14) = A m c main_arg14 :=
  (W4_of_ne m c main_arg14 (by decide)).trans (s1c_arg14 m c)
theorem c4_v48 (hpos : ∀ (l : Fin 3) (k : Fin 128), 0 < varAt m c l k + Cert.Spec.eps) : W4 m c (Proc.devRef .tc main_v48) = Cert.ReferenceIdeal.Read.val_main_v64 (F := Ideal) (A m c main_arg0) (A m c main_arg1) (A m c main_arg2) (A m c main_arg3) (A m c main_arg4) (A m c main_arg5) (A m c main_arg6) (A m c main_arg7) (A m c main_arg8) (A m c main_arg9) (A m c main_arg10) :=
  (W4_of_ne m c main_v48 (by decide)).trans (s1_v48 m c hpos)

/-! ## The third host stretch -/

set_option maxHeartbeats 2000000 in
theorem s2_v87 (hpos : ∀ (l : Fin 3) (k : Fin 128), 0 < varAt m c l k + Cert.Spec.eps) : W5 m c (Proc.devRef .tc main_v87) = Cert.ReferenceIdeal.Read.val_main_v119 (F := Ideal) (A m c main_arg0) (A m c main_arg1) (A m c main_arg2) (A m c main_arg3) (A m c main_arg4) (A m c main_arg5) (A m c main_arg6) (A m c main_arg7) (A m c main_arg8) (A m c main_arg9) (A m c main_arg10) := by
  after_results_simp
  simp only [r1 m c hpos, c4_v1 m c, c4_v3 m c, c4_v9 m c, c4_arg2 m c, c4_arg3 m c, c4_arg4 m c, c4_arg5 m c, c4_arg6 m c, c4_arg7 m c, c4_arg8 m c, c4_arg9 m c, c4_arg10 m c, c4_arg11 m c, c4_arg12 m c, c4_arg13 m c, c4_arg14 m c]
  rfl
set_option maxHeartbeats 2000000 in
theorem s2_v98 (hpos : ∀ (l : Fin 3) (k : Fin 128), 0 < varAt m c l k + Cert.Spec.eps) : W5 m c (Proc.devRef .tc main_v98) = Cert.ReferenceIdeal.Read.val_main_v130 (F := Ideal) (A m c main_arg0) (A m c main_arg1) (A m c main_arg3) (A m c main_arg4) (A m c main_arg5) (A m c main_arg6) (A m c main_arg7) (A m c main_arg8) (A m c main_arg9) (A m c main_arg10) := by
  after_results_simp
  simp only [r1 m c hpos, c4_v1 m c, c4_v3 m c, c4_v9 m c, c4_arg2 m c, c4_arg3 m c, c4_arg4 m c, c4_arg5 m c, c4_arg6 m c, c4_arg7 m c, c4_arg8 m c, c4_arg9 m c, c4_arg10 m c, c4_arg11 m c, c4_arg12 m c, c4_arg13 m c, c4_arg14 m c]
  rfl
set_option maxHeartbeats 2000000 in
theorem s2_v100 : W5 m c (Proc.devRef .tc main_v100) = Cert.ReferenceIdeal.Read.val_main_v132 (F := Ideal) (A m c main_arg3) := by
  after_results_simp
  simp only [c4_v1 m c, c4_v3 m c, c4_v9 m c, c4_arg2 m c, c4_arg3 m c, c4_arg4 m c, c4_arg5 m c, c4_arg6 m c, c4_arg7 m c, c4_arg8 m c, c4_arg9 m c, c4_arg10 m c, c4_arg11 m c, c4_arg12 m c, c4_arg13 m c, c4_arg14 m c]
  rfl
set_option maxHeartbeats 2000000 in
theorem s2_v112 : W5 m c (Proc.devRef .tc main_v112) = Cert.ReferenceIdeal.Read.val_main_v162 (F := Ideal) (A m c main_arg9) := by
  after_results_simp
  simp only [c4_v1 m c, c4_v3 m c, c4_v9 m c, c4_arg2 m c, c4_arg3 m c, c4_arg4 m c, c4_arg5 m c, c4_arg6 m c, c4_arg7 m c, c4_arg8 m c, c4_arg9 m c, c4_arg10 m c, c4_arg11 m c, c4_arg12 m c, c4_arg13 m c, c4_arg14 m c]
  rfl
set_option maxHeartbeats 2000000 in
theorem s2_row115 (k : Fin 128) : (W5 m c (Proc.devRef .tc main_v115) : S1x128.Idx → EReal) (ix2 (0 : Fin 1) k) = Cert.ReferenceIdeal.Read.val_main_v135 (F := Ideal) (A m c main_arg4) (ix1 k) := by
  after_results_simp
  simp only [c4_v1 m c, c4_v3 m c, c4_v9 m c, c4_arg2 m c, c4_arg3 m c, c4_arg4 m c, c4_arg5 m c, c4_arg6 m c, c4_arg7 m c, c4_arg8 m c, c4_arg9 m c, c4_arg10 m c, c4_arg11 m c, c4_arg12 m c, c4_arg13 m c, c4_arg14 m c]
  exact shapeCast_a_1a_apply _ _ (0 : Fin 1) k
set_option maxHeartbeats 2000000 in
theorem s2_row116 (k : Fin 128) : (W5 m c (Proc.devRef .tc main_v116) : S1x128.Idx → EReal) (ix2 (0 : Fin 1) k) = Cert.ReferenceIdeal.Read.val_main_v145 (F := Ideal) (A m c main_arg5) (ix1 k) := by
  after_results_simp
  simp only [c4_v1 m c, c4_v3 m c, c4_v9 m c, c4_arg2 m c, c4_arg3 m c, c4_arg4 m c, c4_arg5 m c, c4_arg6 m c, c4_arg7 m c, c4_arg8 m c, c4_arg9 m c, c4_arg10 m c, c4_arg11 m c, c4_arg12 m c, c4_arg13 m c, c4_arg14 m c]
  exact shapeCast_a_1a_apply _ _ (0 : Fin 1) k
set_option maxHeartbeats 2000000 in
theorem s2_row117 (k : Fin 128) : (W5 m c (Proc.devRef .tc main_v117) : S1x128.Idx → EReal) (ix2 (0 : Fin 1) k) = Cert.ReferenceIdeal.Read.val_main_v156 (F := Ideal) (A m c main_arg6) (ix1 k) := by
  after_results_simp
  simp only [c4_v1 m c, c4_v3 m c, c4_v9 m c, c4_arg2 m c, c4_arg3 m c, c4_arg4 m c, c4_arg5 m c, c4_arg6 m c, c4_arg7 m c, c4_arg8 m c, c4_arg9 m c, c4_arg10 m c, c4_arg11 m c, c4_arg12 m c, c4_arg13 m c, c4_arg14 m c]
  exact shapeCast_a_1a_apply _ _ (0 : Fin 1) k
set_option maxHeartbeats 2000000 in
theorem s2_row118 (k : Fin 128) : (W5 m c (Proc.devRef .tc main_v118) : S1x128.Idx → EReal) (ix2 (0 : Fin 1) k) = Cert.ReferenceIdeal.Read.val_main_v140 (F := Ideal) (A m c main_arg7) (ix1 k) := by
  after_results_simp
  simp only [c4_v1 m c, c4_v3 m c, c4_v9 m c, c4_arg2 m c, c4_arg3 m c, c4_arg4 m c, c4_arg5 m c, c4_arg6 m c, c4_arg7 m c, c4_arg8 m c, c4_arg9 m c, c4_arg10 m c, c4_arg11 m c, c4_arg12 m c, c4_arg13 m c, c4_arg14 m c]
  exact shapeCast_a_1a_apply _ _ (0 : Fin 1) k
set_option maxHeartbeats 2000000 in
theorem s2_row119 (k : Fin 128) : (W5 m c (Proc.devRef .tc main_v119) : S1x128.Idx → EReal) (ix2 (0 : Fin 1) k) = Cert.ReferenceIdeal.Read.val_main_v147 (F := Ideal) (A m c main_arg8) (ix1 k) := by
  after_results_simp
  simp only [c4_v1 m c, c4_v3 m c, c4_v9 m c, c4_arg2 m c, c4_arg3 m c, c4_arg4 m c, c4_arg5 m c, c4_arg6 m c, c4_arg7 m c, c4_arg8 m c, c4_arg9 m c, c4_arg10 m c, c4_arg11 m c, c4_arg12 m c, c4_arg13 m c, c4_arg14 m c]
  exact shapeCast_a_1a_apply _ _ (0 : Fin 1) k
set_option maxHeartbeats 2000000 in
theorem s2_row120 (k : Fin 128) : (W5 m c (Proc.devRef .tc main_v120) : S1x128.Idx → EReal) (ix2 (0 : Fin 1) k) = Cert.ReferenceIdeal.Read.val_main_v165 (F := Ideal) (A m c main_arg10) (ix1 k) := by
  after_results_simp
  simp only [c4_v1 m c, c4_v3 m c, c4_v9 m c, c4_arg2 m c, c4_arg3 m c, c4_arg4 m c, c4_arg5 m c, c4_arg6 m c, c4_arg7 m c, c4_arg8 m c, c4_arg9 m c, c4_arg10 m c, c4_arg11 m c, c4_arg12 m c, c4_arg13 m c, c4_arg14 m c]
  exact shapeCast_a_1a_apply _ _ (0 : Fin 1) k
set_option maxHeartbeats 2000000 in
theorem s2c_v9 : W5 m c (Proc.devRef .tc main_v9) = Cert.ReferenceIdeal.Read.val_main_v9 (F := Ideal) (A m c main_arg2) := by
  after_results_simp
  exact c4_v9 m c
set_option maxHeartbeats 2000000 in
theorem s2c_arg2 : W5 m c (Proc.devRef .tc main_arg2) = A m c main_arg2 := by
  after_results_simp
  exact c4_arg2 m c
set_option maxHeartbeats 2000000 in
theorem s2c_arg11 : W5 m c (Proc.devRef .tc main_arg11) = A m c main_arg11 := by
  after_results_simp
  exact c4_arg11 m c
set_option maxHeartbeats 2000000 in
theorem s2c_arg12 : W5 m c (Proc.devRef .tc main_arg12) = A m c main_arg12 := by
  after_results_simp
  exact c4_arg12 m c
set_option maxHeartbeats 2000000 in
theorem s2c_arg13 : W5 m c (Proc.devRef .tc main_arg13) = A m c main_arg13 := by
  after_results_simp
  exact c4_arg13 m c
set_option maxHeartbeats 2000000 in
theorem s2c_arg14 : W5 m c (Proc.devRef .tc main_arg14) = A m c main_arg14 := by
  after_results_simp
  exact c4_arg14 m c
set_option maxHeartbeats 2000000 in
theorem s2c_v48 (hpos : ∀ (l : Fin 3) (k : Fin 128), 0 < varAt m c l k + Cert.Spec.eps) : W5 m c (Proc.devRef .tc main_v48) = Cert.ReferenceIdeal.Read.val_main_v64 (F := Ideal) (A m c main_arg0) (A m c main_arg1) (A m c main_arg2) (A m c main_arg3) (A m c main_arg4) (A m c main_arg5) (A m c main_arg6) (A m c main_arg7) (A m c main_arg8) (A m c main_arg9) (A m c main_arg10) := by
  after_results_simp
  exact c4_v48 m c hpos

/-! ## Region 2 -/

set_option maxHeartbeats 2000000 in
theorem r2 (hpos : ∀ (l : Fin 3) (k : Fin 128), 0 < varAt m c l k + Cert.Spec.eps) :
    W6 m c (Proc.devRef .tc main_v121) = Cert.ReferenceIdeal.Read.val_main_v169 (F := Ideal) (A m c main_arg0) (A m c main_arg1) (A m c main_arg3) (A m c main_arg4) (A m c main_arg5) (A m c main_arg6) (A m c main_arg7) (A m c main_arg8) (A m c main_arg9) (A m c main_arg10) := by
  refine (W6_arr m c 9).trans ((Cert.KernelIdeal.Arr.final2 (V5 m) c).trans ?_)
  funext i
  obtain ⟨r, j, rfl⟩ : ∃ (r : Fin 100000) (j : Fin 128), i = ix2 r j := ⟨i 0, i 1, eq_ix2 i⟩
  refine Eq.trans ?_ (Cert.RefLayer.ref_layer3 _ _ _ _ _ _ _ _ _ _ r j).symm
  unfold Cert.KernelIdeal.Arr.G
  refine Cert.Spec.layer_bridge _ _ _ _ _ _ _ _ _ _ _ _ _ _ _ _ _ _ j ?_ ?_ ?_ ?_ ?_ ?_ ?_ ?_ ?_ ?_
  · exact funext fun k => congrFun (s2_v98 m c hpos) (ix2 r k)
  · exact funext fun x => funext fun y => congrFun (s2_v100 m c) (ix2 x y)
  · exact funext (s2_row115 m c)
  · exact funext (s2_row116 m c)
  · exact funext (s2_row117 m c)
  · exact funext (s2_row118 m c)
  · exact funext (s2_row119 m c)
  · exact funext fun x => funext fun y => congrFun (s2_v112 m c) (ix2 x y)
  · exact funext (s2_row120 m c)
  · intro k
    rw [Cert.RefVar.var_row3]
    exact hpos 2 k

/-! ## What region 2 leaves untouched -/

theorem c6_v9 : W6 m c (Proc.devRef .tc main_v9) = Cert.ReferenceIdeal.Read.val_main_v9 (F := Ideal) (A m c main_arg2) :=
  (W6_of_ne m c main_v9 (by decide)).trans (s2c_v9 m c)
theorem c6_arg2 : W6 m c (Proc.devRef .tc main_arg2) = A m c main_arg2 :=
  (W6_of_ne m c main_arg2 (by decide)).trans (s2c_arg2 m c)
theorem c6_arg11 : W6 m c (Proc.devRef .tc main_arg11) = A m c main_arg11 :=
  (W6_of_ne m c main_arg11 (by decide)).trans (s2c_arg11 m c)
theorem c6_arg12 : W6 m c (Proc.devRef .tc main_arg12) = A m c main_arg12 :=
  (W6_of_ne m c main_arg12 (by decide)).trans (s2c_arg12 m c)
theorem c6_arg13 : W6 m c (Proc.devRef .tc main_arg13) = A m c main_arg13 :=
  (W6_of_ne m c main_arg13 (by decide)).trans (s2c_arg13 m c)
theorem c6_arg14 : W6 m c (Proc.devRef .tc main_arg14) = A m c main_arg14 :=
  (W6_of_ne m c main_arg14 (by decide)).trans (s2c_arg14 m c)
theorem c6_v48 (hpos : ∀ (l : Fin 3) (k : Fin 128), 0 < varAt m c l k + Cert.Spec.eps) : W6 m c (Proc.devRef .tc main_v48) = Cert.ReferenceIdeal.Read.val_main_v64 (F := Ideal) (A m c main_arg0) (A m c main_arg1) (A m c main_arg2) (A m c main_arg3) (A m c main_arg4) (A m c main_arg5) (A m c main_arg6) (A m c main_arg7) (A m c main_arg8) (A m c main_arg9) (A m c main_arg10) :=
  (W6_of_ne m c main_v48 (by decide)).trans (s2c_v48 m c hpos)
theorem c6_v87 (hpos : ∀ (l : Fin 3) (k : Fin 128), 0 < varAt m c l k + Cert.Spec.eps) : W6 m c (Proc.devRef .tc main_v87) = Cert.ReferenceIdeal.Read.val_main_v119 (F := Ideal) (A m c main_arg0) (A m c main_arg1) (A m c main_arg2) (A m c main_arg3) (A m c main_arg4) (A m c main_arg5) (A m c main_arg6) (A m c main_arg7) (A m c main_arg8) (A m c main_arg9) (A m c main_arg10) :=
  (W6_of_ne m c main_v87 (by decide)).trans (s2_v87 m c hpos)

end Cert.KernelIdeal.Val

end
-- ==== Proof.KI.Val3.lean ====
/-
  The program's two results, read off the last boundary: the projection of the three per-graph means joined along
  the feature axis, and the classifier applied to it, are the reference's last stages of the argument arrays.
-/
import proofs.«143124_j79869211837073_2_alg».proof.Proof.KI.Val

set_option maxRecDepth 16384

noncomputable section

namespace Cert.KernelIdeal.Val

open Idealize.ShloMosaic Idealize.ShloMosaic.TcCoe Idealize.ShloMosaic.ValueIdx Idealize.SL.Sem Idealize.ShloMosaic.StableHlo
open Cert.KernelIdeal Cert.KernelIdeal.Gen Cert.KernelIdeal.Fr

variable (m : (ℓ : Loc nD τ sig) → Buf (Elt Ideal) ℓ) (c : Dev nD)

/-- The join of the three per-graph means read at its own result: the join of the three operands' contents. -/
theorem concat_result (hxs hy) (F : Valuation τ sig (Elt Ideal)) :
    (StableHlo.nary (τ := τ) ![main_v48, main_v87, main_v126] main_v127
        (fun u => concatenate S256x384 1 [⟨S256x128, u 0⟩, ⟨S256x128, u 1⟩, ⟨S256x128, u 2⟩] concatenates_S256x128_S256x128_S256x128_S256x384_d1) hxs hy).result F
        (no_index (Proc.devRef .tc main_v127))
      = concatenate S256x384 1 [⟨S256x128, F (Proc.devRef .tc main_v48)⟩, ⟨S256x128, F (Proc.devRef .tc main_v87)⟩, ⟨S256x128, F (Proc.devRef .tc main_v126)⟩]
          concatenates_S256x128_S256x128_S256x128_S256x384_d1 := by
  rw [nary_result]
  rfl

/-- Joining operands that agree entry by entry gives the same array. -/
theorem concat_congr (x x' y y' z z' : S256x128.Idx → EReal) (hx : x = x') (hy : y = y') (hz : z = z') :
    concatenate S256x384 1 [⟨S256x128, x⟩, ⟨S256x128, y⟩, ⟨S256x128, z⟩] concatenates_S256x128_S256x128_S256x128_S256x384_d1
      = concatenate S256x384 1 [⟨S256x128, x'⟩, ⟨S256x128, y'⟩, ⟨S256x128, z'⟩] concatenates_S256x128_S256x128_S256x128_S256x384_d1 := by
  subst hx hy hz; rfl
set_option maxHeartbeats 2000000 in
theorem s3_v131 (hpos : ∀ (l : Fin 3) (k : Fin 128), 0 < varAt m c l k + Cert.Spec.eps) : W7 m c (Proc.devRef .tc main_v131) = Cert.ReferenceIdeal.Read.val_main_v179 (F := Ideal) (A m c main_arg0) (A m c main_arg1) (A m c main_arg2) (A m c main_arg3) (A m c main_arg4) (A m c main_arg5) (A m c main_arg6) (A m c main_arg7) (A m c main_arg8) (A m c main_arg9) (A m c main_arg10) (A m c main_arg11) (A m c main_arg12) := by
  simp (disch := decide) only [after_cons, after_nil, nullary_result', unary_result', binary_result', ternary_result', quaternary_result', reshape_result',
    unaryIndexed_result', binaryIndexed_result',
    nullary_result_ne', unary_result_ne', binary_result_ne', ternary_result_ne', quaternary_result_ne', reshape_result_ne',
    nary_result_ne', unaryIndexed_result_ne', binaryIndexed_result_ne']
  simp only [c6_arg11 m c, c6_arg12 m c, c6_arg13 m c, c6_arg14 m c]
  generalize hX : (StableHlo.nary (τ := τ) ![main_v48, main_v87, main_v126] main_v127 _ _ _).result _ (Proc.devRef .tc main_v127) = X
  have hX' : X = Cert.ReferenceIdeal.Read.val_main_v175 (F := Ideal) (A m c main_arg0) (A m c main_arg1) (A m c main_arg2) (A m c main_arg3) (A m c main_arg4) (A m c main_arg5) (A m c main_arg6) (A m c main_arg7) (A m c main_arg8) (A m c main_arg9) (A m c main_arg10) := by
    rw [← hX]
    refine (concat_result _ _ _).trans ?_
    refine (concat_congr _ _ _ _ _ _ ?_ ?_ ?_).trans rfl
    · simp (disch := decide) only [nullary_result', unary_result', binary_result', ternary_result', quaternary_result', reshape_result',
    unaryIndexed_result', binaryIndexed_result',
    nullary_result_ne', unary_result_ne', binary_result_ne', ternary_result_ne', quaternary_result_ne', reshape_result_ne',
    nary_result_ne', unaryIndexed_result_ne', binaryIndexed_result_ne']
      exact c6_v48 m c hpos
    · simp (disch := decide) only [nullary_result', unary_result', binary_result', ternary_result', quaternary_result', reshape_result',
    unaryIndexed_result', binaryIndexed_result',
    nullary_result_ne', unary_result_ne', binary_result_ne', ternary_result_ne', quaternary_result_ne', reshape_result_ne',
    nary_result_ne', unaryIndexed_result_ne', binaryIndexed_result_ne']
      exact c6_v87 m c hpos
    · simp (disch := decide) only [nullary_result', unary_result', binary_result', ternary_result', quaternary_result', reshape_result',
    unaryIndexed_result', binaryIndexed_result',
    nullary_result_ne', unary_result_ne', binary_result_ne', ternary_result_ne', quaternary_result_ne', reshape_result_ne',
    nary_result_ne', unaryIndexed_result_ne', binaryIndexed_result_ne']
      simp only [r2 m c hpos, c6_v9 m c, c6_arg2 m c]
      rfl
  rw [hX']
  rfl
set_option maxHeartbeats 2000000 in
theorem s3_v135 (hpos : ∀ (l : Fin 3) (k : Fin 128), 0 < varAt m c l k + Cert.Spec.eps) : W7 m c (Proc.devRef .tc main_v135) = Cert.ReferenceIdeal.Read.val_main_v183 (F := Ideal) (A m c main_arg0) (A m c main_arg1) (A m c main_arg2) (A m c main_arg3) (A m c main_arg4) (A m c main_arg5) (A m c main_arg6) (A m c main_arg7) (A m c main_arg8) (A m c main_arg9) (A m c main_arg10) (A m c main_arg11) (A m c main_arg12) (A m c main_arg13) (A m c main_arg14) := by
  simp (disch := decide) only [after_cons, after_nil, nullary_result', unary_result', binary_result', ternary_result', quaternary_result', reshape_result',
    unaryIndexed_result', binaryIndexed_result',
    nullary_result_ne', unary_result_ne', binary_result_ne', ternary_result_ne', quaternary_result_ne', reshape_result_ne',
    nary_result_ne', unaryIndexed_result_ne', binaryIndexed_result_ne']
  simp only [c6_arg11 m c, c6_arg12 m c, c6_arg13 m c, c6_arg14 m c]
  generalize hX : (StableHlo.nary (τ := τ) ![main_v48, main_v87, main_v126] main_v127 _ _ _).result _ (Proc.devRef .tc main_v127) = X
  have hX' : X = Cert.ReferenceIdeal.Read.val_main_v175 (F := Ideal) (A m c main_arg0) (A m c main_arg1) (A m c main_arg2) (A m c main_arg3) (A m c main_arg4) (A m c main_arg5) (A m c main_arg6) (A m c main_arg7) (A m c main_arg8) (A m c main_arg9) (A m c main_arg10) := by
    rw [← hX]
    refine (concat_result _ _ _).trans ?_
    refine (concat_congr _ _ _ _ _ _ ?_ ?_ ?_).trans rfl
    · simp (disch := decide) only [nullary_result', unary_result', binary_result', ternary_result', quaternary_result', reshape_result',
    unaryIndexed_result', binaryIndexed_result',
    nullary_result_ne', unary_result_ne', binary_result_ne', ternary_result_ne', quaternary_result_ne', reshape_result_ne',
    nary_result_ne', unaryIndexed_result_ne', binaryIndexed_result_ne']
      exact c6_v48 m c hpos
    · simp (disch := decide) only [nullary_result', unary_result', binary_result', ternary_result', quaternary_result', reshape_result',
    unaryIndexed_result', binaryIndexed_result',
    nullary_result_ne', unary_result_ne', binary_result_ne', ternary_result_ne', quaternary_result_ne', reshape_result_ne',
    nary_result_ne', unaryIndexed_result_ne', binaryIndexed_result_ne']
      exact c6_v87 m c hpos
    · simp (disch := decide) only [nullary_result', unary_result', binary_result', ternary_result', quaternary_result', reshape_result',
    unaryIndexed_result', binaryIndexed_result',
    nullary_result_ne', unary_result_ne', binary_result_ne', ternary_result_ne', quaternary_result_ne', reshape_result_ne',
    nary_result_ne', unaryIndexed_result_ne', binaryIndexed_result_ne']
      simp only [r2 m c hpos, c6_v9 m c, c6_arg2 m c]
      rfl
  rw [hX']
  rfl

end Cert.KernelIdeal.Val

end
-- ==== Proof.KI.RunVals.lean ====
/-
  The idealized kernel program's run with its results named: from any memory with zero counters whose variance stack
  plus ε is positive everywhere, every execution of @main terminates, and every final memory holds the two result
  buffers at the reference's two results of the argument arrays as launched, and each argument array as launched.
  The run gives every unscoped buffer at the last boundary's contents; the two result buffers there are the
  reference's stages, and no stretch and no region writes an argument.
-/
import proofs.«143124_j79869211837073_2_alg».proof.Proof.KI.Run
import proofs.«143124_j79869211837073_2_alg».proof.Proof.KI.Val3

set_option maxRecDepth 16384

noncomputable section

namespace Cert.KernelIdeal.Val

open Idealize.ShloMosaic Idealize.ShloMosaic.TcCoe Idealize.ShloMosaic.ValueIdx Idealize.SL.Sem Idealize.ShloMosaic.StableHlo
open Cert.KernelIdeal Cert.KernelIdeal.Gen Cert.KernelIdeal.Fr

/-- Where every entry of the variance stack plus ε is positive: @main terminates, its two result buffers end at the
    reference's results of the launch arguments, and its argument arrays end as launched. -/
theorem run_vals (m : (ℓ : Loc nD τ sig) → Buf (Elt Ideal) ℓ) (ρ : Dev nD → PrngReg)
    (hpos : ∀ (c : Dev nD) (l : Fin 3) (k : Fin 128), 0 < varAt m c l k + Cert.Spec.eps) :
    θ_run defs (onTc (τ := τ) (main (F := Ideal))) ⟨m, fun _ => 0, ρ⟩ (fun r => ∀ c : Dev nD,
      r.2.mem ((c.tc : Thread nD τ).loc main_v131) = Cert.ReferenceIdeal.Read.val_main_v179 (F := Ideal) (A m c main_arg0) (A m c main_arg1) (A m c main_arg2) (A m c main_arg3) (A m c main_arg4) (A m c main_arg5) (A m c main_arg6) (A m c main_arg7) (A m c main_arg8) (A m c main_arg9) (A m c main_arg10) (A m c main_arg11) (A m c main_arg12)
      ∧ r.2.mem ((c.tc : Thread nD τ).loc main_v135) = Cert.ReferenceIdeal.Read.val_main_v183 (F := Ideal) (A m c main_arg0) (A m c main_arg1) (A m c main_arg2) (A m c main_arg3) (A m c main_arg4) (A m c main_arg5) (A m c main_arg6) (A m c main_arg7) (A m c main_arg8) (A m c main_arg9) (A m c main_arg10) (A m c main_arg11) (A m c main_arg12) (A m c main_arg13) (A m c main_arg14)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun r h c =>
    ⟨(h c _ (mem_uc main_v131 (by decide))).trans (s3_v131 m c (hpos c)),
    (h c _ (mem_uc main_v135 (by decide))).trans (s3_v135 m c (hpos c)),
    (h c _ (mem_uc main_arg0 (by decide))).trans (W7_main_arg0 m c),
    (h c _ (mem_uc main_arg1 (by decide))).trans (W7_main_arg1 m c),
    (h c _ (mem_uc main_arg2 (by decide))).trans (W7_main_arg2 m c),
    (h c _ (mem_uc main_arg3 (by decide))).trans (W7_main_arg3 m c),
    (h c _ (mem_uc main_arg4 (by decide))).trans (W7_main_arg4 m c),
    (h c _ (mem_uc main_arg5 (by decide))).trans (W7_main_arg5 m c),
    (h c _ (mem_uc main_arg6 (by decide))).trans (W7_main_arg6 m c),
    (h c _ (mem_uc main_arg7 (by decide))).trans (W7_main_arg7 m c),
    (h c _ (mem_uc main_arg8 (by decide))).trans (W7_main_arg8 m c),
    (h c _ (mem_uc main_arg9 (by decide))).trans (W7_main_arg9 m c),
    (h c _ (mem_uc main_arg10 (by decide))).trans (W7_main_arg10 m c),
    (h c _ (mem_uc main_arg11 (by decide))).trans (W7_main_arg11 m c),
    (h c _ (mem_uc main_arg12 (by decide))).trans (W7_main_arg12 m c),
    (h c _ (mem_uc main_arg13 (by decide))).trans (W7_main_arg13 m c),
    (h c _ (mem_uc main_arg14 (by decide))).trans (W7_main_arg14 m c)⟩) (run_all m ρ)

end Cert.KernelIdeal.Val

end
-- ==== Proof.PrePos.lean ====
/-
  The precondition, decoded at the variances.

  The precondition is a conjunction of tests of the arguments, each an `and` over a whole array, the last of which
  is "every entry of σ² + ε is greater than zero".  A conjunction of bits that is 1 has every conjunct 1, and an
  `and`-reduction over all axes that is 1 has every element 1; the element of the last test at (l, k) says, over
  the extended reals, `0 < σ²[l, k] + ε`.
-/
import proofs.«143124_j79869211837073_2_alg».proof.Pre_finite_inputs
import proofs.«143124_j79869211837073_2_alg».proof.Proof.Spec
import Idealize.ShloMosaic.Lib.ReduceAll
import Idealize.ShloMosaic.Lib.ValueIdx

noncomputable section

namespace Cert.PrePos

open Idealize.ShloMosaic Idealize.ShloMosaic.ValueIdx Cert.Pre_finite_inputs

/-- The rank-0 shape has one index. -/
instance : Subsingleton S_.Idx := ⟨fun a b => funext fun d => d.elim0⟩

/-- A conjunction of two bits is 1 exactly when both are. -/
theorem and1 : ∀ a b : BitVec 1, IntOp.andi a b = 1#1 ↔ a = 1#1 ∧ b = 1#1 := by decide

/-- A truth value printed as a bit is 1 exactly when it is true. -/
theorem ofBool_eq_one (b : Bool) : BitVec.ofBool b = 1#1 ↔ b = true := by cases b <;> decide

/-- Under the precondition every variance plus the offset is positive. -/
theorem var_pos [Cert.Pre_finite_inputs.Facts] (x0 : FVec Ideal S100000x128 .f32) (x1 : IVec S2x1600000 32)
    (x2 : IVec S100000 32) (x3 : FVec Ideal S3x128x128 .f32) (x4 x5 x6 x7 x8 : FVec Ideal S3x128 .f32)
    (x9 : FVec Ideal S3x128x128 .f32) (x10 : FVec Ideal S3x128 .f32) (x11 : FVec Ideal S384x128 .f32)
    (x12 : FVec Ideal S128 .f32) (x13 : FVec Ideal S128x10 .f32) (x14 : FVec Ideal S10 .f32)
    (h : Cert.Pre_finite_inputs.fn (F := Ideal) x0 x1 x2 x3 x4 x5 x6 x7 x8 x9 x10 x11 x12 x13 x14 = fun _ => 1#1)
    (l : Fin 3) (k : Fin 128) : 0 < x8 (ix2 l k) + Cert.Spec.eps := by
  have e := congrFun h ValueIdx.ix0
  unfold fn fn_part1 fn_part2 fn_part3 fn_part4 at e
  dsimp only at e
  have e2 := ((and1 _ _).1 e).2
  have e3 : Ideal.cmp .ogt (x8 (ix2 l k) + Cert.Spec.eps) (Ideal.ofBits .f32 0x00000000#32) = 1#1 :=
    Host.reduce_andi_all _ _ _ _ ValueIdx.ix0 e2 (ix2 l k)
  unfold Ideal.cmp at e3
  rw [ofBool_eq_one, decide_eq_true_eq, Ideal.ofBits_zero_f32] at e3
  exact e3

end Cert.PrePos

end
-- ==== Proof.Algebraic.lean ====
/-
  The two programs compute equal results over the extended reals.

  Under the precondition every `σ² + ε` is positive, so the kernel's per-column scale `γ · rsqrt (σ² + ε)` is the
  reference's `γ / sqrt (σ² + ε)`; with that one law the kernel's two result arrays are, element by element, the
  terms the reference's operations compose from the same argument arrays.  The reference's own run ends at those
  terms of ITS argument arrays, which agree with the kernel's by hypothesis; so the two runs end at equal results,
  each with its arguments unchanged.
-/
import proofs.«143124_j79869211837073_2_alg».proof.Defs
import proofs.«143124_j79869211837073_2_alg».proof.Proof.KI.RunVals
import proofs.«143124_j79869211837073_2_alg».proof.Proof.PrePos
import proofs.«143124_j79869211837073_2_alg».proof.Proof.RefRead
import proofs.«143124_j79869211837073_2_alg».proof.Proof.Gen.KernelIdeal
import proofs.«143124_j79869211837073_2_alg».proof.Proof.Gen.ReferenceIdeal
import proofs.«143124_j79869211837073_2_alg».proof.Proof.Gen.Pre_finite_inputs

noncomputable section

namespace Cert.Proof.Alg

open Idealize.ShloMosaic Idealize.ShloMosaic.TcCoe Idealize.SL.Sem

/-- The kernel's idealisation and the reference end at equal results from memories that agree on the arguments. -/
theorem algebraic : Cert.algebraic_KernelIdeal_ReferenceIdeal := by
  intro m ρ m' ρ' hpre hagree
  have hpos : ∀ (c : Dev Cert.KernelIdeal.nD) (l : Fin 3) (k : Fin 128),
      0 < Cert.KernelIdeal.Val.varAt m c l k + Cert.Spec.eps :=
    fun c l k => Cert.PrePos.var_pos _ _ _ _ _ _ _ _ _ _ _ _ _ _ _ (hpre c) l k
  refine ⟨fun c => Cert.ReferenceIdeal.Read.val_main_v179 (F := Ideal) (Cert.KernelIdeal.Val.A m c Cert.KernelIdeal.main_arg0) (Cert.KernelIdeal.Val.A m c Cert.KernelIdeal.main_arg1) (Cert.KernelIdeal.Val.A m c Cert.KernelIdeal.main_arg2) (Cert.KernelIdeal.Val.A m c Cert.KernelIdeal.main_arg3) (Cert.KernelIdeal.Val.A m c Cert.KernelIdeal.main_arg4) (Cert.KernelIdeal.Val.A m c Cert.KernelIdeal.main_arg5) (Cert.KernelIdeal.Val.A m c Cert.KernelIdeal.main_arg6) (Cert.KernelIdeal.Val.A m c Cert.KernelIdeal.main_arg7) (Cert.KernelIdeal.Val.A m c Cert.KernelIdeal.main_arg8) (Cert.KernelIdeal.Val.A m c Cert.KernelIdeal.main_arg9) (Cert.KernelIdeal.Val.A m c Cert.KernelIdeal.main_arg10) (Cert.KernelIdeal.Val.A m c Cert.KernelIdeal.main_arg11) (Cert.KernelIdeal.Val.A m c Cert.KernelIdeal.main_arg12),
    fun c => Cert.ReferenceIdeal.Read.val_main_v183 (F := Ideal) (Cert.KernelIdeal.Val.A m c Cert.KernelIdeal.main_arg0) (Cert.KernelIdeal.Val.A m c Cert.KernelIdeal.main_arg1) (Cert.KernelIdeal.Val.A m c Cert.KernelIdeal.main_arg2) (Cert.KernelIdeal.Val.A m c Cert.KernelIdeal.main_arg3) (Cert.KernelIdeal.Val.A m c Cert.KernelIdeal.main_arg4) (Cert.KernelIdeal.Val.A m c Cert.KernelIdeal.main_arg5) (Cert.KernelIdeal.Val.A m c Cert.KernelIdeal.main_arg6) (Cert.KernelIdeal.Val.A m c Cert.KernelIdeal.main_arg7) (Cert.KernelIdeal.Val.A m c Cert.KernelIdeal.main_arg8) (Cert.KernelIdeal.Val.A m c Cert.KernelIdeal.main_arg9) (Cert.KernelIdeal.Val.A m c Cert.KernelIdeal.main_arg10) (Cert.KernelIdeal.Val.A m c Cert.KernelIdeal.main_arg11) (Cert.KernelIdeal.Val.A m c Cert.KernelIdeal.main_arg12) (Cert.KernelIdeal.Val.A m c Cert.KernelIdeal.main_arg13) (Cert.KernelIdeal.Val.A m c Cert.KernelIdeal.main_arg14),
    Cert.KernelIdeal.Val.run_vals m ρ hpos, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · rw [Cert.ReferenceIdeal.Read.val_main_v179_eq]
    obtain ⟨e0, e1, e2, e3, e4, e5, e6, e7, e8, e9, e10, e11, e12, -, -⟩ := hagree c
    rw [e0, e1, e2, e3, e4, e5, e6, e7, e8, e9, e10, e11, e12]
  · rw [Cert.ReferenceIdeal.Read.val_main_v183_eq]
    obtain ⟨e0, e1, e2, e3, e4, e5, e6, e7, e8, e9, e10, e11, e12, e13, e14⟩ := hagree c
    rw [e0, e1, e2, e3, e4, e5, e6, e7, e8, e9, e10, e11, e12, e13, e14]

end Cert.Proof.Alg

end
-- ==== Proof.lean ====
/-
  The certificate's claim, assembled from its five parts.

  Three programs are in play: the kernel read at the bit-exact float instance, the same text read over the extended
  reals (its idealisation), and the reference read over the extended reals.
    * Each of the three runs to the end from any memory satisfying the precondition and leaves its fifteen argument
      arrays unchanged (three frame statements).
    * The idealisation rewrote no operation of the kernel, so there is nothing for it to preserve.
    * From memories that agree on the arguments, the idealised kernel and the reference end with equal results,
      element by element over the extended reals.
  For the last part: a layer of the network sends a row `a` of its input to
      clamp0 ((clamp0 (((a·W₁ + b₁) − μ) · s + β))·W₂ + b₂),      clamp0 x = max x 0,
  and the two sides differ only in the spelling of the per-column scale `s`: the kernel's `γ · rsqrt (σ² + ε)`
  against the reference's `γ / sqrt (σ² + ε)`.  The precondition gives `σ² + ε > 0`; there `rsqrt` is the inverse
  of the nonzero square root and a quotient is the product with the inverse, so the two scales are one number.
  Everything else is the same expression on both sides, row by row.  Outside the three layers both programs apply
  the same host operations (neighbour sums by gather and scatter-add, per-graph means, the final projections), so
  that every buffer of the kernel program is one of the reference's stages.
-/
import proofs.«143124_j79869211837073_2_alg».proof.Defs
import proofs.«143124_j79869211837073_2_alg».proof.Proof.Gen.Kernel
import proofs.«143124_j79869211837073_2_alg».proof.Proof.Gen.Kernel.Skeleton
import proofs.«143124_j79869211837073_2_alg».proof.Proof.Gen.Kernel.Launch
import proofs.«143124_j79869211837073_2_alg».proof.Proof.Gen.Kernel.Regions
import proofs.«143124_j79869211837073_2_alg».proof.Proof.Gen.Kernel.Points
import proofs.«143124_j79869211837073_2_alg».proof.Proof.Gen.KernelIdeal
import proofs.«143124_j79869211837073_2_alg».proof.Proof.Gen.KernelIdeal.Skeleton
import proofs.«143124_j79869211837073_2_alg».proof.Proof.Gen.KernelIdeal.Launch
import proofs.«143124_j79869211837073_2_alg».proof.Proof.Gen.KernelIdeal.Regions
import proofs.«143124_j79869211837073_2_alg».proof.Proof.Gen.KernelIdeal.Points
import proofs.«143124_j79869211837073_2_alg».proof.Proof.Gen.ReferenceIdeal
import proofs.«143124_j79869211837073_2_alg».proof.Proof.Gen.Pre_finite_inputs
import proofs.«143124_j79869211837073_2_alg».proof.Proof.Frames
import proofs.«143124_j79869211837073_2_alg».proof.Proof.Algebraic
import Idealize.ShloMosaic.Adequacy
import Idealize.ShloMosaic.Init

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_finite_inputs.Gen.facts, Cert.Proof.Frames.frame_p, Cert.Proof.Frames.frame_pi, Cert.Proof.Frames.frame_ri, Cert.Proof.Frames.preserves, Cert.Proof.Alg.algebraic⟩

end Cert.Proof

end
